-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v20) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x2048x1024 : Shape := ⟨3, ![8, 2048, 1024]⟩
abbrev S1024x64 : Shape := ⟨2, ![1024, 64]⟩
abbrev S_ : Shape := ⟨0, ![]⟩

class Facts : Prop where
  bcast_S_S8x2048x1024 : S_.BroadcastsInDim S8x2048x1024 (![] : Fin 0 → Fin S8x2048x1024.rank)
  reducesTo_S8x2048x1024_S_d0_1_2 : S8x2048x1024.ReducesTo [0, 1, 2] S_
  h_S_ : 0 < S_.numel
  bcast_S_S1024x64 : S_.BroadcastsInDim S1024x64 (![] : Fin 0 → Fin S1024x64.rank)
  reducesTo_S1024x64_S_d0_1 : S1024x64.ReducesTo [0, 1] S_

variable [Facts]

def fn_part1 {F : FTy → Type} [FloatOps F] (main_v13 : IVec S_ 1) (main_v16 : IVec S1024x64 1) : IVec S_ 1 :=
  let main_c_5 : IVec S_ 1 := constantI S_ 1 1#1
  let main_v17 : IVec S_ 1 := (fun x v => Host.reduce IntOp.andi x v reducesTo_S1024x64_S_d0_1 h_S_) main_v16 main_c_5
  let main_v18 : IVec S_ 1 := andi main_v13 main_v17
  main_v18

def fn {F : FTy → Type} [FloatOps F] (main_arg0 : FVec F S8x2048x1024 .f32) (main_arg1 : FVec F S1024x64 .f32) (main_arg2 : FVec F S1024x64 .f32) (main_arg3 : FVec F S1024x64 .f32) : IVec S_ 1 :=
  let main_v0 : FVec F S8x2048x1024 .f32 := Host.absf main_arg0
  let main_cst : FVec F S_ .f32 := constant S_ .f32 0x7F800000#32
  let main_v1 : FVec F S8x2048x1024 .f32 := broadcastInDim S8x2048x1024 ![] bcast_S_S8x2048x1024 main_cst
  let main_v2 : IVec S8x2048x1024 1 := cmpf .olt main_v0 main_v1
  let main_c : IVec S_ 1 := constantI S_ 1 1#1
  let main_v3 : IVec S_ 1 := (fun x v => Host.reduce IntOp.andi x v reducesTo_S8x2048x1024_S_d0_1_2 h_S_) main_v2 main_c
  let main_v4 : FVec F S1024x64 .f32 := Host.absf main_arg1
  let main_cst_0 : FVec F S_ .f32 := constant S_ .f32 0x7F800000#32
  let main_v5 : FVec F S1024x64 .f32 := broadcastInDim S1024x64 ![] bcast_S_S1024x64 main_cst_0
  let main_v6 : IVec S1024x64 1 := cmpf .olt main_v4 main_v5
  let main_c_1 : IVec S_ 1 := constantI S_ 1 1#1
  let main_v7 : IVec S_ 1 := (fun x v => Host.reduce IntOp.andi x v reducesTo_S1024x64_S_d0_1 h_S_) main_v6 main_c_1
  let main_v8 : IVec S_ 1 := andi main_v3 main_v7
  let main_v9 : FVec F S1024x64 .f32 := Host.absf main_arg2
  let main_cst_2 : FVec F S_ .f32 := constant S_ .f32 0x7F800000#32
  let main_v10 : FVec F S1024x64 .f32 := broadcastInDim S1024x64 ![] bcast_S_S1024x64 main_cst_2
  let main_v11 : IVec S1024x64 1 := cmpf .olt main_v9 main_v10
  let main_c_3 : IVec S_ 1 := constantI S_ 1 1#1
  let main_v12 : IVec S_ 1 := (fun x v => Host.reduce IntOp.andi x v reducesTo_S1024x64_S_d0_1 h_S_) main_v11 main_c_3
  let main_v13 : IVec S_ 1 := andi main_v8 main_v12
  let main_v14 : FVec F S1024x64 .f32 := Host.absf main_arg3
  let main_cst_4 : FVec F S_ .f32 := constant S_ .f32 0x7F800000#32
  let main_v15 : FVec F S1024x64 .f32 := broadcastInDim S1024x64 ![] bcast_S_S1024x64 main_cst_4
  let main_v16 : IVec S1024x64 1 := cmpf .olt main_v14 main_v15
  fn_part1 (F := F) main_v13 main_v16
-- ==== Kernel.lean ====
abbrev S8x2048x1024 : Shape := ⟨3, ![8, 2048, 1024]⟩
abbrev S1024x64 : Shape := ⟨2, ![1024, 64]⟩
abbrev S1024x192 : Shape := ⟨2, ![1024, 192]⟩
abbrev S16384x1024 : Shape := ⟨2, ![16384, 1024]⟩
abbrev S16384x64 : Shape := ⟨2, ![16384, 64]⟩
abbrev S1024x1024 : Shape := ⟨2, ![1024, 1024]⟩
abbrev S8x2048x64 : Shape := ⟨3, ![8, 2048, 64]⟩
abbrev S8x256x64 : Shape := ⟨3, ![8, 256, 64]⟩
abbrev S8x256x1 : Shape := ⟨3, ![8, 256, 1]⟩
abbrev S8x256x256 : Shape := ⟨3, ![8, 256, 256]⟩
abbrev S8x256 : Shape := ⟨2, ![8, 256]⟩

abbrev nBuf : Space → Nat
  | .hbm => 14
  | .vmem => 20
  | .smem => 0
  | _ => 0

abbrev bufTy : (tb : Table) → Fin (tcTables nBuf tb) → BufTy
  | .hbm, ⟨0, _⟩ => ⟨S8x2048x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S1024x192, .f32⟩
  | .hbm, ⟨5, _⟩ => ⟨S1024x192, .bf16⟩
  | .hbm, ⟨6, _⟩ => ⟨S16384x1024, .f32⟩
  | .hbm, ⟨7, _⟩ => ⟨S16384x64, .bf16⟩
  | .hbm, ⟨8, _⟩ => ⟨S16384x64, .bf16⟩
  | .hbm, ⟨9, _⟩ => ⟨S16384x64, .bf16⟩
  | .hbm, ⟨10, _⟩ => ⟨S8x2048x64, .bf16⟩
  | .hbm, ⟨11, _⟩ => ⟨S8x2048x64, .bf16⟩
  | .hbm, ⟨12, _⟩ => ⟨S8x2048x64, .bf16⟩
  | .hbm, ⟨13, _⟩ => ⟨S8x2048x64, .f32⟩
  | .local _ .vmem, ⟨0, _⟩ => ⟨S1024x1024, .f32⟩
  | .local _ .vmem, ⟨1, _⟩ => ⟨S1024x1024, .f32⟩
  | .local _ .vmem, ⟨2, _⟩ => ⟨S1024x192, .bf16⟩
  | .local _ .vmem, ⟨3, _⟩ => ⟨S1024x64, .bf16⟩
  | .local _ .vmem, ⟨4, _⟩ => ⟨S1024x64, .bf16⟩
  | .local _ .vmem, ⟨5, _⟩ => ⟨S1024x64, .bf16⟩
  | .local _ .vmem, ⟨6, _⟩ => ⟨S1024x64, .bf16⟩
  | .local _ .vmem, ⟨7, _⟩ => ⟨S1024x64, .bf16⟩
  | .local _ .vmem, ⟨8, _⟩ => ⟨S1024x64, .bf16⟩
  | .local _ .vmem, ⟨9, _⟩ => ⟨S8x256x64, .bf16⟩
  | .local _ .vmem, ⟨10, _⟩ => ⟨S8x256x64, .bf16⟩
  | .local _ .vmem, ⟨11, _⟩ => ⟨S8x256x64, .bf16⟩
  | .local _ .vmem, ⟨12, _⟩ => ⟨S8x256x64, .bf16⟩
  | .local _ .vmem, ⟨13, _⟩ => ⟨S8x256x64, .bf16⟩
  | .local _ .vmem, ⟨14, _⟩ => ⟨S8x256x64, .bf16⟩
  | .local _ .vmem, ⟨15, _⟩ => ⟨S8x256x64, .f32⟩
  | .local _ .vmem, ⟨16, _⟩ => ⟨S8x256x64, .f32⟩
  | .local _ .vmem, ⟨17, _⟩ => ⟨S8x256x1, .f32⟩
  | .local _ .vmem, ⟨18, _⟩ => ⟨S8x256x1, .f32⟩
  | .local _ .vmem, ⟨19, _⟩ => ⟨S8x256x64, .f32⟩
  | _, _ => ⟨S8x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg3_1 : Ref sig .tc := ⟨.vmem, 16, rfl⟩
abbrev cc1_scratch0 : Ref sig .tc := ⟨.vmem, 17, rfl⟩
abbrev cc1_scratch1 : Ref sig .tc := ⟨.vmem, 18, rfl⟩
abbrev cc1_scratch2 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem3_1 : DmaSem sig := 16

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x192 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x64 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1024x64 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1024x64 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨2, ![8, 8], ![false, false]⟩

def k1_cond3 (i : grid1.Coords) : BitVec 1 :=
  let arg1 : BitVec 32 := BitVec.ofNat 32 (i 1).val
  let c7_i32_20 : BitVec 32 := 7#32
  let v30 : BitVec 1 := Scalar.cmpi .eq arg1 c7_i32_20
  let v31 : BitVec 32 := Scalar.extui v30
  let c0_i32_21 : BitVec 32 := 0#32
  let v32 : BitVec 1 := Scalar.cmpi .ne v31 c0_i32_21
  v32

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let c0_i32_1 : BitVec 32 := 0#32
  let v1 : BitVec 32 := Scalar.select v0 c0_i32_0 c0_i32_1
  let c0_i32_2 : BitVec 32 := 0#32
  let v2 : BitVec 32 := Scalar.addi c0_i32_2 v1
  let c1_i32 : BitVec 32 := 1#32
  let v3 : BitVec 1 := Scalar.cmpi .eq arg0 c1_i32
  let c6_i32 : BitVec 32 := 6#32
  let c0_i32_3 : BitVec 32 := 0#32
  let v4 : BitVec 32 := Scalar.select v3 c6_i32 c0_i32_3
  let v5 : BitVec 32 := Scalar.addi v2 v4
  let c2_i32 : BitVec 32 := 2#32
  let v6 : BitVec 1 := Scalar.cmpi .eq arg0 c2_i32
  let c2_i32_4 : BitVec 32 := 2#32
  let c0_i32_5 : BitVec 32 := 0#32
  let v7 : BitVec 32 := Scalar.select v6 c2_i32_4 c0_i32_5
  let v8 : BitVec 32 := Scalar.addi v5 v7
  let c3_i32 : BitVec 32 := 3#32
  let v9 : BitVec 1 := Scalar.cmpi .eq arg0 c3_i32
  let c4_i32 : BitVec 32 := 4#32
  let c0_i32_6 : BitVec 32 := 0#32
  let v10 : BitVec 32 := Scalar.select v9 c4_i32 c0_i32_6
  let v11 : BitVec 32 := Scalar.addi v8 v10
  let c4_i32_7 : BitVec 32 := 4#32
  let v12 : BitVec 1 := Scalar.cmpi .eq arg0 c4_i32_7
  let c7_i32 : BitVec 32 := 7#32
  let c0_i32_8 : BitVec 32 := 0#32
  let v13 : BitVec 32 := Scalar.select v12 c7_i32 c0_i32_8
  let v14 : BitVec 32 := Scalar.addi v11 v13
  let c5_i32 : BitVec 32 := 5#32
  let v15 : BitVec 1 := Scalar.cmpi .eq arg0 c5_i32
  let c1_i32_9 : BitVec 32 := 1#32
  let c0_i32_10 : BitVec 32 := 0#32
  let v16 : BitVec 32 := Scalar.select v15 c1_i32_9 c0_i32_10
  let v17 : BitVec 32 := Scalar.addi v14 v16
  let c6_i32_11 : BitVec 32 := 6#32
  let v18 : BitVec 1 := Scalar.cmpi .eq arg0 c6_i32_11
  let c5_i32_12 : BitVec 32 := 5#32
  let c0_i32_13 : BitVec 32 := 0#32
  let v19 : BitVec 32 := Scalar.select v18 c5_i32_12 c0_i32_13
  let v20 : BitVec 32 := Scalar.addi v17 v19
  let c7_i32_14 : BitVec 32 := 7#32
  let v21 : BitVec 1 := Scalar.cmpi .eq arg0 c7_i32_14
  let c3_i32_15 : BitVec 32 := 3#32
  let c0_i32_16 : BitVec 32 := 0#32
  let v22 : BitVec 32 := Scalar.select v21 c3_i32_15 c0_i32_16
  let v23 : BitVec 32 := Scalar.addi v20 v22
  let c0_i32_17 : BitVec 32 := 0#32
  let c0_i32_18 : BitVec 32 := 0#32
  let c0_i32_19 : BitVec 32 := 0#32
  ![c0_i32_17.toNat, v23.toNat, c0_i32_18.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let c0_i32_1 : BitVec 32 := 0#32
  let v1 : BitVec 32 := Scalar.select v0 c0_i32_0 c0_i32_1
  let c0_i32_2 : BitVec 32 := 0#32
  let v2 : BitVec 32 := Scalar.addi c0_i32_2 v1
  let c1_i32 : BitVec 32 := 1#32
  let v3 : BitVec 1 := Scalar.cmpi .eq arg0 c1_i32
  let c6_i32 : BitVec 32 := 6#32
  let c0_i32_3 : BitVec 32 := 0#32
  let v4 : BitVec 32 := Scalar.select v3 c6_i32 c0_i32_3
  let v5 : BitVec 32 := Scalar.addi v2 v4
  let c2_i32 : BitVec 32 := 2#32
  let v6 : BitVec 1 := Scalar.cmpi .eq arg0 c2_i32
  let c2_i32_4 : BitVec 32 := 2#32
  let c0_i32_5 : BitVec 32 := 0#32
  let v7 : BitVec 32 := Scalar.select v6 c2_i32_4 c0_i32_5
  let v8 : BitVec 32 := Scalar.addi v5 v7
  let c3_i32 : BitVec 32 := 3#32
  let v9 : BitVec 1 := Scalar.cmpi .eq arg0 c3_i32
  let c4_i32 : BitVec 32 := 4#32
  let c0_i32_6 : BitVec 32 := 0#32
  let v10 : BitVec 32 := Scalar.select v9 c4_i32 c0_i32_6
  let v11 : BitVec 32 := Scalar.addi v8 v10
  let c4_i32_7 : BitVec 32 := 4#32
  let v12 : BitVec 1 := Scalar.cmpi .eq arg0 c4_i32_7
  let c7_i32 : BitVec 32 := 7#32
  let c0_i32_8 : BitVec 32 := 0#32
  let v13 : BitVec 32 := Scalar.select v12 c7_i32 c0_i32_8
  let v14 : BitVec 32 := Scalar.addi v11 v13
  let c5_i32 : BitVec 32 := 5#32
  let v15 : BitVec 1 := Scalar.cmpi .eq arg0 c5_i32
  let c1_i32_9 : BitVec 32 := 1#32
  let c0_i32_10 : BitVec 32 := 0#32
  let v16 : BitVec 32 := Scalar.select v15 c1_i32_9 c0_i32_10
  let v17 : BitVec 32 := Scalar.addi v14 v16
  let c6_i32_11 : BitVec 32 := 6#32
  let v18 : BitVec 1 := Scalar.cmpi .eq arg0 c6_i32_11
  let c5_i32_12 : BitVec 32 := 5#32
  let c0_i32_13 : BitVec 32 := 0#32
  let v19 : BitVec 32 := Scalar.select v18 c5_i32_12 c0_i32_13
  let v20 : BitVec 32 := Scalar.addi v17 v19
  let c7_i32_14 : BitVec 32 := 7#32
  let v21 : BitVec 1 := Scalar.cmpi .eq arg0 c7_i32_14
  let c3_i32_15 : BitVec 32 := 3#32
  let c0_i32_16 : BitVec 32 := 0#32
  let v22 : BitVec 32 := Scalar.select v21 c3_i32_15 c0_i32_16
  let v23 : BitVec 32 := Scalar.addi v20 v22
  let v24 : BitVec 32 := Scalar.minsi arg1 v23
  let c0_i32_17 : BitVec 32 := 0#32
  let c0_i32_18 : BitVec 32 := 0#32
  let c0_i32_19 : BitVec 32 := 0#32
  ![c0_i32_17.toNat, v24.toNat, c0_i32_18.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let c0_i32_1 : BitVec 32 := 0#32
  let v1 : BitVec 32 := Scalar.select v0 c0_i32_0 c0_i32_1
  let c0_i32_2 : BitVec 32 := 0#32
  let v2 : BitVec 32 := Scalar.addi c0_i32_2 v1
  let c1_i32 : BitVec 32 := 1#32
  let v3 : BitVec 1 := Scalar.cmpi .eq arg0 c1_i32
  let c6_i32 : BitVec 32 := 6#32
  let c0_i32_3 : BitVec 32 := 0#32
  let v4 : BitVec 32 := Scalar.select v3 c6_i32 c0_i32_3
  let v5 : BitVec 32 := Scalar.addi v2 v4
  let c2_i32 : BitVec 32 := 2#32
  let v6 : BitVec 1 := Scalar.cmpi .eq arg0 c2_i32
  let c2_i32_4 : BitVec 32 := 2#32
  let c0_i32_5 : BitVec 32 := 0#32
  let v7 : BitVec 32 := Scalar.select v6 c2_i32_4 c0_i32_5
  let v8 : BitVec 32 := Scalar.addi v5 v7
  let c3_i32 : BitVec 32 := 3#32
  let v9 : BitVec 1 := Scalar.cmpi .eq arg0 c3_i32
  let c4_i32 : BitVec 32 := 4#32
  let c0_i32_6 : BitVec 32 := 0#32
  let v10 : BitVec 32 := Scalar.select v9 c4_i32 c0_i32_6
  let v11 : BitVec 32 := Scalar.addi v8 v10
  let c4_i32_7 : BitVec 32 := 4#32
  let v12 : BitVec 1 := Scalar.cmpi .eq arg0 c4_i32_7
  let c7_i32 : BitVec 32 := 7#32
  let c0_i32_8 : BitVec 32 := 0#32
  let v13 : BitVec 32 := Scalar.select v12 c7_i32 c0_i32_8
  let v14 : BitVec 32 := Scalar.addi v11 v13
  let c5_i32 : BitVec 32 := 5#32
  let v15 : BitVec 1 := Scalar.cmpi .eq arg0 c5_i32
  let c1_i32_9 : BitVec 32 := 1#32
  let c0_i32_10 : BitVec 32 := 0#32
  let v16 : BitVec 32 := Scalar.select v15 c1_i32_9 c0_i32_10
  let v17 : BitVec 32 := Scalar.addi v14 v16
  let c6_i32_11 : BitVec 32 := 6#32
  let v18 : BitVec 1 := Scalar.cmpi .eq arg0 c6_i32_11
  let c5_i32_12 : BitVec 32 := 5#32
  let c0_i32_13 : BitVec 32 := 0#32
  let v19 : BitVec 32 := Scalar.select v18 c5_i32_12 c0_i32_13
  let v20 : BitVec 32 := Scalar.addi v17 v19
  let c7_i32_14 : BitVec 32 := 7#32
  let v21 : BitVec 1 := Scalar.cmpi .eq arg0 c7_i32_14
  let c3_i32_15 : BitVec 32 := 3#32
  let c0_i32_16 : BitVec 32 := 0#32
  let v22 : BitVec 32 := Scalar.select v21 c3_i32_15 c0_i32_16
  let v23 : BitVec 32 := Scalar.addi v20 v22
  let v24 : BitVec 32 := Scalar.minsi arg1 v23
  let c0_i32_17 : BitVec 32 := 0#32
  let c0_i32_18 : BitVec 32 := 0#32
  let c0_i32_19 : BitVec 32 := 0#32
  ![c0_i32_17.toNat, v24.toNat, c0_i32_18.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c0_i32_0 : BitVec 32 := 0#32
  let c0_i32_1 : BitVec 32 := 0#32
  let v1 : BitVec 32 := Scalar.select v0 c0_i32_0 c0_i32_1
  let c0_i32_2 : BitVec 32 := 0#32
  let v2 : BitVec 32 := Scalar.addi c0_i32_2 v1
  let c1_i32 : BitVec 32 := 1#32
  let v3 : BitVec 1 := Scalar.cmpi .eq arg0 c1_i32
  let c6_i32 : BitVec 32 := 6#32
  let c0_i32_3 : BitVec 32 := 0#32
  let v4 : BitVec 32 := Scalar.select v3 c6_i32 c0_i32_3
  let v5 : BitVec 32 := Scalar.addi v2 v4
  let c2_i32 : BitVec 32 := 2#32
  let v6 : BitVec 1 := Scalar.cmpi .eq arg0 c2_i32
  let c2_i32_4 : BitVec 32 := 2#32
  let c0_i32_5 : BitVec 32 := 0#32
  let v7 : BitVec 32 := Scalar.select v6 c2_i32_4 c0_i32_5
  let v8 : BitVec 32 := Scalar.addi v5 v7
  let c3_i32 : BitVec 32 := 3#32
  let v9 : BitVec 1 := Scalar.cmpi .eq arg0 c3_i32
  let c4_i32 : BitVec 32 := 4#32
  let c0_i32_6 : BitVec 32 := 0#32
  let v10 : BitVec 32 := Scalar.select v9 c4_i32 c0_i32_6
  let v11 : BitVec 32 := Scalar.addi v8 v10
  let c4_i32_7 : BitVec 32 := 4#32
  let v12 : BitVec 1 := Scalar.cmpi .eq arg0 c4_i32_7
  let c7_i32 : BitVec 32 := 7#32
  let c0_i32_8 : BitVec 32 := 0#32
  let v13 : BitVec 32 := Scalar.select v12 c7_i32 c0_i32_8
  let v14 : BitVec 32 := Scalar.addi v11 v13
  let c5_i32 : BitVec 32 := 5#32
  let v15 : BitVec 1 := Scalar.cmpi .eq arg0 c5_i32
  let c1_i32_9 : BitVec 32 := 1#32
  let c0_i32_10 : BitVec 32 := 0#32
  let v16 : BitVec 32 := Scalar.select v15 c1_i32_9 c0_i32_10
  let v17 : BitVec 32 := Scalar.addi v14 v16
  let c6_i32_11 : BitVec 32 := 6#32
  let v18 : BitVec 1 := Scalar.cmpi .eq arg0 c6_i32_11
  let c5_i32_12 : BitVec 32 := 5#32
  let c0_i32_13 : BitVec 32 := 0#32
  let v19 : BitVec 32 := Scalar.select v18 c5_i32_12 c0_i32_13
  let v20 : BitVec 32 := Scalar.addi v17 v19
  let c7_i32_14 : BitVec 32 := 7#32
  let v21 : BitVec 1 := Scalar.cmpi .eq arg0 c7_i32_14
  let c3_i32_15 : BitVec 32 := 3#32
  let c0_i32_16 : BitVec 32 := 0#32
  let v22 : BitVec 32 := Scalar.select v21 c3_i32_15 c0_i32_16
  let v23 : BitVec 32 := Scalar.addi v20 v22
  let c0_i32_17 : BitVec 32 := 0#32
  let c0_i32_18 : BitVec 32 := 0#32
  let c0_i32_19 : BitVec 32 := 0#32
  ![c0_i32_17.toNat, v23.toNat, c0_i32_18.toNat]

abbrev stage1_0 : Fin 2 → Memref sig .tc .vmem S8x256x64 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S8x256x64 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S8x256x64 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S8x256x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  concatenates_S1024x64_S1024x64_S1024x64_S1024x192_d1 : Shape.Concatenates [S1024x64, S1024x64, S1024x64] S1024x192 1
  bitsLt_bf16_f32 : FTy.bits .bf16 < FTy.bits .f32
  shapeCasts_S8x2048x1024_S16384x1024 : S8x2048x1024.ShapeCasts S16384x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x192_S1024x192_0_0 : ∀ a, (![0, 0] : Fin 2 → Nat) a + S1024x192.size a ≤ S1024x192.size a
  h_S1024x192 : 0 < S1024x192.numel
  shapeCasts_S1024x192_S1024x192 : S1024x192.ShapeCasts S1024x192
  slices_S1024x192_o0_0_S1024x64 : S1024x192.Slices ![0, 0] S1024x64
  inb_S1024x64_S1024x64_0_0 : ∀ a, (![0, 0] : Fin 2 → Nat) a + S1024x64.size a ≤ S1024x64.size a
  h_S1024x64 : 0 < S1024x64.numel
  packedbf16_S1024x64_S1024x64_0_0 : (Rect.unit (s := S1024x64) ![0, 0] S1024x64.size inb_S1024x64_S1024x64_0_0).PackedRows (EltTy.packing .bf16)
  slices_S1024x192_o0_64_S1024x64 : S1024x192.Slices ![0, 64] S1024x64
  slices_S1024x192_o0_128_S1024x64 : S1024x192.Slices ![0, 128] S1024x64
  shapeCasts_S16384x64_S8x2048x64 : S16384x64.ShapeCasts S8x2048x64
  inb_S8x256x1_S8x256x1_0_0_0 : ∀ a, (![0, 0, 0] : Fin 3 → Nat) a + S8x256x1.size a ≤ S8x256x1.size a
  h_S8x256x1 : 0 < S8x256x1.numel
  shapeCasts_S8x256x1_S8x256x1 : S8x256x1.ShapeCasts S8x256x1
  inb_S8x256x64_S8x256x64_0_0_0 : ∀ a, (![0, 0, 0] : Fin 3 → Nat) a + S8x256x64.size a ≤ S8x256x64.size a
  h_S8x256x64 : 0 < S8x256x64.numel
  shapeCasts_S8x256x64_S8x256x64 : S8x256x64.ShapeCasts S8x256x64
  iota_S8x256x256_d1_w32 : S8x256x256.Iotas .tc 32 [1]
  iota_S8x256x256_d2_w32 : S8x256x256.Iotas .tc 32 [2]
  reduces_S8x256x256_S8x256 : S8x256x256.Reduces [2] S8x256
  shapeCasts_S8x256_S8x256x1 : S8x256.ShapeCasts S8x256x1
  broadcasts_S8x256x1_S8x256x256 : S8x256x1.Broadcasts S8x256x256
  broadcasts_S8x256x1_S8x256x64 : S8x256x1.Broadcasts S8x256x64
  dot_S1024x1024_S1024x192_S1024x192_1_0_0_1_n_n_wf : DotDims.WF S1024x1024 S1024x192 S1024x192 [1] [0] [0] [1] [] []
  dot_S8x256x64_S8x256x64_S8x256x256_2_2_1_1_0_0_wf : DotDims.WF S8x256x64 S8x256x64 S8x256x256 [2] [2] [1] [1] [0] [0]
  dot_S8x256x256_S8x256x64_S8x256x64_2_1_1_2_0_0_wf : DotDims.WF S8x256x256 S8x256x64 S8x256x64 [2] [1] [1] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1024x1024.size a ≤ S16384x1024.size a
  hwx0_0 : ∀ i : grid0.Coords, EltTy.bits .f32 = 32 ∨ (Rect.block (s := S16384x1024) S1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x192.size a ≤ S1024x192.size a
  hwx0_1 : ∀ i : grid0.Coords, EltTy.bits .bf16 = 32 ∨ (Rect.block (s := S1024x192) S1024x192.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x64.size a ≤ S16384x64.size a
  hwx0_2 : ∀ i : grid0.Coords, EltTy.bits .bf16 = 32 ∨ (Rect.block (s := S16384x64) S1024x64.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1024x64.size a ≤ S16384x64.size a
  hwx0_3 : ∀ i : grid0.Coords, EltTy.bits .bf16 = 32 ∨ (Rect.block (s := S16384x64) S1024x64.size (cc0_transform_3 i) (hinb0_3 i)).WholeWords (EltTy.packing .bf16)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1024x64.size a ≤ S16384x64.size a
  hwx0_4 : ∀ i : grid0.Coords, EltTy.bits .bf16 = 32 ∨ (Rect.block (s := S16384x64) S1024x64.size (cc0_transform_4 i) (hinb0_4 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x256x64.size a ≤ S8x2048x64.size a
  hwx1_0 : ∀ i : grid1.Coords, EltTy.bits .bf16 = 32 ∨ (Rect.block (s := S8x2048x64) S8x256x64.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S8x256x64.size a ≤ S8x2048x64.size a
  hwx1_1 : ∀ i : grid1.Coords, EltTy.bits .bf16 = 32 ∨ (Rect.block (s := S8x2048x64) S8x256x64.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S8x256x64.size a ≤ S8x2048x64.size a
  hwx1_2 : ∀ i : grid1.Coords, EltTy.bits .bf16 = 32 ∨ (Rect.block (s := S8x2048x64) S8x256x64.size (cc1_transform_2 i) (hinb1_2 i)).WholeWords (EltTy.packing .bf16)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S8x256x64.size a ≤ S8x2048x64.size a
  hwx1_3 : ∀ i : grid1.Coords, EltTy.bits .f32 = 32 ∨ (Rect.block (s := S8x2048x64) S8x256x64.size (cc1_transform_3 i) (hinb1_3 i)).WholeWords (EltTy.packing .f32)

variable [Facts₀]

def dot_S1024x1024_S1024x192_S1024x192_1_0_0_1_n_n : DotDims S1024x1024 S1024x192 S1024x192 where
  lhsContracting := [1]
  rhsContracting := [0]
  lhsNonContracting := [0]
  rhsNonContracting := [1]
  lhsBatch := []
  rhsBatch := []
  wf := dot_S1024x1024_S1024x192_S1024x192_1_0_0_1_n_n_wf
def dot_S8x256x64_S8x256x64_S8x256x256_2_2_1_1_0_0 : DotDims S8x256x64 S8x256x64 S8x256x256 where
  lhsContracting := [2]
  rhsContracting := [2]
  lhsNonContracting := [1]
  rhsNonContracting := [1]
  lhsBatch := [0]
  rhsBatch := [0]
  wf := dot_S8x256x64_S8x256x64_S8x256x256_2_2_1_1_0_0_wf
def dot_S8x256x256_S8x256x64_S8x256x64_2_1_1_2_0_0 : DotDims S8x256x256 S8x256x64 S8x256x64 where
  lhsContracting := [2]
  rhsContracting := [1]
  lhsNonContracting := [1]
  rhsNonContracting := [2]
  lhsBatch := [0]
  rhsBatch := [0]
  wf := dot_S8x256x256_S8x256x64_S8x256x64_2_1_1_2_0_0_wf

abbrev win0_0 : Pipeline.Window sig grid0 :=
  Pipeline.Window.ofSpec (Memref.whole main_v2) S1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x192.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v3_0) S1024x64.size cc0_transform_2 reads0_2 true false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3_1) S1024x64.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3_2) S1024x64.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev win1_0 : Pipeline.Window sig grid1 :=
  Pipeline.Window.ofSpec (Memref.whole main_v4) S8x256x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S8x256x64.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v6) S8x256x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v7) S8x256x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond3 i == 1#1) | ⟨_ + 4, h⟩ => absurd h (Nat.not_lt.2 (Nat.le_add_left _ _))

class Facts : Prop extends Facts₀ where

variable [Facts]
-- ==== ReferenceIdeal.lean ====
abbrev S8x2048x1024 : Shape := ⟨3, ![8, 2048, 1024]⟩
abbrev S1024x64 : Shape := ⟨2, ![1024, 64]⟩
abbrev S8x2048x64 : Shape := ⟨3, ![8, 2048, 64]⟩
abbrev S8x2048x2048 : Shape := ⟨3, ![8, 2048, 2048]⟩
abbrev S_ : Shape := ⟨0, ![]⟩
abbrev S2048x2048 : Shape := ⟨2, ![2048, 2048]⟩
abbrev S8x2048 : Shape := ⟨2, ![8, 2048]⟩
abbrev S8x2048x1 : Shape := ⟨3, ![8, 2048, 1]⟩

abbrev nBuf : Space → Nat
  | .hbm => 42
  | .vmem => 0
  | .smem => 0
  | _ => 0

abbrev bufTy : (tb : Table) → Fin (tcTables nBuf tb) → BufTy
  | .hbm, ⟨0, _⟩ => ⟨S8x2048x1024, .f32⟩
  | .hbm, ⟨1, _⟩ => ⟨S1024x64, .f32⟩
  | .hbm, ⟨2, _⟩ => ⟨S1024x64, .f32⟩
  | .hbm, ⟨3, _⟩ => ⟨S1024x64, .f32⟩
  | .hbm, ⟨4, _⟩ => ⟨S8x2048x64, .f32⟩
  | .hbm, ⟨5, _⟩ => ⟨S8x2048x64, .f32⟩
  | .hbm, ⟨6, _⟩ => ⟨S8x2048x64, .f32⟩
  | .hbm, ⟨7, _⟩ => ⟨S8x2048x2048, .f32⟩
  | .hbm, ⟨8, _⟩ => ⟨S_, .f32⟩
  | .hbm, ⟨9, _⟩ => ⟨S8x2048x2048, .f32⟩
  | .hbm, ⟨10, _⟩ => ⟨S8x2048x2048, .f32⟩
  | .hbm, ⟨11, _⟩ => ⟨S_, .i1⟩
  | .hbm, ⟨12, _⟩ => ⟨S2048x2048, .i1⟩
  | .hbm, ⟨13, _⟩ => ⟨S2048x2048, .i32⟩
  | .hbm, ⟨14, _⟩ => ⟨S_, .i32⟩
  | .hbm, ⟨15, _⟩ => ⟨S2048x2048, .i32⟩
  | .hbm, ⟨16, _⟩ => ⟨S2048x2048, .i32⟩
  | .hbm, ⟨17, _⟩ => ⟨S2048x2048, .i32⟩
  | .hbm, ⟨18, _⟩ => ⟨S2048x2048, .i1⟩
  | .hbm, ⟨19, _⟩ => ⟨S_, .i1⟩
  | .hbm, ⟨20, _⟩ => ⟨S2048x2048, .i1⟩
  | .hbm, ⟨21, _⟩ => ⟨S2048x2048, .i1⟩
  | .hbm, ⟨22, _⟩ => ⟨S_, .f32⟩
  | .hbm, ⟨23, _⟩ => ⟨S_, .f32⟩
  | .hbm, ⟨24, _⟩ => ⟨S8x2048x2048, .i1⟩
  | .hbm, ⟨25, _⟩ => ⟨S8x2048x2048, .f32⟩
  | .hbm, ⟨26, _⟩ => ⟨S8x2048x2048, .f32⟩
  | .hbm, ⟨27, _⟩ => ⟨S_, .f32⟩
  | .hbm, ⟨28, _⟩ => ⟨S8x2048, .f32⟩
  | .hbm, ⟨29, _⟩ => ⟨S_, .f32⟩
  | .hbm, ⟨30, _⟩ => ⟨S8x2048, .f32⟩
  | .hbm, ⟨31, _⟩ => ⟨S8x2048, .f32⟩
  | .hbm, ⟨32, _⟩ => ⟨S8x2048x1, .f32⟩
  | .hbm, ⟨33, _⟩ => ⟨S8x2048x2048, .f32⟩
  | .hbm, ⟨34, _⟩ => ⟨S8x2048x2048, .f32⟩
  | .hbm, ⟨35, _⟩ => ⟨S8x2048x2048, .f32⟩
  | .hbm, ⟨36, _⟩ => ⟨S_, .f32⟩
  | .hbm, ⟨37, _⟩ => ⟨S8x2048, .f32⟩
  | .hbm, ⟨38, _⟩ => ⟨S8x2048x1, .f32⟩
  | .hbm, ⟨39, _⟩ => ⟨S8x2048x2048, .f32⟩
  | .hbm, ⟨40, _⟩ => ⟨S8x2048x2048, .f32⟩
  | .hbm, ⟨41, _⟩ => ⟨S8x2048x64, .f32⟩
  | _, _ => ⟨S8x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_call0_v0 : Ref sig .tc := ⟨.hbm, 13, rfl⟩
abbrev main_call0_c : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_call0_c_0 : Ref sig .tc := ⟨.hbm, 19, rfl⟩
abbrev main_call0_v5 : Ref sig .tc := ⟨.hbm, 20, rfl⟩
abbrev main_v7 : Ref sig .tc := ⟨.hbm, 21, rfl⟩
abbrev main_cst_0 : Ref sig .tc := ⟨.hbm, 22, rfl⟩
abbrev main_call1_v0 : Ref sig .tc := ⟨.hbm, 23, rfl⟩
abbrev main_call1_v1 : Ref sig .tc := ⟨.hbm, 24, rfl⟩
abbrev main_call1_v2 : Ref sig .tc := ⟨.hbm, 25, rfl⟩
abbrev main_v8 : Ref sig .tc := ⟨.hbm, 26, rfl⟩
abbrev main_cst_1 : Ref sig .tc := ⟨.hbm, 27, rfl⟩
abbrev main_v9 : Ref sig .tc := ⟨.hbm, 28, rfl⟩
abbrev main_cst_2 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_cst_3 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩

abbrev nD : Nat := 1
abbrev τ : Topo := Topo.v7x

variable {F : FTy → Type} [FloatOps F]

class Facts₀ : Prop where
  bcast_S_S8x2048x2048 : S_.BroadcastsInDim S8x2048x2048 (![] : Fin 0 → Fin S8x2048x2048.rank)
  bcast_S_S2048x2048 : S_.BroadcastsInDim S2048x2048 (![] : Fin 0 → Fin S2048x2048.rank)
  bcast_S2048x2048_S8x2048x2048_1_2 : S2048x2048.BroadcastsInDim S8x2048x2048 (![1, 2] : Fin 2 → Fin S8x2048x2048.rank)
  reducesTo_S8x2048x2048_S8x2048_d2 : S8x2048x2048.ReducesTo [2] S8x2048
  h_S_ : 0 < S_.numel
  bcast_S_S8x2048 : S_.BroadcastsInDim S8x2048 (![] : Fin 0 → Fin S8x2048.rank)
  bcast_S8x2048_S8x2048x1_0_1 : S8x2048.BroadcastsInDim S8x2048x1 (![0, 1] : Fin 2 → Fin S8x2048x1.rank)
  bcast_S8x2048x1_S8x2048x2048_0_1_2 : S8x2048x1.BroadcastsInDim S8x2048x2048 (![0, 1, 2] : Fin 3 → Fin S8x2048x2048.rank)
  dot_S8x2048x1024_S1024x64_S8x2048x64_2_0_01_1_n_n_wf : DotDims.WF S8x2048x1024 S1024x64 S8x2048x64 [2] [0] [0, 1] [1] [] []
  dot_S8x2048x64_S8x2048x64_S8x2048x2048_2_2_1_1_0_0_wf : DotDims.WF S8x2048x64 S8x2048x64 S8x2048x2048 [2] [2] [1] [1] [0] [0]
  dot_S8x2048x2048_S8x2048x64_S8x2048x64_2_1_1_2_0_0_wf : DotDims.WF S8x2048x2048 S8x2048x64 S8x2048x64 [2] [1] [1] [2] [0] [0]

variable [Facts₀]

def dot_S8x2048x1024_S1024x64_S8x2048x64_2_0_01_1_n_n : DotDims S8x2048x1024 S1024x64 S8x2048x64 where
  lhsContracting := [2]
  rhsContracting := [0]
  lhsNonContracting := [0, 1]
  rhsNonContracting := [1]
  lhsBatch := []
  rhsBatch := []
  wf := dot_S8x2048x1024_S1024x64_S8x2048x64_2_0_01_1_n_n_wf
def dot_S8x2048x64_S8x2048x64_S8x2048x2048_2_2_1_1_0_0 : DotDims S8x2048x64 S8x2048x64 S8x2048x2048 where
  lhsContracting := [2]
  rhsContracting := [2]
  lhsNonContracting := [1]
  rhsNonContracting := [1]
  lhsBatch := [0]
  rhsBatch := [0]
  wf := dot_S8x2048x64_S8x2048x64_S8x2048x2048_2_2_1_1_0_0_wf
def dot_S8x2048x2048_S8x2048x64_S8x2048x64_2_1_1_2_0_0 : DotDims S8x2048x2048 S8x2048x64 S8x2048x64 where
  lhsContracting := [2]
  rhsContracting := [1]
  lhsNonContracting := [1]
  rhsNonContracting := [2]
  lhsBatch := [0]
  rhsBatch := [0]
  wf := dot_S8x2048x2048_S8x2048x64_S8x2048x64_2_1_1_2_0_0_wf

class Facts : Prop extends Facts₀ where

variable [Facts]
-- ==== Proof.BRegion0.lean ====
/-
  The projection region, at the contents `V` the region is entered with: each grid point loads a [1024, 1024] block of
  rows of the flattened input and the whole [1024, 192] fused weight matrix, multiplies them, and stores the three
  64-column slices of the product into the three result blocks. What each result block holds after a point is one
  store over the point's two input blocks.
-/
import proofs.«102945_j49727131353090_2_alg».proof.Proof.Gen.Kernel.Launch
import proofs.«102945_j49727131353090_2_alg».proof.Proof.Gen.Kernel.Skeleton
import proofs.«102945_j49727131353090_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1024x1024 := Rect.unit (s := S1024x1024) ![0, 0] S1024x1024.size inb_S1024x1024_S1024x1024_0_0
abbrev r0_1 : Rect S1024x192 := Rect.unit (s := S1024x192) ![0, 0] S1024x192.size inb_S1024x192_S1024x192_0_0
abbrev r0_2 : Rect S1024x64 := Rect.unit (s := S1024x64) ![0, 0] S1024x64.size inb_S1024x64_S1024x64_0_0

/-- The first result block after the body: columns 0 … 63 of the product. -/
def out0_2 (x0 : Vec F S1024x1024 .f32) (x1 : Vec F S1024x192 .bf16) : Vec F S1024x64 .bf16 :=
  View.canon [⟨r0_2, k0_pay2 (View.ld x0 r0_0) (View.ld x1 r0_1)⟩]
/-- The second result block after the body: columns 64 … 127 of the product. -/
def out0_3 (x0 : Vec F S1024x1024 .f32) (x1 : Vec F S1024x192 .bf16) : Vec F S1024x64 .bf16 :=
  View.canon [⟨r0_2, k0_pay3 (View.ld x0 r0_0) (View.ld x1 r0_1)⟩]
/-- The third result block after the body: columns 128 … 191 of the product. -/
def out0_4 (x0 : Vec F S1024x1024 .f32) (x1 : Vec F S1024x192 .bf16) : Vec F S1024x64 .bf16 :=
  View.canon [⟨r0_2, k0_pay4 (View.ld x0 r0_0) (View.ld x1 r0_1)⟩]

/-- One store of the whole block covers it. -/
theorem cover0_2 (p0 : Vec F S1024x64 .bf16) (y : S1024x64.Idx) :
    ∃ pc ∈ ([⟨r0_2, p0⟩] : List (View.Piece (Elt F) S1024x64 .bf16)), y ∈ pc.1.set :=
  View.cover_of_tiled [⟨r0_2, p0⟩] S1024x64.size (by rfl) y

set_option maxHeartbeats 4000000 in
/-- The body on whole staging buffers: the inputs are kept, each result buffer ends at its slice of the product. -/
theorem sound_kernel0 (c : Dev nD) (E : Set ℕ) (i : grid0.Coords) (arg1 : Memref sig .tc .vmem S1024x1024 .f32) (harg1 : arg1.IsWhole)
    (arg2 : Memref sig .tc .vmem S1024x192 .bf16) (harg2 : arg2.IsWhole) (arg3 : Memref sig .tc .vmem S1024x64 .bf16) (harg3 : arg3.IsWhole)
    (arg4 : Memref sig .tc .vmem S1024x64 .bf16) (harg4 : arg4.IsWhole) (arg5 : Memref sig .tc .vmem S1024x64 .bf16) (harg5 : arg5.IsWhole)
    (x0 : Vec F S1024x1024 .f32) (x1 : Vec F S1024x192 .bf16) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)
            ∗ owns (c : Thread nD τ) arg5 fullShare (out0_4 x0 x1)) -∗ K ⟨⟩))
      ⊢ wp frame (wpE (defs₀ (F := F)) Variants.none c none) E (cc0_kernel i arg1 harg1 arg2 harg2 arg3 harg3 arg4 harg4 arg5 harg5) K := by
  simp only [cc0_kernel_eq_skeleton]; unfold cc0_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  isplitl [H3]
  · iexists _; isplitr
    swap; · iexact H3
    ipureintro
    exact View.read_writes_eq_canon _ _ _ (cover0_2 _)
  iexists _; isplitr
  swap; · iexact H4
  ipureintro
  exact View.read_writes_eq_canon _ _ _ (cover0_2 _)

/-- The region's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.BState.lean ====
/-
  The attention region's running state as pure functions of a grid point's blocks.

  A grid point (g, n) works on query tile `remap g` and key/value tile `n`. The three scratch arrays hold, per query
  row, the running maximum, the running denominator and the running numerator of the online softmax recurrence. At
  the first key/value tile they are reset to (-∞, 0, 0) (`init1`); at a tile not past the diagonal they are updated
  from the point's query, key and value blocks (`upd1`); a tile past the diagonal leaves them alone.
-/
import proofs.«102945_j49727131353090_2_alg».proof.Proof.Gen.Kernel.Skeleton

set_option maxRecDepth 16384

noncomputable section

namespace Cert.Kernel.Hand

open Idealize.ShloMosaic
open Cert.Kernel Cert.Kernel.Gen

variable {F : FTy → Type} [FloatOps F]

/-- The key/value tile index as a word. -/
abbrev kvW (i : grid1.Coords) : BitVec 32 := BitVec.ofNat 32 (i 1).val

/-- The query tile a grid row works on, as the body computes it: a fixed permutation of the row index, spelled as a
    sum of selects. -/
abbrev remap (i : grid1.Coords) : BitVec 32 :=
  let arg0 : BitVec 32 := BitVec.ofNat 32 (i 0).val
  let v0 : BitVec 1 := Scalar.cmpi .eq arg0 0#32
  let v1 : BitVec 32 := Scalar.select v0 0#32 0#32
  let v2 : BitVec 32 := Scalar.addi 0#32 v1
  let v3 : BitVec 1 := Scalar.cmpi .eq arg0 1#32
  let v4 : BitVec 32 := Scalar.select v3 6#32 0#32
  let v5 : BitVec 32 := Scalar.addi v2 v4
  let v6 : BitVec 1 := Scalar.cmpi .eq arg0 2#32
  let v7 : BitVec 32 := Scalar.select v6 2#32 0#32
  let v8 : BitVec 32 := Scalar.addi v5 v7
  let v9 : BitVec 1 := Scalar.cmpi .eq arg0 3#32
  let v10 : BitVec 32 := Scalar.select v9 4#32 0#32
  let v11 : BitVec 32 := Scalar.addi v8 v10
  let v12 : BitVec 1 := Scalar.cmpi .eq arg0 4#32
  let v13 : BitVec 32 := Scalar.select v12 7#32 0#32
  let v14 : BitVec 32 := Scalar.addi v11 v13
  let v15 : BitVec 1 := Scalar.cmpi .eq arg0 5#32
  let v16 : BitVec 32 := Scalar.select v15 1#32 0#32
  let v17 : BitVec 32 := Scalar.addi v14 v16
  let v18 : BitVec 1 := Scalar.cmpi .eq arg0 6#32
  let v19 : BitVec 32 := Scalar.select v18 5#32 0#32
  let v20 : BitVec 32 := Scalar.addi v17 v19
  let v21 : BitVec 1 := Scalar.cmpi .eq arg0 7#32
  let v22 : BitVec 32 := Scalar.select v21 3#32 0#32
  Scalar.addi v20 v22

/-- The first key/value tile of a row: the running state is reset. -/
abbrev cond1_0 (i : grid1.Coords) : Prop := (Scalar.cmpi .ne (Scalar.extui (Scalar.cmpi .eq (kvW i) 0#32)) 0#32) = 1#1
/-- The key/value tile is not past the diagonal: the running state is updated. -/
abbrev cond1_1 (i : grid1.Coords) : Prop := (Scalar.cmpi .ne (Scalar.extui (Scalar.cmpi .sle (kvW i) (remap i))) 0#32) = 1#1
/-- The last key/value tile of a row: the result block is written. -/
abbrev cond1_2 (i : grid1.Coords) : Prop := k1_cond3 i = 1#1

/-- The running state: maximum, denominator, numerator. -/
abbrev St (F : FTy → Type) : Type := Vec F S8x256x1 .f32 × Vec F S8x256x1 .f32 × Vec F S8x256x64 .f32

/-- The reset state (-∞, 0, 0). -/
def reset1 : St F := (k1_pay11 (F := F), k1_pay12 (F := F), k1_pay13 (F := F))

/-- The reset at the first key/value tile. -/
def init1 (i : grid1.Coords) (S : St F) : St F := if cond1_0 i then reset1 else S

/-- The update from a point's query, key and value blocks, at a tile not past the diagonal. -/
def upd1 (i : grid1.Coords) (x0 x1 x2 : Vec F S8x256x64 .bf16) (S : St F) : St F :=
  if cond1_1 i then
    (k1_pay3 (k1_pay7 (kvW i) (remap i) x0 x1 S.1),
     k1_pay1 (k1_pay10 (kvW i) (remap i) x0 x1 S.1 S.1 S.2.1),
     k1_pay2 (k1_pay5 x2) (k1_pay8 (kvW i) (remap i) x0 x1 S.1 S.1) (k1_pay9 (kvW i) (remap i) x0 x1 S.1) S.2.2)
  else S

/-- One grid point's effect on the running state. -/
def step1 (i : grid1.Coords) (x0 x1 x2 : Vec F S8x256x64 .bf16) (S : St F) : St F := upd1 i x0 x1 x2 (init1 i S)

/-- What the result block's buffer holds after a point: the quotient at the last key/value tile, else what it held. -/
def fin1 (i : grid1.Coords) (S : St F) (o : Vec F S8x256x64 .f32) : Vec F S8x256x64 .f32 :=
  if cond1_2 i then k1_pay4 S.2.2 S.2.1 else o

end Cert.Kernel.Hand

end
-- ==== Proof.BBody.lean ====
/-
  The attention body on whole staging and scratch buffers, in the five cases of its three conditionals that a grid
  point can be in: what each buffer holds afterwards, as the body's payloads of what it held before.
-/
import proofs.«102945_j49727131353090_2_alg».proof.Proof.BState
import proofs.«102945_j49727131353090_2_alg».proof.Proof.Gen.Kernel.Launch
import proofs.«102945_j49727131353090_2_alg».proof.Proof.Gen.Kernel.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

theorem hz3 : (![0, 0, 0] : Fin 3 → ℕ) = fun _ => 0 := by funext a; fin_cases a <;> rfl

/-- Reads back what a whole buffer holds after the run: its contents untouched, or the payload of the last whole-block
    store, the run's intermediate names opened and every whole-block load read through. -/
macro "buf_valb" harg:ident inb:ident : tactic => `(tactic| first
  | exact Memref.IsWhole.read_unread $harg _
  | (sl_unfold_run_names; refine (View.read_writes_eq_canon _ _ _ (fun y => ⟨_, List.mem_cons_self, View.mem_set_unit_zero hz3 $inb y⟩)).trans ?_; rw [View.canon_cons_unit_zero hz3]; sl_unfold_run_names; (try simp only [View.readAt_eq_ld, Memref.IsWhole.read_unread, View.ld_unit_zero (S := S8x256x64) hz3, View.ld_unit_zero (S := S8x256x1) hz3, View.readCov_unit_zero (S := S8x256x1) _ hz3, View.readCov_unit_zero (S := S8x256x64) _ hz3]); (try rfl)))

set_option maxHeartbeats 8000000 in
/-- First key/value tile, not the last: reset, then update. -/
theorem sound_kernel1_A (c : Dev nD) (E : Set ℕ) (i : grid1.Coords)
    (arg2 : Memref sig .tc .vmem S8x256x64 .bf16) (harg2 : arg2.IsWhole) (arg3 : Memref sig .tc .vmem S8x256x64 .bf16) (harg3 : arg3.IsWhole)
    (arg4 : Memref sig .tc .vmem S8x256x64 .bf16) (harg4 : arg4.IsWhole) (arg5 : Memref sig .tc .vmem S8x256x64 .f32) (harg5 : arg5.IsWhole)
    (arg6 : Memref sig .tc .vmem S8x256x1 .f32) (harg6 : arg6.IsWhole) (arg7 : Memref sig .tc .vmem S8x256x1 .f32) (harg7 : arg7.IsWhole)
    (arg8 : Memref sig .tc .vmem S8x256x64 .f32) (harg8 : arg8.IsWhole)
    (hc0 : cond1_0 i) (hc1 : cond1_1 i) (hc2 : ¬ cond1_2 i)
    (x0 x1 x2 : Vec F S8x256x64 .bf16) (o : Vec F S8x256x64 .f32) (s0 s1 : Vec F S8x256x1 .f32) (s2 : Vec F S8x256x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare o ∗ owns (c : Thread nD τ) arg6 fullShare s0 ∗ owns (c : Thread nD τ) arg7 fullShare s1
        ∗ owns (c : Thread nD τ) arg8 fullShare s2
        ∗ (iprop(owns (c : Thread nD τ) arg2 fullShare x0 ∗ owns (c : Thread nD τ) arg3 fullShare x1 ∗ owns (c : Thread nD τ) arg4 fullShare x2
            ∗ owns (c : Thread nD τ) arg5 fullShare (o) ∗ owns (c : Thread nD τ) arg6 fullShare (k1_pay3 (k1_pay7 (kvW i) (remap i) x0 x1 (k1_pay11 (F := F))))
            ∗ owns (c : Thread nD τ) arg7 fullShare (k1_pay1 (k1_pay10 (kvW i) (remap i) x0 x1 (k1_pay11 (F := F)) (k1_pay11 (F := F)) (k1_pay12 (F := F)))) ∗ owns (c : Thread nD τ) arg8 fullShare (k1_pay2 (k1_pay5 x2) (k1_pay8 (kvW i) (remap i) x0 x1 (k1_pay11 (F := F)) (k1_pay11 (F := F))) (k1_pay9 (kvW i) (remap i) x0 x1 (k1_pay11 (F := F))) (k1_pay13 (F := F)))) -∗ K ⟨⟩))
      ⊢ wp frame (wpE (defs₀ (F := F)) Variants.none c none) E (cc1_kernel i arg2 harg2 arg3 harg3 arg4 harg4 arg5 harg5 arg6 harg6 arg7 harg7 arg8 harg8) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    buf_valb harg5 inb_S8x256x64_S8x256x64_0_0_0
  isplitl [H4]
  · iexists _; isplitr
    swap; · iexact H4
    ipureintro
    buf_valb harg6 inb_S8x256x1_S8x256x1_0_0_0
  isplitl [H5]
  · iexists _; isplitr
    swap; · iexact H5
    ipureintro
    buf_valb harg7 inb_S8x256x1_S8x256x1_0_0_0
  iexists _; isplitr
  swap; · iexact H6
  ipureintro
  buf_valb harg8 inb_S8x256x64_S8x256x64_0_0_0

set_option maxHeartbeats 8000000 in
/-- A middle tile not past the diagonal: update. -/
theorem sound_kernel1_B (c : Dev nD) (E : Set ℕ) (i : grid1.Coords)
    (arg2 : Memref sig .tc .vmem S8x256x64 .bf16) (harg2 : arg2.IsWhole) (arg3 : Memref sig .tc .vmem S8x256x64 .bf16) (harg3 : arg3.IsWhole)
    (arg4 : Memref sig .tc .vmem S8x256x64 .bf16) (harg4 : arg4.IsWhole) (arg5 : Memref sig .tc .vmem S8x256x64 .f32) (harg5 : arg5.IsWhole)
    (arg6 : Memref sig .tc .vmem S8x256x1 .f32) (harg6 : arg6.IsWhole) (arg7 : Memref sig .tc .vmem S8x256x1 .f32) (harg7 : arg7.IsWhole)
    (arg8 : Memref sig .tc .vmem S8x256x64 .f32) (harg8 : arg8.IsWhole)
    (hc0 : ¬ cond1_0 i) (hc1 : cond1_1 i) (hc2 : ¬ cond1_2 i)
    (x0 x1 x2 : Vec F S8x256x64 .bf16) (o : Vec F S8x256x64 .f32) (s0 s1 : Vec F S8x256x1 .f32) (s2 : Vec F S8x256x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare o ∗ owns (c : Thread nD τ) arg6 fullShare s0 ∗ owns (c : Thread nD τ) arg7 fullShare s1
        ∗ owns (c : Thread nD τ) arg8 fullShare s2
        ∗ (iprop(owns (c : Thread nD τ) arg2 fullShare x0 ∗ owns (c : Thread nD τ) arg3 fullShare x1 ∗ owns (c : Thread nD τ) arg4 fullShare x2
            ∗ owns (c : Thread nD τ) arg5 fullShare (o) ∗ owns (c : Thread nD τ) arg6 fullShare (k1_pay3 (k1_pay7 (kvW i) (remap i) x0 x1 (s0)))
            ∗ owns (c : Thread nD τ) arg7 fullShare (k1_pay1 (k1_pay10 (kvW i) (remap i) x0 x1 (s0) (s0) (s1))) ∗ owns (c : Thread nD τ) arg8 fullShare (k1_pay2 (k1_pay5 x2) (k1_pay8 (kvW i) (remap i) x0 x1 (s0) (s0)) (k1_pay9 (kvW i) (remap i) x0 x1 (s0)) (s2))) -∗ K ⟨⟩))
      ⊢ wp frame (wpE (defs₀ (F := F)) Variants.none c none) E (cc1_kernel i arg2 harg2 arg3 harg3 arg4 harg4 arg5 harg5 arg6 harg6 arg7 harg7 arg8 harg8) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    buf_valb harg5 inb_S8x256x64_S8x256x64_0_0_0
  isplitl [H4]
  · iexists _; isplitr
    swap; · iexact H4
    ipureintro
    buf_valb harg6 inb_S8x256x1_S8x256x1_0_0_0
  isplitl [H5]
  · iexists _; isplitr
    swap; · iexact H5
    ipureintro
    buf_valb harg7 inb_S8x256x1_S8x256x1_0_0_0
  iexists _; isplitr
  swap; · iexact H6
  ipureintro
  buf_valb harg8 inb_S8x256x64_S8x256x64_0_0_0

set_option maxHeartbeats 8000000 in
/-- A middle tile past the diagonal: nothing. -/
theorem sound_kernel1_C (c : Dev nD) (E : Set ℕ) (i : grid1.Coords)
    (arg2 : Memref sig .tc .vmem S8x256x64 .bf16) (harg2 : arg2.IsWhole) (arg3 : Memref sig .tc .vmem S8x256x64 .bf16) (harg3 : arg3.IsWhole)
    (arg4 : Memref sig .tc .vmem S8x256x64 .bf16) (harg4 : arg4.IsWhole) (arg5 : Memref sig .tc .vmem S8x256x64 .f32) (harg5 : arg5.IsWhole)
    (arg6 : Memref sig .tc .vmem S8x256x1 .f32) (harg6 : arg6.IsWhole) (arg7 : Memref sig .tc .vmem S8x256x1 .f32) (harg7 : arg7.IsWhole)
    (arg8 : Memref sig .tc .vmem S8x256x64 .f32) (harg8 : arg8.IsWhole)
    (hc0 : ¬ cond1_0 i) (hc1 : ¬ cond1_1 i) (hc2 : ¬ cond1_2 i)
    (x0 x1 x2 : Vec F S8x256x64 .bf16) (o : Vec F S8x256x64 .f32) (s0 s1 : Vec F S8x256x1 .f32) (s2 : Vec F S8x256x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare o ∗ owns (c : Thread nD τ) arg6 fullShare s0 ∗ owns (c : Thread nD τ) arg7 fullShare s1
        ∗ owns (c : Thread nD τ) arg8 fullShare s2
        ∗ (iprop(owns (c : Thread nD τ) arg2 fullShare x0 ∗ owns (c : Thread nD τ) arg3 fullShare x1 ∗ owns (c : Thread nD τ) arg4 fullShare x2
            ∗ owns (c : Thread nD τ) arg5 fullShare (o) ∗ owns (c : Thread nD τ) arg6 fullShare (s0)
            ∗ owns (c : Thread nD τ) arg7 fullShare (s1) ∗ owns (c : Thread nD τ) arg8 fullShare (s2)) -∗ K ⟨⟩))
      ⊢ wp frame (wpE (defs₀ (F := F)) Variants.none c none) E (cc1_kernel i arg2 harg2 arg3 harg3 arg4 harg4 arg5 harg5 arg6 harg6 arg7 harg7 arg8 harg8) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    buf_valb harg5 inb_S8x256x64_S8x256x64_0_0_0
  isplitl [H4]
  · iexists _; isplitr
    swap; · iexact H4
    ipureintro
    buf_valb harg6 inb_S8x256x1_S8x256x1_0_0_0
  isplitl [H5]
  · iexists _; isplitr
    swap; · iexact H5
    ipureintro
    buf_valb harg7 inb_S8x256x1_S8x256x1_0_0_0
  iexists _; isplitr
  swap; · iexact H6
  ipureintro
  buf_valb harg8 inb_S8x256x64_S8x256x64_0_0_0

set_option maxHeartbeats 8000000 in
/-- The last tile, on the diagonal: update, then the quotient. -/
theorem sound_kernel1_D (c : Dev nD) (E : Set ℕ) (i : grid1.Coords)
    (arg2 : Memref sig .tc .vmem S8x256x64 .bf16) (harg2 : arg2.IsWhole) (arg3 : Memref sig .tc .vmem S8x256x64 .bf16) (harg3 : arg3.IsWhole)
    (arg4 : Memref sig .tc .vmem S8x256x64 .bf16) (harg4 : arg4.IsWhole) (arg5 : Memref sig .tc .vmem S8x256x64 .f32) (harg5 : arg5.IsWhole)
    (arg6 : Memref sig .tc .vmem S8x256x1 .f32) (harg6 : arg6.IsWhole) (arg7 : Memref sig .tc .vmem S8x256x1 .f32) (harg7 : arg7.IsWhole)
    (arg8 : Memref sig .tc .vmem S8x256x64 .f32) (harg8 : arg8.IsWhole)
    (hc0 : ¬ cond1_0 i) (hc1 : cond1_1 i) (hc2 : cond1_2 i)
    (x0 x1 x2 : Vec F S8x256x64 .bf16) (o : Vec F S8x256x64 .f32) (s0 s1 : Vec F S8x256x1 .f32) (s2 : Vec F S8x256x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare o ∗ owns (c : Thread nD τ) arg6 fullShare s0 ∗ owns (c : Thread nD τ) arg7 fullShare s1
        ∗ owns (c : Thread nD τ) arg8 fullShare s2
        ∗ (iprop(owns (c : Thread nD τ) arg2 fullShare x0 ∗ owns (c : Thread nD τ) arg3 fullShare x1 ∗ owns (c : Thread nD τ) arg4 fullShare x2
            ∗ owns (c : Thread nD τ) arg5 fullShare (k1_pay4 (k1_pay2 (k1_pay5 x2) (k1_pay8 (kvW i) (remap i) x0 x1 (s0) (s0)) (k1_pay9 (kvW i) (remap i) x0 x1 (s0)) (s2)) (k1_pay1 (k1_pay10 (kvW i) (remap i) x0 x1 (s0) (s0) (s1)))) ∗ owns (c : Thread nD τ) arg6 fullShare (k1_pay3 (k1_pay7 (kvW i) (remap i) x0 x1 (s0)))
            ∗ owns (c : Thread nD τ) arg7 fullShare (k1_pay1 (k1_pay10 (kvW i) (remap i) x0 x1 (s0) (s0) (s1))) ∗ owns (c : Thread nD τ) arg8 fullShare (k1_pay2 (k1_pay5 x2) (k1_pay8 (kvW i) (remap i) x0 x1 (s0) (s0)) (k1_pay9 (kvW i) (remap i) x0 x1 (s0)) (s2))) -∗ K ⟨⟩))
      ⊢ wp frame (wpE (defs₀ (F := F)) Variants.none c none) E (cc1_kernel i arg2 harg2 arg3 harg3 arg4 harg4 arg5 harg5 arg6 harg6 arg7 harg7 arg8 harg8) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    buf_valb harg5 inb_S8x256x64_S8x256x64_0_0_0
  isplitl [H4]
  · iexists _; isplitr
    swap; · iexact H4
    ipureintro
    buf_valb harg6 inb_S8x256x1_S8x256x1_0_0_0
  isplitl [H5]
  · iexists _; isplitr
    swap; · iexact H5
    ipureintro
    buf_valb harg7 inb_S8x256x1_S8x256x1_0_0_0
  iexists _; isplitr
  swap; · iexact H6
  ipureintro
  buf_valb harg8 inb_S8x256x64_S8x256x64_0_0_0

set_option maxHeartbeats 8000000 in
/-- The last tile, past the diagonal: the quotient. -/
theorem sound_kernel1_E (c : Dev nD) (E : Set ℕ) (i : grid1.Coords)
    (arg2 : Memref sig .tc .vmem S8x256x64 .bf16) (harg2 : arg2.IsWhole) (arg3 : Memref sig .tc .vmem S8x256x64 .bf16) (harg3 : arg3.IsWhole)
    (arg4 : Memref sig .tc .vmem S8x256x64 .bf16) (harg4 : arg4.IsWhole) (arg5 : Memref sig .tc .vmem S8x256x64 .f32) (harg5 : arg5.IsWhole)
    (arg6 : Memref sig .tc .vmem S8x256x1 .f32) (harg6 : arg6.IsWhole) (arg7 : Memref sig .tc .vmem S8x256x1 .f32) (harg7 : arg7.IsWhole)
    (arg8 : Memref sig .tc .vmem S8x256x64 .f32) (harg8 : arg8.IsWhole)
    (hc0 : ¬ cond1_0 i) (hc1 : ¬ cond1_1 i) (hc2 : cond1_2 i)
    (x0 x1 x2 : Vec F S8x256x64 .bf16) (o : Vec F S8x256x64 .f32) (s0 s1 : Vec F S8x256x1 .f32) (s2 : Vec F S8x256x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare o ∗ owns (c : Thread nD τ) arg6 fullShare s0 ∗ owns (c : Thread nD τ) arg7 fullShare s1
        ∗ owns (c : Thread nD τ) arg8 fullShare s2
        ∗ (iprop(owns (c : Thread nD τ) arg2 fullShare x0 ∗ owns (c : Thread nD τ) arg3 fullShare x1 ∗ owns (c : Thread nD τ) arg4 fullShare x2
            ∗ owns (c : Thread nD τ) arg5 fullShare (k1_pay4 (s2) (s1)) ∗ owns (c : Thread nD τ) arg6 fullShare (s0)
            ∗ owns (c : Thread nD τ) arg7 fullShare (s1) ∗ owns (c : Thread nD τ) arg8 fullShare (s2)) -∗ K ⟨⟩))
      ⊢ wp frame (wpE (defs₀ (F := F)) Variants.none c none) E (cc1_kernel i arg2 harg2 arg3 harg3 arg4 harg4 arg5 harg5 arg6 harg6 arg7 harg7 arg8 harg8) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    buf_valb harg5 inb_S8x256x64_S8x256x64_0_0_0
  isplitl [H4]
  · iexists _; isplitr
    swap; · iexact H4
    ipureintro
    buf_valb harg6 inb_S8x256x1_S8x256x1_0_0_0
  isplitl [H5]
  · iexists _; isplitr
    swap; · iexact H5
    ipureintro
    buf_valb harg7 inb_S8x256x1_S8x256x1_0_0_0
  iexists _; isplitr
  swap; · iexact H6
  ipureintro
  buf_valb harg8 inb_S8x256x64_S8x256x64_0_0_0

/-- The body at any reachable combination of its conditions: the running state steps by `step1`, the result buffer by `fin1`. -/
theorem sound_kernel1 (c : Dev nD) (E : Set ℕ) (i : grid1.Coords)
    (arg2 : Memref sig .tc .vmem S8x256x64 .bf16) (harg2 : arg2.IsWhole) (arg3 : Memref sig .tc .vmem S8x256x64 .bf16) (harg3 : arg3.IsWhole)
    (arg4 : Memref sig .tc .vmem S8x256x64 .bf16) (harg4 : arg4.IsWhole) (arg5 : Memref sig .tc .vmem S8x256x64 .f32) (harg5 : arg5.IsWhole)
    (arg6 : Memref sig .tc .vmem S8x256x1 .f32) (harg6 : arg6.IsWhole) (arg7 : Memref sig .tc .vmem S8x256x1 .f32) (harg7 : arg7.IsWhole)
    (arg8 : Memref sig .tc .vmem S8x256x64 .f32) (harg8 : arg8.IsWhole)
    (hr1 : cond1_0 i → cond1_1 i) (hr2 : cond1_0 i → ¬ cond1_2 i)
    (x0 x1 x2 : Vec F S8x256x64 .bf16) (o : Vec F S8x256x64 .f32) (s0 s1 : Vec F S8x256x1 .f32) (s2 : Vec F S8x256x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare o ∗ owns (c : Thread nD τ) arg6 fullShare s0 ∗ owns (c : Thread nD τ) arg7 fullShare s1
        ∗ owns (c : Thread nD τ) arg8 fullShare s2
        ∗ (iprop(owns (c : Thread nD τ) arg2 fullShare x0 ∗ owns (c : Thread nD τ) arg3 fullShare x1 ∗ owns (c : Thread nD τ) arg4 fullShare x2
            ∗ owns (c : Thread nD τ) arg5 fullShare (fin1 i (step1 i x0 x1 x2 (s0, s1, s2)) o) ∗ owns (c : Thread nD τ) arg6 fullShare ((step1 i x0 x1 x2 (s0, s1, s2)).1)
            ∗ owns (c : Thread nD τ) arg7 fullShare ((step1 i x0 x1 x2 (s0, s1, s2)).2.1) ∗ owns (c : Thread nD τ) arg8 fullShare ((step1 i x0 x1 x2 (s0, s1, s2)).2.2)) -∗ K ⟨⟩))
      ⊢ wp frame (wpE (defs₀ (F := F)) Variants.none c none) E (cc1_kernel i arg2 harg2 arg3 harg3 arg4 harg4 arg5 harg5 arg6 harg6 arg7 harg7 arg8 harg8) K := by
  by_cases hc0 : cond1_0 i
  · have hc1 := hr1 hc0
    have hc2 := hr2 hc0
    simp only [step1, init1, upd1, fin1, reset1, if_pos hc0, if_pos hc1, if_neg hc2]
    exact sound_kernel1_A c E i arg2 harg2 arg3 harg3 arg4 harg4 arg5 harg5 arg6 harg6 arg7 harg7 arg8 harg8 hc0 hc1 hc2 x0 x1 x2 o s0 s1 s2 K
  · by_cases hc1 : cond1_1 i
    · by_cases hc2 : cond1_2 i
      · simp only [step1, init1, upd1, fin1, reset1, if_neg hc0, if_pos hc1, if_pos hc2]
        exact sound_kernel1_D c E i arg2 harg2 arg3 harg3 arg4 harg4 arg5 harg5 arg6 harg6 arg7 harg7 arg8 harg8 hc0 hc1 hc2 x0 x1 x2 o s0 s1 s2 K
      · simp only [step1, init1, upd1, fin1, reset1, if_neg hc0, if_pos hc1, if_neg hc2]
        exact sound_kernel1_B c E i arg2 harg2 arg3 harg3 arg4 harg4 arg5 harg5 arg6 harg6 arg7 harg7 arg8 harg8 hc0 hc1 hc2 x0 x1 x2 o s0 s1 s2 K
    · by_cases hc2 : cond1_2 i
      · simp only [step1, init1, upd1, fin1, reset1, if_neg hc0, if_neg hc1, if_pos hc2]
        exact sound_kernel1_E c E i arg2 harg2 arg3 harg3 arg4 harg4 arg5 harg5 arg6 harg6 arg7 harg7 arg8 harg8 hc0 hc1 hc2 x0 x1 x2 o s0 s1 s2 K
      · simp only [step1, init1, upd1, fin1, reset1, if_neg hc0, if_neg hc1, if_neg hc2]
        exact sound_kernel1_C c E i arg2 harg2 arg3 harg3 arg4 harg4 arg5 harg5 arg6 harg6 arg7 harg7 arg8 harg8 hc0 hc1 hc2 x0 x1 x2 o s0 s1 s2 K

end Cert.Kernel.Hand

end
-- ==== Proof.BRegion1.lean ====
/-
  The attention region at the contents `V` it is entered with: the running state after each grid point by recursion on
  the point, the region's proof data, and the body obligation at every point.
-/
import proofs.«102945_j49727131353090_2_alg».proof.Proof.BBody
import Idealize.ShloMosaic.Lib.Pipeline.RegionsLoop
import Idealize.ShloMosaic.Lib.Pipeline.FrameSuffix

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The conditions over the grid -/

theorem hcond1_0 : ∀ t : Fin cfg1.N, cond1_0 (grid1.coords t) ↔ t.val % 8 = 0 :=
  (by decide +kernel : ∀ t : Fin grid1.N, cond1_0 (grid1.coords t) ↔ t.val % 8 = 0)
theorem hcond1_2 : ∀ t : Fin cfg1.N, cond1_2 (grid1.coords t) ↔ t.val % 8 = 7 :=
  (by decide +kernel : ∀ t : Fin grid1.N, cond1_2 (grid1.coords t) ↔ t.val % 8 = 7)
/-- The first key/value tile is never past the diagonal. -/
theorem hreach1 : ∀ t : Fin cfg1.N, cond1_0 (grid1.coords t) → cond1_1 (grid1.coords t) :=
  (by decide +kernel : ∀ t : Fin grid1.N, cond1_0 (grid1.coords t) → cond1_1 (grid1.coords t))

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_2 (grid1.coords t) → cfg1.idle 3 (grid1.coords t) = true := by decide +kernel
theorem noFlush1_3 : ∀ t : Fin cfg1.N, ¬cond1_2 (grid1.coords t) → (cfg1.win 3).flush t = false := by decide +kernel
theorem liveAt1_3 : ∀ t : Fin cfg1.N, cond1_2 (grid1.coords t) → cfg1.idle 3 (grid1.coords t) = false := by decide +kernel

/-! ## The memrefs the body is called with -/

abbrev ms1_0 (t : Fin cfg1.N) : Memref sig .tc .vmem S8x256x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x256x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x256x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x256x64 .f32 := win1_3.stage (cfg1.slots t 3)
abbrev hs1_3 (t : Fin cfg1.N) : (ms1_3 t).IsWhole := hstage1_3 ((cfg1.slots t 3).cast nbuf1_3)
abbrev scM1_0 : Memref sig .tc .vmem S8x256x1 .f32 := Memref.whole cc1_scratch0
abbrev scM1_1 : Memref sig .tc .vmem S8x256x1 .f32 := Memref.whole cc1_scratch1
abbrev scM1_2 : Memref sig .tc .vmem S8x256x64 .f32 := Memref.whole cc1_scratch2

/-- A scoped buffer of the other region, whole at some contents. -/
abbrev hole (c : Dev nD) (b : Ref sig .tc) : sProp 𝕄 :=
  iprop(∃ f : Buf (Elt F) ((c : Thread nD τ).loc b), ((c : Thread nD τ).loc b) ↦{fullShare} f)

/-- The other region's staging buffers, each whole at some contents. -/
abbrev others (c : Dev nD) : sProp 𝕄 :=
  iprop(hole c cc0_stg0_0 ∗ hole c cc0_stg0_1 ∗ hole c cc0_stg1_0 ∗ hole c cc0_stg2_0 ∗ hole c cc0_stg2_1 ∗ hole c cc0_stg3_0 ∗ hole c cc0_stg3_1 ∗ hole c cc0_stg4_0 ∗ hole c cc0_stg4_1)

theorem PhiA1_eq (c : Dev nD) :
    (Pipeline.ΦA spec1 c : sProp 𝕄)
      = iprop(iprop(hole c cc0_stg0_0 ∗ hole c cc0_stg0_1 ∗ hole c cc0_stg1_0 ∗ hole c cc0_stg2_0 ∗ hole c cc0_stg2_1 ∗ hole c cc0_stg3_0 ∗ hole c cc0_stg3_1 ∗ hole c cc0_stg4_0 ∗ hole c cc0_stg4_1
          ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

/-! ## The running state after each point -/

/-- The running state after the body at position `n`: at the first point the update of the reset state, afterwards one
    `step1` of what the point before left. -/
def outsAt1 (c : Dev nD) : (n : ℕ) → n < cfg1.N → St F
  | 0, hn => upd1 (grid1.coords ⟨0, hn⟩) (iblk1 V c 0 ⟨0, hn⟩) (iblk1 V c 1 ⟨0, hn⟩) (iblk1 V c 2 ⟨0, hn⟩) reset1
  | n + 1, hn => step1 (grid1.coords ⟨n + 1, hn⟩) (iblk1 V c 0 ⟨n + 1, hn⟩) (iblk1 V c 1 ⟨n + 1, hn⟩) (iblk1 V c 2 ⟨n + 1, hn⟩) (outsAt1 c n (Nat.lt_of_succ_lt hn))

/-- At the first point the state does not depend on what the scratch held. -/
theorem outsAt1_zero (c : Dev nD) (t : Fin cfg1.N) (hz : t.val = 0) (S : St F) :
    outsAt1 V c t.val t.isLt = step1 (grid1.coords t) (iblk1 V c 0 t) (iblk1 V c 1 t) (iblk1 V c 2 t) S := by
  obtain ⟨n, hn⟩ := t
  obtain rfl : n = 0 := hz
  have h0 : cond1_0 (grid1.coords ⟨0, hn⟩) := (hcond1_0 ⟨0, hn⟩).mpr (Nat.zero_mod _)
  simp only [outsAt1, step1, init1, if_pos h0]

theorem outsAt1_pos (c : Dev nD) (t : Fin cfg1.N) (hz : t.val ≠ 0) :
    outsAt1 V c t.val t.isLt = step1 (grid1.coords t) (iblk1 V c 0 t) (iblk1 V c 1 t) (iblk1 V c 2 t)
      (outsAt1 V c (t.val - 1) (Nat.lt_of_le_of_lt (Nat.sub_le _ _) t.isLt)) := by
  obtain ⟨n, hn⟩ := t
  cases n with
  | zero => exact absurd rfl hz
  | succ n => rfl

/-- The region invariant before position `n`: before the first point every scoped buffer at anything; afterwards the three
    scratch arrays at the running state the point before left. -/
def PhiS (c : Dev nD) : (n : ℕ) → n ≤ cfg1.N → sProp 𝕄
  | 0, _ => Pipeline.ΦA spec1 c
  | n + 1, hn => iprop(iprop(hole c cc0_stg0_0 ∗ hole c cc0_stg0_1 ∗ hole c cc0_stg1_0 ∗ hole c cc0_stg2_0 ∗ hole c cc0_stg2_1 ∗ hole c cc0_stg3_0 ∗ hole c cc0_stg3_1 ∗ hole c cc0_stg4_0 ∗ hole c cc0_stg4_1
      ∗ owns (c : Thread nD τ) scM1_0 fullShare (outsAt1 V c n hn).1 ∗ owns (c : Thread nD τ) scM1_1 fullShare (outsAt1 V c n hn).2.1
      ∗ owns (c : Thread nD τ) scM1_2 fullShare (outsAt1 V c n hn).2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(hole c cc0_stg0_0 ∗ hole c cc0_stg0_1 ∗ hole c cc0_stg1_0 ∗ hole c cc0_stg2_0 ∗ hole c cc0_stg2_1 ∗ hole c cc0_stg3_0 ∗ hole c cc0_stg3_1 ∗ hole c cc0_stg4_0 ∗ hole c cc0_stg4_1
      ∗ owns (c : Thread nD τ) scM1_0 fullShare (outsAt1 V c n hn).1 ∗ owns (c : Thread nD τ) scM1_1 fullShare (outsAt1 V c n hn).2.1
      ∗ owns (c : Thread nD τ) scM1_2 fullShare (outsAt1 V c n hn).2.2) ∗ (∃ r, prngReg c r)) := rfl

theorem PhiS_pos (c : Dev nD) (n : ℕ) (h : n ≤ cfg1.N) (hz : n ≠ 0) :
    PhiS V c n h = iprop(iprop(hole c cc0_stg0_0 ∗ hole c cc0_stg0_1 ∗ hole c cc0_stg1_0 ∗ hole c cc0_stg2_0 ∗ hole c cc0_stg2_1 ∗ hole c cc0_stg3_0 ∗ hole c cc0_stg3_1 ∗ hole c cc0_stg4_0 ∗ hole c cc0_stg4_1
      ∗ owns (c : Thread nD τ) scM1_0 fullShare (outsAt1 V c (n - 1) (by omega)).1 ∗ owns (c : Thread nD τ) scM1_1 fullShare (outsAt1 V c (n - 1) (by omega)).2.1
      ∗ owns (c : Thread nD τ) scM1_2 fullShare (outsAt1 V c (n - 1) (by omega)).2.2) ∗ (∃ r, prngReg c r)) := by
  cases n with
  | zero => exact absurd rfl hz
  | succ n => rfl

/-! ## The region's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay4 (outsAt1 V c t.val t.isLt).2.2 (outsAt1 V c t.val t.isLt).2.1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay4 (outsAt1 V c t.val t.isLt).2.2 (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hr1 := hreach1 t
  have hr2 : cond1_0 (grid1.coords t) → ¬ cond1_2 (grid1.coords t) := fun h0 h2 => by
    have a := (hcond1_0 t).mp h0; have b := (hcond1_2 t).mp h2; omega
  by_cases hz : t.val = 0
  · rw [PhiS_castSucc V c t, PhiS_zero V c _ _ hz, PhiA1_eq]
    by_cases h2 : cond1_2 (grid1.coords t)
    · exfalso; have b := (hcond1_2 t).mp h2; omega
    · rw [Dat.leavesExact_idle (dat1 V c) 3 t (idleAt1_3 t h2) (noFlush1_3 t h2)]
      iintro ⟨⟨⟨Hr0, Hr1, Hr2, Hr3, Hr4, Hr5, Hr6, Hr7, Hr8, ⟨%e0, HS0⟩, ⟨%e1, HS1⟩, ⟨%e2, HS2⟩⟩, Hg⟩, Ho, ⟨%d0, H0⟩, ⟨%d1, H1⟩, ⟨%d2, H2⟩, ⟨%d3, H3⟩⟩
      rw [outsAt1_zero V c t hz (e0, e1, e2)]
      iapply (sound_kernel1 c Set.univ (grid1.coords t) _ _ _ _ _ _ _ _ _ _ _ _ _ _ hr1 hr2 (iblk1 V c 0 t) (iblk1 V c 1 t) (iblk1 V c 2 t) _ e0 e1 e2 _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [Hr0 Hr1 Hr2 Hr3 Hr4 Hr5 Hr6 Hr7 Hr8 HS0 HS1 HS2 Hg]
      · isplitr [Hg]
        · isplitl [Hr0]; · iexact Hr0
          isplitl [Hr1]; · iexact Hr1
          isplitl [Hr2]; · iexact Hr2
          isplitl [Hr3]; · iexact Hr3
          isplitl [Hr4]; · iexact Hr4
          isplitl [Hr5]; · iexact Hr5
          isplitl [Hr6]; · iexact Hr6
          isplitl [Hr7]; · iexact Hr7
          isplitl [Hr8]; · iexact Hr8
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      simp only [fin1, if_neg h2]
      iexists _; iexact H3
  · rw [PhiS_castSucc V c t, PhiS_pos V c _ _ hz, outsAt1_pos V c t hz]
    by_cases h2 : cond1_2 (grid1.coords t)
    · rw [show (dat1 V c).leavesExact 3 t = owns (c : Thread nD τ) (ms1_3 t) fullShare ((dat1 V c).after 3 t) from by
        unfold Dat.leavesExact; rw [liveAt1_3 t h2], after1_3, outsAt1_pos V c t hz]
      iintro ⟨⟨⟨Hr0, Hr1, Hr2, Hr3, Hr4, Hr5, Hr6, Hr7, Hr8, HS0, HS1, HS2⟩, Hg⟩, Ho, ⟨%d0, H0⟩, ⟨%d1, H1⟩, ⟨%d2, H2⟩, ⟨%d3, H3⟩⟩
      iapply (sound_kernel1 c Set.univ (grid1.coords t) _ _ _ _ _ _ _ _ _ _ _ _ _ _ hr1 hr2 (iblk1 V c 0 t) (iblk1 V c 1 t) (iblk1 V c 2 t) _ _ _ _ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [Hr0 Hr1 Hr2 Hr3 Hr4 Hr5 Hr6 Hr7 Hr8 HS0 HS1 HS2 Hg]
      · isplitr [Hg]
        · isplitl [Hr0]; · iexact Hr0
          isplitl [Hr1]; · iexact Hr1
          isplitl [Hr2]; · iexact Hr2
          isplitl [Hr3]; · iexact Hr3
          isplitl [Hr4]; · iexact Hr4
          isplitl [Hr5]; · iexact Hr5
          isplitl [Hr6]; · iexact Hr6
          isplitl [Hr7]; · iexact Hr7
          isplitl [Hr8]; · iexact Hr8
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      simp only [fin1, if_pos h2]
      iexact H3
    · rw [Dat.leavesExact_idle (dat1 V c) 3 t (idleAt1_3 t h2) (noFlush1_3 t h2)]
      iintro ⟨⟨⟨Hr0, Hr1, Hr2, Hr3, Hr4, Hr5, Hr6, Hr7, Hr8, HS0, HS1, HS2⟩, Hg⟩, Ho, ⟨%d0, H0⟩, ⟨%d1, H1⟩, ⟨%d2, H2⟩, ⟨%d3, H3⟩⟩
      iapply (sound_kernel1 c Set.univ (grid1.coords t) _ _ _ _ _ _ _ _ _ _ _ _ _ _ hr1 hr2 (iblk1 V c 0 t) (iblk1 V c 1 t) (iblk1 V c 2 t) _ _ _ _ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [Hr0 Hr1 Hr2 Hr3 Hr4 Hr5 Hr6 Hr7 Hr8 HS0 HS1 HS2 Hg]
      · isplitr [Hg]
        · isplitl [Hr0]; · iexact Hr0
          isplitl [Hr1]; · iexact Hr1
          isplitl [Hr2]; · iexact Hr2
          isplitl [Hr3]; · iexact Hr3
          isplitl [Hr4]; · iexact Hr4
          isplitl [Hr5]; · iexact Hr5
          isplitl [Hr6]; · iexact Hr6
          isplitl [Hr7]; · iexact Hr7
          isplitl [Hr8]; · iexact Hr8
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      simp only [fin1, if_neg h2]
      iexists _; iexact H3

theorem body_obligation1 (c : Dev nD) : BodyObligation (dat1 (F := F) V c) (defs₀ (F := F)) Variants.none () Set.univ := fun t => by
  rw [bigSep_W1, bigSep_W1]
  exact sound_body1 V c t

/-- What the region is handed is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives every scoped buffer back at some contents. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA1_eq]
  iintro ⟨⟨Hr0, Hr1, Hr2, Hr3, Hr4, Hr5, Hr6, Hr7, Hr8, HS0, HS1, HS2⟩, Hg⟩
  isplitr [Hg]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    isplitl [HS0]; · iexists _; iexact HS0
    isplitl [HS1]; · iexists _; iexact HS1
    iexists _; iexact HS2
  iexact Hg

end Cert.Kernel.Hand

end
-- ==== Proof.BRun.lean ====
/-
  The run of the whole program: host operations, the projection region, host operations, the attention region. At its
  end every argument array holds what it was launched with and the result array holds what the attention region's
  write-backs leave.
-/
import proofs.«102945_j49727131353090_2_alg».proof.Proof.BRegion0
import proofs.«102945_j49727131353090_2_alg».proof.Proof.BRegion1

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### No operation and no region writes an argument array -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg3) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    iintro ⟨Hp, -, Hr⟩
    iapply (hin1 (V3 m ρ) c)
    unfold Pipeline.ΦA
    isplitl [Hr]; · iexact Hr
    iexact Hp
  hout c := by
    rw [Pipeline.ownSems0_none]
    have h := hout1 (V3 m ρ) c
    unfold Pipeline.ΦA at h
    rw [show (pdats m ρ 1 c).Φ (Fin.last _) = (dat1 (V3 m ρ) c).Φ (Fin.last cfg1.N) from rfl]
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution terminates without a fault; at the end the result array holds what the attention region's
    write-backs leave and the four argument arrays hold their launch contents. -/
theorem run_full : θ_run defs (onTc (τ := τ) (main (F := F))) ⟨m, fun _ => 0, ρ⟩ (fun r => ∀ c : Dev nD,
      r.2.mem ((c.tc : Thread nD τ).loc main_v7) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v7 (by decide))).trans (W4_arr m ρ c 3),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_full m ρ)

end Cert.Kernel.Hand

end
-- ==== Proof.LibRealLaw.lean ====
/- The real-number law behind a linear cross-attention, stated over the extended reals.

   At the ideal reading a float is an extended real.  Two programs compute, from real inputs
   `l e`, `g m e`, `v m`,

     reference:  ∑ m, ((∑ e, l e * g m e) / 1024) * v m
     kernel:     ∑ e, l e * ((∑ m, g m e * v m) * (1/1024))

   Over the reals these agree: distribute the constant and exchange the two finite sums.  Over the
   extended reals multiplication does not distribute over addition in general (`⊤ + ⊥`, `0 * ⊤`),
   so the law is stated for extended reals that are known to be (coercions of) real numbers, and
   proved by pulling the coercion `ℝ → EReal` outside every product and finite sum. -/
import Idealize.ShloMosaic.PureOps.Ideal

noncomputable section

open Idealize.ShloMosaic

namespace Cert.Attn.RealLaw

/-! ### Extended reals that are real numbers -/

/-- An extended real is *real* when it is the image of some real number, that is, it is neither
    `⊤` nor `⊥`. -/
def IsReal (x : EReal) : Prop := ∃ r : ℝ, x = (r : EReal)

/-- The image of a real number is real. -/
theorem isReal_coe (r : ℝ) : IsReal (r : EReal) := ⟨r, rfl⟩

/-- The product of two real extended reals is real: `↑a * ↑b = ↑(a * b)`. -/
theorem isReal_mul {x y : EReal} (hx : IsReal x) (hy : IsReal y) : IsReal (x * y) := by
  obtain ⟨a, rfl⟩ := hx
  obtain ⟨b, rfl⟩ := hy
  exact ⟨a * b, (EReal.coe_mul a b).symm⟩

/-- The sum of two real extended reals is real: `↑a + ↑b = ↑(a + b)`. -/
theorem isReal_add {x y : EReal} (hx : IsReal x) (hy : IsReal y) : IsReal (x + y) := by
  obtain ⟨a, rfl⟩ := hx
  obtain ⟨b, rfl⟩ := hy
  exact ⟨a + b, (EReal.coe_add a b).symm⟩

/-- The coercion `ℝ → EReal` commutes with a finite sum: the image of `∑ k ∈ s, f k` is the sum of
    the images. -/
theorem coe_sum {K : Type*} (s : Finset K) (f : K → ℝ) :
    ((∑ k ∈ s, f k : ℝ) : EReal) = ∑ k ∈ s, (f k : EReal) := by
  classical
  induction s using Finset.induction_on with
  | empty => simp
  | insert a s ha ih => rw [Finset.sum_insert ha, Finset.sum_insert ha, EReal.coe_add, ih]

variable {E M K : Type*} [Fintype E] [Fintype M] [Fintype K]

/-- A finite sum of real extended reals is real. -/
theorem isReal_sum {f : K → EReal} (hf : ∀ k, IsReal (f k)) : IsReal (∑ k, f k) := by
  choose f' hf' using hf
  refine ⟨∑ k, f' k, ?_⟩
  rw [coe_sum]
  exact Finset.sum_congr rfl fun k _ => hf' k

/-- A finite sum of products of real extended reals is real. -/
theorem isReal_sum_mul {a b : K → EReal} (ha : ∀ k, IsReal (a k)) (hb : ∀ k, IsReal (b k)) :
    IsReal (∑ k, a k * b k) :=
  isReal_sum fun k => isReal_mul (ha k) (hb k)

/-- The hyperbolic tangent of a real extended real is real: on the image of `r` it is the image of
    `Real.tanh r`. -/
theorem isReal_tanh {x : EReal} (hx : IsReal x) : IsReal (Ideal.tanh x) := by
  obtain ⟨r, rfl⟩ := hx
  exact ⟨Real.tanh r, Ideal.tanh_coe r⟩

/-! ### The two literals -/

/-- The single-precision pattern `0x3A800000` (sign `0`, exponent field `117`, significand field `0`)
    denotes `2 ^ (117 - 127) = 2 ^ (-10) = 1 / 1024`. -/
theorem inv_1024 : Ideal.ofBits .f32 0x3A800000#32 = (((1 / 1024 : ℝ)) : EReal) := by
  simp [Ideal.ofBits, Ideal.ieee, -EReal.coe_mul]; norm_num

/-- The single-precision pattern `0x44800000` (sign `0`, exponent field `137`, significand field `0`)
    denotes `2 ^ (137 - 127) = 2 ^ 10 = 1024`. -/
theorem lit_1024 : Ideal.ofBits .f32 0x44800000#32 = ((1024 : ℝ) : EReal) := by
  simp [Ideal.ofBits, Ideal.ieee, -EReal.coe_mul]; norm_num

/-! ### The law -/

/-- The reassociation law over the reals: for real numbers `l e`, `g m e`, `v m` over finite index
    types, `∑ m, ((∑ e, l e * g m e) * c) * v m = ∑ e, l e * ((∑ m, g m e * v m) * c)`.  Distribute
    the products over the inner sums, exchange the two sums, and compare term by term. -/
theorem reassoc_real (l : E → ℝ) (g : M → E → ℝ) (v : M → ℝ) (c : ℝ) :
    (∑ m, (∑ e, l e * g m e) * c * v m) = ∑ e, l e * ((∑ m, g m e * v m) * c) := by
  simp only [Finset.sum_mul, Finset.mul_sum]
  rw [Finset.sum_comm]
  refine Finset.sum_congr rfl fun e _ => Finset.sum_congr rfl fun m _ => ?_
  ring

/-- The reassociation law over the extended reals, for real entries: if every `l e`, `g m e` and
    `v m` is real then
    `∑ m, ((∑ e, l e * g m e) / 1024) * v m = ∑ e, l e * ((∑ m, g m e * v m) * (1/1024))`,
    where `/` is the ideal division.  Division by the nonzero real `1024` is multiplication by its
    reciprocal; then both sides are images of real numbers, equal by the law over the reals. -/
theorem reassoc (l : E → EReal) (g : M → E → EReal) (v : M → EReal)
    (hl : ∀ e, IsReal (l e)) (hg : ∀ m e, IsReal (g m e)) (hv : ∀ m, IsReal (v m)) :
    (∑ m, Ideal.div (∑ e, l e * g m e) ((1024 : ℝ) : EReal) * v m)
      = ∑ e, l e * ((∑ m, g m e * v m) * (((1 / 1024 : ℝ)) : EReal)) := by
  choose l' hl' using hl
  choose g' hg' using hg
  choose v' hv' using hv
  have h1024 : (1024 : ℝ) ≠ 0 := by norm_num
  simp only [hl', hg', hv', Ideal.div_coe h1024, ← EReal.coe_mul, ← coe_sum]
  exact congrArg _ (reassoc_real l' g' v' (1 / 1024))

/-- The same law with a common additive tail `x` (any extended real) on both sides. -/
theorem reassoc_add (l : E → EReal) (g : M → E → EReal) (v : M → EReal)
    (hl : ∀ e, IsReal (l e)) (hg : ∀ m e, IsReal (g m e)) (hv : ∀ m, IsReal (v m)) (x : EReal) :
    (∑ m, Ideal.div (∑ e, l e * g m e) ((1024 : ℝ) : EReal) * v m) + x
      = (∑ e, l e * ((∑ m, g m e * v m) * (((1 / 1024 : ℝ)) : EReal))) + x :=
  congrArg (· + x) (reassoc l g v hl hg hv)

end Cert.Attn.RealLaw

end
-- ==== Proof.LibOnlineSoftmax.lean ====
/-
  The online softmax recurrence on the extended reals, and the closed forms of its running state.

  One row of attention scores arrives in blocks `s 0, s 1, …` over a finite index type `J`, with one column of
  values `v 0, v 1, …` beside them. The recurrence keeps three numbers: the running maximum `m`, the running
  denominator `l` and the running numerator `a`; at block `n` it replaces them by

      m' = max m (sup_j s n j),   l' = e^(m - m') · l + Σ_j e^(s n j - m'),   a' = e^(m - m') · a + Σ_j e^(s n j - m') · v n j,

  starting from `(-∞, 0, 0)`. When every score and value is a real number, after `n` blocks

      m = the maximum of the scores seen,  l = Σ_{k<n} Σ_j e^(s k j - m),  a = Σ_{k<n} Σ_j e^(s k j - m) · v k j,

  because `e^(μ - μ') · e^(x - μ) = e^(x - μ')` for real `μ, μ', x` and a real factor distributes over a finite real sum
  (at the first block the factor `e^(-∞ - m')` multiplies `0`). Consequently `a / l` after the last block is the softmax
  of the whole row applied to the values: `Σ_n (e^(S n - M) / Σ_n' e^(S n' - M)) · X n`, the denominator being a positive real.
-/
import proofs.«102945_j49727131353090_2_alg».proof.Proof.LibRealLaw

noncomputable section

open scoped BigOperators

namespace Cert.Attn.Online

open Idealize.ShloMosaic Cert.Attn.RealLaw

/-- A fold of `max` from `-∞` is the supremum. -/
theorem fold_max_bot {ι : Type*} (t : Finset ι) (f : ι → EReal) : t.fold max ⊥ f = t.sup f := by
  classical
  induction t using Finset.induction_on with
  | empty => simp
  | insert a t ha ih => rw [Finset.fold_insert ha, Finset.sup_insert, ih]

variable {J : Type*} [Fintype J]

/-- The running maximum after `n` blocks. -/
def runM (s : ℕ → J → EReal) : ℕ → EReal
  | 0 => ⊥
  | n + 1 => max (runM s n) (Finset.univ.sup (s n))

/-- The running denominator after `n` blocks. -/
def runL (s : ℕ → J → EReal) : ℕ → EReal
  | 0 => 0
  | n + 1 => Ideal.exp (runM s n - runM s (n + 1)) * runL s n + ∑ j, Ideal.exp (s n j - runM s (n + 1))

/-- The running numerator after `n` blocks, for one column `v` of values. -/
def runA (s v : ℕ → J → EReal) : ℕ → EReal
  | 0 => 0
  | n + 1 => Ideal.exp (runM s n - runM s (n + 1)) * runA s v n + ∑ j, Ideal.exp (s n j - runM s (n + 1)) * v n j

/-- The running maximum is the supremum of the scores seen. -/
theorem runM_eq_sup (s : ℕ → J → EReal) (n : ℕ) :
    runM s n = (Finset.range n).sup fun k => Finset.univ.sup (s k) := by
  induction n with
  | zero => simp [runM]
  | succ n ih => rw [runM, ih, Finset.range_add_one, Finset.sup_insert, max_comm]

/-- Over real scores and a nonempty block the running maximum is a real number from the first block on. -/
theorem runM_real [Nonempty J] (s' : ℕ → J → ℝ) (n : ℕ) :
    ∃ μ : ℝ, runM (fun k j => ((s' k j : ℝ) : EReal)) (n + 1) = (μ : EReal) := by
  induction n with
  | zero =>
    obtain ⟨j, -, hj⟩ := Finset.exists_mem_eq_sup Finset.univ Finset.univ_nonempty (fun j : J => ((s' 0 j : ℝ) : EReal))
    exact ⟨s' 0 j, by rw [runM, runM, hj]; exact max_eq_right bot_le⟩
  | succ n ih =>
    obtain ⟨μ, hμ⟩ := ih
    obtain ⟨j, -, hj⟩ := Finset.exists_mem_eq_sup Finset.univ Finset.univ_nonempty (fun j : J => ((s' (n + 1) j : ℝ) : EReal))
    exact ⟨max μ (s' (n + 1) j), by rw [runM, hμ, hj]; exact (EReal.coe_strictMono.monotone.map_max).symm⟩

/-- The real rescaling law: `e^(μ - μ') · Σ e^(x - μ) · g = Σ e^(x - μ') · g`. -/
theorem rescale (R : Finset ℕ) (s' g : ℕ → J → ℝ) (μ μ' : ℝ) :
    Real.exp (μ - μ') * ∑ k ∈ R, ∑ j, Real.exp (s' k j - μ) * g k j = ∑ k ∈ R, ∑ j, Real.exp (s' k j - μ') * g k j := by
  rw [Finset.mul_sum]
  refine Finset.sum_congr rfl fun k _ => ?_
  rw [Finset.mul_sum]
  refine Finset.sum_congr rfl fun j _ => ?_
  rw [← mul_assoc, ← Real.exp_add]
  congr 2
  ring

/-- The running numerator in closed form. -/
theorem runA_closed [Nonempty J] (s' v' : ℕ → J → ℝ) (n : ℕ) :
    runA (fun k j => ((s' k j : ℝ) : EReal)) (fun k j => ((v' k j : ℝ) : EReal)) n
      = ∑ k ∈ Finset.range n, ∑ j, Ideal.exp (((s' k j : ℝ) : EReal) - runM (fun k j => ((s' k j : ℝ) : EReal)) n) * ((v' k j : ℝ) : EReal) := by
  induction n with
  | zero => simp [runA]
  | succ n ih =>
    rw [runA, ih, Finset.sum_range_succ]
    refine congrArg (· + _) ?_
    cases n with
    | zero => simp
    | succ n =>
      obtain ⟨μ, hμ⟩ := runM_real s' n
      obtain ⟨μ', hμ'⟩ := runM_real s' (n + 1)
      simp only [hμ, hμ', ← EReal.coe_sub, Ideal.exp_coe, ← EReal.coe_mul, ← coe_sum]
      exact congrArg _ (rescale _ s' v' μ μ')

/-- The running denominator in closed form. -/
theorem runL_closed [Nonempty J] (s' : ℕ → J → ℝ) (n : ℕ) :
    runL (fun k j => ((s' k j : ℝ) : EReal)) n
      = ∑ k ∈ Finset.range n, ∑ j, Ideal.exp (((s' k j : ℝ) : EReal) - runM (fun k j => ((s' k j : ℝ) : EReal)) n) := by
  induction n with
  | zero => simp [runL]
  | succ n ih =>
    rw [runL, ih, Finset.sum_range_succ]
    refine congrArg (· + _) ?_
    cases n with
    | zero => simp
    | succ n =>
      obtain ⟨μ, hμ⟩ := runM_real s' n
      obtain ⟨μ', hμ'⟩ := runM_real s' (n + 1)
      simp only [hμ, hμ', ← EReal.coe_sub, Ideal.exp_coe, ← EReal.coe_mul, ← coe_sum]
      refine congrArg _ ?_
      simpa using rescale (Finset.range (n + 1)) s' (fun _ _ => (1 : ℝ)) μ μ'

end Cert.Attn.Online

end
-- ==== Proof.Spec.lean ====
/-
  Causal single-head attention on the extended reals, index by index, in two spellings.

  From an input `x : [8, 2048, 1024]` and three weight matrices `W : [1024, 64]` the projections are
  `proj x W b t h = Σ_e x(b,t,e) · W(e,h)`. The score of query row `i` against key row `j` of batch `b` is
  `(Σ_h q(b,i,h) · k(b,j,h)) · 2⁻⁵`, replaced by `-∞` when `j > i` (the causal mask).

  `attn` is the textbook form: with `M` the maximum of row `i`'s masked scores,
  `out(b,i,h) = Σ_j (e^(s_j - M) / Σ_j' e^(s_j' - M)) · v(b,j,h)`.

  `flash` is the blocked form: row `i`'s masked scores and the values arrive in blocks of 256 columns, only the blocks
  `0 … i / 256` are visited, and the running maximum, denominator and numerator of the online softmax recurrence
  (`runM`, `runL`, `runA`) are divided at the end.
-/
import Idealize.ShloMosaic.PureOps.Ideal
import Idealize.ShloMosaic.Lib.ValueIdx
import proofs.«102945_j49727131353090_2_alg».proof.Proof.LibOnlineSoftmax

noncomputable section

open scoped BigOperators

namespace Cert.Attn

open Idealize.ShloMosaic Idealize.ShloMosaic.ValueIdx Cert.Attn.Online

/-- The input's shape. -/
abbrev SX : Shape := ⟨3, ![8, 2048, 1024]⟩
/-- A weight matrix's shape. -/
abbrev SW : Shape := ⟨2, ![1024, 64]⟩
/-- The result's shape. -/
abbrev SO : Shape := ⟨3, ![8, 2048, 64]⟩

/-- The score scale `2⁻⁵ = 1024^(-1/2)`, as the f32 word both programs print. -/
def scale : EReal := Ideal.ofBits .f32 0x3D000000#32

/-- One projection `x · W` at `(b, t, h)`. -/
def proj (x : SX.Idx → EReal) (W : SW.Idx → EReal) (b : Fin 8) (t : Fin 2048) (h : Fin 64) : EReal :=
  ∑ e : Fin 1024, x (ix3 b t e) * W (ix2 e h)

/-- The scaled score of query row `i` against key row `j`. -/
def score (x : SX.Idx → EReal) (Wq Wk : SW.Idx → EReal) (b : Fin 8) (i j : Fin 2048) : EReal :=
  (∑ h : Fin 64, proj x Wq b i h * proj x Wk b j h) * scale

/-- The causally masked score: `-∞` above the diagonal. -/
def mscore (x : SX.Idx → EReal) (Wq Wk : SW.Idx → EReal) (b : Fin 8) (i j : Fin 2048) : EReal :=
  if j ≤ i then score x Wq Wk b i j else ⊥

/-- Textbook causal attention. -/
def attn (x : SX.Idx → EReal) (Wk Wq Wv : SW.Idx → EReal) : SO.Idx → EReal := fun idx =>
  ∑ j : Fin 2048,
    Ideal.div (Ideal.exp (mscore x Wq Wk (idx 0) (idx 1) j - Finset.univ.sup fun j' : Fin 2048 => mscore x Wq Wk (idx 0) (idx 1) j'))
      (∑ j'' : Fin 2048, Ideal.exp (mscore x Wq Wk (idx 0) (idx 1) j'' - Finset.univ.sup fun j' : Fin 2048 => mscore x Wq Wk (idx 0) (idx 1) j'))
    * proj x Wv (idx 0) j (idx 2)

/-- Row `i`'s masked scores in blocks of 256 columns (`-∞` past the last column). -/
def rowS (x : SX.Idx → EReal) (Wq Wk : SW.Idx → EReal) (b : Fin 8) (i : Fin 2048) : ℕ → Fin 256 → EReal := fun n c =>
  if h : n * 256 + c.val < 2048 then mscore x Wq Wk b i ⟨n * 256 + c.val, h⟩ else ⊥

/-- Column `h` of the values in blocks of 256 rows (`0` past the last row). -/
def rowV (x : SX.Idx → EReal) (Wv : SW.Idx → EReal) (b : Fin 8) (h : Fin 64) : ℕ → Fin 256 → EReal := fun n c =>
  if hh : n * 256 + c.val < 2048 then proj x Wv b ⟨n * 256 + c.val, hh⟩ h else 0

/-- Blocked causal attention: the online softmax recurrence over the blocks `0 … i / 256`, divided at the end. -/
def flash (x : SX.Idx → EReal) (Wk Wq Wv : SW.Idx → EReal) : SO.Idx → EReal := fun idx =>
  Ideal.div (runA (rowS x Wq Wk (idx 0) (idx 1)) (rowV x Wv (idx 0) (idx 2)) ((idx 1).val / 256 + 1))
    (runL (rowS x Wq Wk (idx 0) (idx 1)) ((idx 1).val / 256 + 1))

end Cert.Attn

end
-- ==== Proof.RefMask.lean ====
/-
  Three small facts the textbook side of causal attention needs, none of them about a program.

  * The lower-triangular mask: for row `i` and column `j` below 2048, written as 32-bit words, the signed test
    `i + 0 ≥ j` is the bit of `j ≤ i`, so selecting `true` there and `false` elsewhere is that bit again.
  * The f32 word `0xFF800000` is `-∞`, the bottom element of the extended reals.
  * A fold of `max` from `-∞` over a finite index type is the supremum over it.
-/
import Idealize.ShloMosaic.PureOps.Ideal
import Idealize.ShloMosaic.Lib.ValueIdx

noncomputable section

namespace Cert.Attn.Mask

open Idealize.ShloMosaic Idealize.ShloMosaic.ValueIdx

/-- A natural number below 2048, as a 32-bit word read signed, is itself. -/
theorem toInt_ofNat_lt {n : ℕ} (h : n < 2048) : (BitVec.ofNat 32 n).toInt = (n : ℤ) := by
  rw [BitVec.toInt_eq_toNat_cond, BitVec.toNat_ofNat]
  have e : n % 2 ^ 32 = n := Nat.mod_eq_of_lt (by omega)
  rw [e]
  split <;> omega

/-- The signed comparison `i + 0 ≥ j` of two coordinates below 2048 is the bit of `j ≤ i`. -/
theorem sge_bit (i j : Fin 2048) :
    IntOp.cmpi .sge (IntOp.addi (BitVec.ofNat 32 i.val) 0#32) (BitVec.ofNat 32 j.val) = if j ≤ i then 1#1 else 0#1 := by
  simp only [IntOp.cmpi, IntOp.addi, BitVec.add_zero, BitVec.sle, toInt_ofNat_lt i.isLt, toInt_ofNat_lt j.isLt]
  by_cases h : j ≤ i
  · have h' : (j.val : ℤ) ≤ (i.val : ℤ) := by exact_mod_cast h
    rw [if_pos h, decide_eq_true h']; rfl
  · have h' : ¬ (j.val : ℤ) ≤ (i.val : ℤ) := fun hh => h (by exact_mod_cast hh)
    rw [if_neg h, decide_eq_false h']; rfl

/-- The lower-triangular mask at `(i, j)`: `true` where `i + 0 ≥ j`, `false` elsewhere, is the bit of `j ≤ i`. -/
theorem tril_bit (i j : Fin 2048) :
    Scalar.select (IntOp.cmpi .sge (IntOp.addi (BitVec.ofNat 32 i.val) 0#32) (BitVec.ofNat 32 j.val)) (1#1) (0#1)
      = if j ≤ i then 1#1 else 0#1 := by
  rw [sge_bit]
  by_cases h : j ≤ i
  · rw [if_pos h]; exact select_one _ _
  · rw [if_neg h]; exact select_zero _ _

/-- Selecting on the bit of a decidable proposition is the `if` on it. -/
theorem select_ite {α : Type} (p : Prop) [Decidable p] (a b : α) :
    Scalar.select (if p then 1#1 else 0#1) a b = if p then a else b := by
  by_cases h : p
  · rw [if_pos h, if_pos h]; exact select_one _ _
  · rw [if_neg h, if_neg h]; exact select_zero _ _

/-- The f32 word of `-∞` is the bottom element. -/
theorem ofBits_neg_inf : Ideal.ofBits .f32 0xFF800000#32 = (⊥ : EReal) := by
  simp [Ideal.ofBits, Ideal.ieee]

/-- A fold of `max` from `-∞` over a finite index type is the supremum over it. -/
theorem fold_max_bot {n : ℕ} (f : Fin n → EReal) :
    (Finset.univ : Finset (Fin n)).fold max (⊥ : EReal) f = Finset.univ.sup f := rfl

end Cert.Attn.Mask

end
-- ==== Proof.RefValue.lean ====
/-
  The reference program's result, read one operation at a time, is textbook causal attention (`Cert.Attn.attn`).

  Reading order, each step at explicit coordinates `(b, i, j)` = (batch, query row, key row):
  the three projections are `proj`; the batched product of queries and keys over the head axis, times `2⁻⁵`, is
  `score`; the lower-triangular mask is the bit of `j ≤ i`, so the masked product is `mscore`; the row maximum, a fold
  of `max` from `-∞` over the key axis, is the supremum of the row, and taking the maximum with `-∞` again changes
  nothing; the exponentials, their row sum from `0`, the quotient, and the final batched product with the values are
  then `attn`'s terms one for one. No finiteness is used: every step is a definitional reading or `max ⊥ y = y`,
  `0 + s = s`.
-/
import proofs.«102945_j49727131353090_2_alg».proof.Proof.Gen.ReferenceIdeal.Read
import proofs.«102945_j49727131353090_2_alg».proof.Proof.Spec
import proofs.«102945_j49727131353090_2_alg».proof.Proof.RefMask
import Idealize.ShloMosaic.Lib.ValueIdx
import Idealize.ShloMosaic.Lib.Pipeline.Value
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.ValueIdx
  Cert.Attn Cert.Attn.Mask

variable (x : SX.Idx → EReal) (Wk Wq Wv : SW.Idx → EReal)

/-! ## The index maps of the contractions, broadcasts and reductions, at coordinates -/

theorem lidx_proj (b : Fin 8) (t : Fin 2048) (h : Fin 64) (e : Fin 1024) : lidx_main_v0 (ix3 b t h) e = ix3 b t e := by
  funext a; match a with | ⟨0, _⟩ => rfl | ⟨1, _⟩ => rfl | ⟨2, _⟩ => rfl
theorem ridx_proj (b : Fin 8) (t : Fin 2048) (h : Fin 64) (e : Fin 1024) : ridx_main_v0 (ix3 b t h) e = ix2 e h := by
  funext a; match a with | ⟨0, _⟩ => rfl | ⟨1, _⟩ => rfl
theorem lidx_qk (b : Fin 8) (i j : Fin 2048) (h : Fin 64) : lidx_main_v3 (ix3 b i j) h = ix3 b i h := by
  funext a; match a with | ⟨0, _⟩ => rfl | ⟨1, _⟩ => rfl | ⟨2, _⟩ => rfl
theorem ridx_qk (b : Fin 8) (i j : Fin 2048) (h : Fin 64) : ridx_main_v3 (ix3 b i j) h = ix3 b j h := by
  funext a; match a with | ⟨0, _⟩ => rfl | ⟨1, _⟩ => rfl | ⟨2, _⟩ => rfl
theorem idx_mask (b : Fin 8) (i j : Fin 2048) : idx_main_call1_v1 (ix3 b i j) = ix2 i j := by
  funext a; match a with | ⟨0, _⟩ => rfl | ⟨1, _⟩ => rfl
theorem idx_row (b : Fin 8) (i j : Fin 2048) : idx_main_v12 (idx_main_v13 (ix3 b i j)) = ix2 b i := by
  funext a; match a with | ⟨0, _⟩ => rfl | ⟨1, _⟩ => rfl
theorem idx_row' (b : Fin 8) (i j : Fin 2048) : idx_main_v17 (idx_main_v18 (ix3 b i j)) = ix2 b i := by
  funext a; match a with | ⟨0, _⟩ => rfl | ⟨1, _⟩ => rfl
theorem idx_sum (b : Fin 8) (i j : Fin 2048) : idx_main_v16 (ix2 b i) j = ix3 b i j := by
  funext a; match a with | ⟨0, _⟩ => rfl | ⟨1, _⟩ => rfl | ⟨2, _⟩ => rfl
theorem lidx_pv (b : Fin 8) (i : Fin 2048) (h : Fin 64) (j : Fin 2048) : lidx_main_v20 (ix3 b i h) j = ix3 b i j := by
  funext a; match a with | ⟨0, _⟩ => rfl | ⟨1, _⟩ => rfl | ⟨2, _⟩ => rfl
theorem ridx_pv (b : Fin 8) (i : Fin 2048) (h : Fin 64) (j : Fin 2048) : ridx_main_v20 (ix3 b i h) j = ix3 b j h := by
  funext a; match a with | ⟨0, _⟩ => rfl | ⟨1, _⟩ => rfl | ⟨2, _⟩ => rfl

/-! ## The projections -/

theorem k_eq (b : Fin 8) (t : Fin 2048) (h : Fin 64) : val_main_v0 (F := Ideal) x Wk (ix3 b t h) = proj x Wk b t h := by
  rw [val_main_v0_apply]
  exact Finset.sum_congr rfl fun e _ => by rw [lidx_proj, ridx_proj]
theorem q_eq (b : Fin 8) (t : Fin 2048) (h : Fin 64) : val_main_v1 (F := Ideal) x Wq (ix3 b t h) = proj x Wq b t h := by
  rw [val_main_v1_apply]
  exact Finset.sum_congr rfl fun e _ => by rw [show lidx_main_v1 (ix3 b t h) e = ix3 b t e from lidx_proj b t h e, show ridx_main_v1 (ix3 b t h) e = ix2 e h from ridx_proj b t h e]
theorem v_eq (b : Fin 8) (t : Fin 2048) (h : Fin 64) : val_main_v2 (F := Ideal) x Wv (ix3 b t h) = proj x Wv b t h := by
  rw [val_main_v2_apply]
  exact Finset.sum_congr rfl fun e _ => by rw [show lidx_main_v2 (ix3 b t h) e = ix3 b t e from lidx_proj b t h e, show ridx_main_v2 (ix3 b t h) e = ix2 e h from ridx_proj b t h e]

/-! ## The scaled scores -/

theorem score_eq (b : Fin 8) (i j : Fin 2048) : val_main_v5 (F := Ideal) x Wk Wq (ix3 b i j) = score x Wq Wk b i j := by
  rw [val_main_v5_apply, val_main_v3_apply, val_main_v4_apply, val_main_cst_apply]
  simp only [Ideal.mulf_def, Ideal.ofBits_def]
  unfold score scale
  refine congrArg (· * _) (Finset.sum_congr rfl fun h _ => ?_)
  rw [lidx_qk, ridx_qk, q_eq, k_eq]

/-! ## The causal mask and the masked scores -/

/-- The lower-triangular mask at `(i, j)` is the bit of `j ≤ i` (at any float instance: it is integer work). -/
theorem mask_eq {F : FTy → Type} [FloatOps F] (i j : Fin 2048) :
    val_main_v7 (F := F) (ix2 i j) = if j ≤ i then 1#1 else 0#1 := by
  rw [val_main_v7_apply, val_main_call0_v4_apply, val_main_call0_v2_apply, val_main_call0_v0_apply, val_main_call0_v1_apply,
    val_main_call0_c_apply, val_main_call0_v3_apply, val_main_v6_apply, val_main_c_apply, val_main_call0_v5_apply,
    val_main_call0_c_0_apply]
  exact tril_bit i j

theorem mscore_eq (b : Fin 8) (i j : Fin 2048) : val_main_v8 (F := Ideal) x Wk Wq (ix3 b i j) = mscore x Wq Wk b i j := by
  rw [val_main_v8_apply, val_main_call1_v1_apply, idx_mask, mask_eq, val_main_call1_v2_apply, val_main_call1_v0_apply,
    val_main_cst_0_apply, score_eq, select_ite, Ideal.ofBits_def, ofBits_neg_inf]
  rfl

/-! ## The row maximum -/

theorem rowmax_eq (b : Fin 8) (i : Fin 2048) :
    val_main_v9 (F := Ideal) x Wk Wq (ix2 b i) = Finset.univ.sup fun j : Fin 2048 => mscore x Wq Wk b i j := by
  unfold val_main_v9
  rw [Host.reduce_eq_fold_single (FloatOps.maximumf (F := Ideal) (φ := .f32)) _ _ reducesTo_S8x2048x2048_S8x2048_d2
    (by decide : S8x2048x2048.Reduces [2] S8x2048) h_S_ (ix2 b i), val_main_cst_1_apply, Ideal.ofBits_def, ofBits_neg_inf]
  refine (congrArg (fun f => (Finset.univ : Finset (Fin 2048)).fold max (⊥ : EReal) f) (funext fun k => ?_)).trans
    (fold_max_bot _)
  refine Eq.trans (congrArg (val_main_v8 (F := Ideal) x Wk Wq) (funext fun a => Fin.ext ?_)) (mscore_eq x Wk Wq b i k)
  match a with
  | ⟨0, _⟩ => rfl
  | ⟨1, _⟩ => rfl
  | ⟨2, _⟩ => rfl

/-- Taking the maximum with `-∞` once more leaves the row maximum as it is. -/
theorem rowmax'_eq (b : Fin 8) (i : Fin 2048) :
    val_main_v11 (F := Ideal) x Wk Wq (ix2 b i) = Finset.univ.sup fun j : Fin 2048 => mscore x Wq Wk b i j := by
  rw [val_main_v11_apply, val_main_v10_apply, val_main_cst_2_apply, rowmax_eq, Ideal.maximumf_def, Ideal.ofBits_def,
    ofBits_neg_inf]
  exact max_bot_left _

/-! ## The softmax weights -/

theorem exp_eq (b : Fin 8) (i j : Fin 2048) :
    val_main_v15 (F := Ideal) x Wk Wq (ix3 b i j)
      = Ideal.exp (mscore x Wq Wk b i j - Finset.univ.sup fun j' : Fin 2048 => mscore x Wq Wk b i j') := by
  rw [val_main_v15_apply, val_main_v14_apply, mscore_eq, val_main_v13_apply, val_main_v12_apply, idx_row, rowmax'_eq,
    Ideal.hostUnary_exp_def, Ideal.subf_def]

/-- The row sum from `0` is the sum of the row's exponentials. -/
theorem denom_eq (b : Fin 8) (i : Fin 2048) :
    val_main_v16 (F := Ideal) x Wk Wq (ix2 b i)
      = ∑ j'' : Fin 2048, Ideal.exp (mscore x Wq Wk b i j'' - Finset.univ.sup fun j' : Fin 2048 => mscore x Wq Wk b i j') := by
  rw [val_main_v16_apply, val_main_cst_3_apply, Ideal.ofBits_def, Ideal.ofBits_zero_f32, zero_add]
  exact Finset.sum_congr rfl fun j _ => by rw [idx_sum, exp_eq]

theorem weight_eq (b : Fin 8) (i j : Fin 2048) :
    val_main_v19 (F := Ideal) x Wk Wq (ix3 b i j)
      = Ideal.div (Ideal.exp (mscore x Wq Wk b i j - Finset.univ.sup fun j' : Fin 2048 => mscore x Wq Wk b i j'))
          (∑ j'' : Fin 2048, Ideal.exp (mscore x Wq Wk b i j'' - Finset.univ.sup fun j' : Fin 2048 => mscore x Wq Wk b i j')) := by
  rw [val_main_v19_apply, exp_eq, val_main_v18_apply, val_main_v17_apply, idx_row', denom_eq, Ideal.hostDivf_def]

/-! ## The result -/

/-- The reference's last stage at `(b, i, h)` is textbook attention there. -/
theorem out_eq (b : Fin 8) (i : Fin 2048) (h : Fin 64) :
    val_main_v20 (F := Ideal) x Wk Wq Wv (ix3 b i h) = attn x Wk Wq Wv (ix3 b i h) := by
  rw [val_main_v20_apply]
  unfold attn
  exact Finset.sum_congr rfl fun j _ => by rw [lidx_pv, ridx_pv, weight_eq, v_eq]

/-- The reference's composed term of its four arguments is textbook causal attention. -/
theorem result_eq : val_main_v20 (F := Ideal) x Wk Wq Wv = attn x Wk Wq Wv := by
  funext idx
  obtain ⟨b, i, h, rfl⟩ : ∃ (b : Fin 8) (i : Fin 2048) (h : Fin 64), idx = ix3 b i h := ⟨idx 0, idx 1, idx 2, eq_ix3 idx⟩
  exact out_eq x Wk Wq Wv b i h

/-- The term the generated run states for the result buffer, from any memory, is textbook causal attention of the four
    argument arrays found there. -/
theorem res_eq (m : (ℓ : Loc nD τ sig) → Buf (Elt Ideal) ℓ) (c : Dev nD) :
    Cert.ReferenceIdeal.Value.res_main_v20 (F := Ideal) m c
      = attn (m ((c.tc : Thread nD τ).loc main_arg0)) (m ((c.tc : Thread nD τ).loc main_arg1))
          (m ((c.tc : Thread nD τ).loc main_arg2)) (m ((c.tc : Thread nD τ).loc main_arg3)) :=
  (val_main_v20_eq (F := Ideal) m c).trans (result_eq _ _ _ _)

/-! ## The run -/

open Idealize.ShloMosaic.TcCoe Idealize.SL.Sem in
/-- From any memory with zero counters, every weakly fair execution of the reference terminates with its result buffer
    at textbook causal attention of the four argument arrays it started from, and those arrays unchanged. -/
theorem ref_run (m' : (ℓ : Loc nD τ sig) → Buf (Elt Ideal) ℓ) (ρ' : Dev nD → PrngReg) :
    θ_run (defs (F := Ideal)) (onTc (τ := τ) (main (F := Ideal))) ⟨m', fun _ => 0, ρ'⟩ (fun r => ∀ c : Dev nD,
      r.2.mem ((c.tc : Thread nD τ).loc main_v20)
        = attn (m' ((c.tc : Thread nD τ).loc main_arg0)) (m' ((c.tc : Thread nD τ).loc main_arg1))
            (m' ((c.tc : Thread nD τ).loc main_arg2)) (m' ((c.tc : Thread nD τ).loc main_arg3))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)) :=
  (θ_run defs _ _).mono (fun _ h c => ⟨(h c).1.trans (res_eq m' c), (h c).2⟩)
    (Cert.ReferenceIdeal.Value.run (F := Ideal) m' ρ')

end Cert.ReferenceIdeal.RefValue

end
-- ==== Proof.RefFrame.lean ====
/-
  The reference program runs and leaves its four argument arrays as it found them: its run, with what it says about
  the result buffer dropped. The reference has no kernel, so its frame needs no precondition.
-/
import proofs.«102945_j49727131353090_2_alg».proof.Defs
import proofs.«102945_j49727131353090_2_alg».proof.Proof.Gen.ReferenceIdeal
import proofs.«102945_j49727131353090_2_alg».proof.Proof.Gen.ReferenceIdeal.Run
import proofs.«102945_j49727131353090_2_alg».proof.Proof.Gen.Pre_finite_inputs

noncomputable section

namespace Cert.ReferenceIdeal.RefValue

open Idealize.ShloMosaic Idealize.SL.Sem

/-- Every weakly fair execution of the reference terminates with its arguments unchanged. -/
theorem frame_ri : Cert.frame_ReferenceIdeal :=
  fun m ρ _ => (θ_run Cert.ReferenceIdeal.defs _ _).mono (fun _ h c => (h c).2) (Cert.ReferenceIdeal.Value.run (F := Ideal) m ρ)

end Cert.ReferenceIdeal.RefValue

end
-- ==== Proof.KRegion0.lean ====
/-
  The projection region, at the contents `V` the region is entered with: each grid point loads a [1024, 1024] block of
  rows of the flattened input and the whole [1024, 192] fused weight matrix, multiplies them, and stores the three
  64-column slices of the product into the three result blocks. What each result block holds after a point is one
  store over the point's two input blocks.
-/
import proofs.«102945_j49727131353090_2_alg».proof.Proof.Gen.KernelIdeal.Launch
import proofs.«102945_j49727131353090_2_alg».proof.Proof.Gen.KernelIdeal.Skeleton
import proofs.«102945_j49727131353090_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S1024x1024 := Rect.unit (s := S1024x1024) ![0, 0] S1024x1024.size inb_S1024x1024_S1024x1024_0_0
abbrev r0_1 : Rect S1024x192 := Rect.unit (s := S1024x192) ![0, 0] S1024x192.size inb_S1024x192_S1024x192_0_0
abbrev r0_2 : Rect S1024x64 := Rect.unit (s := S1024x64) ![0, 0] S1024x64.size inb_S1024x64_S1024x64_0_0

/-- The first result block after the body: columns 0 … 63 of the product. -/
def out0_2 (x0 : Vec F S1024x1024 .f32) (x1 : Vec F S1024x192 .bf16) : Vec F S1024x64 .bf16 :=
  View.canon [⟨r0_2, k0_pay2 (View.ld x0 r0_0) (View.ld x1 r0_1)⟩]
/-- The second result block after the body: columns 64 … 127 of the product. -/
def out0_3 (x0 : Vec F S1024x1024 .f32) (x1 : Vec F S1024x192 .bf16) : Vec F S1024x64 .bf16 :=
  View.canon [⟨r0_2, k0_pay3 (View.ld x0 r0_0) (View.ld x1 r0_1)⟩]
/-- The third result block after the body: columns 128 … 191 of the product. -/
def out0_4 (x0 : Vec F S1024x1024 .f32) (x1 : Vec F S1024x192 .bf16) : Vec F S1024x64 .bf16 :=
  View.canon [⟨r0_2, k0_pay4 (View.ld x0 r0_0) (View.ld x1 r0_1)⟩]

/-- One store of the whole block covers it. -/
theorem cover0_2 (p0 : Vec F S1024x64 .bf16) (y : S1024x64.Idx) :
    ∃ pc ∈ ([⟨r0_2, p0⟩] : List (View.Piece (Elt F) S1024x64 .bf16)), y ∈ pc.1.set :=
  View.cover_of_tiled [⟨r0_2, p0⟩] S1024x64.size (by rfl) y

set_option maxHeartbeats 4000000 in
/-- The body on whole staging buffers: the inputs are kept, each result buffer ends at its slice of the product. -/
theorem sound_kernel0 (c : Dev nD) (E : Set ℕ) (i : grid0.Coords) (arg1 : Memref sig .tc .vmem S1024x1024 .f32) (harg1 : arg1.IsWhole)
    (arg2 : Memref sig .tc .vmem S1024x192 .bf16) (harg2 : arg2.IsWhole) (arg3 : Memref sig .tc .vmem S1024x64 .bf16) (harg3 : arg3.IsWhole)
    (arg4 : Memref sig .tc .vmem S1024x64 .bf16) (harg4 : arg4.IsWhole) (arg5 : Memref sig .tc .vmem S1024x64 .bf16) (harg5 : arg5.IsWhole)
    (x0 : Vec F S1024x1024 .f32) (x1 : Vec F S1024x192 .bf16) (K : PUnit → sProp 𝕄) :
    iprop(owns (c : Thread nD τ) arg1 fullShare x0 ∗ owns (c : Thread nD τ) arg2 fullShare x1
        ∗ (∃ d, owns (c : Thread nD τ) arg3 fullShare d) ∗ (∃ d, owns (c : Thread nD τ) arg4 fullShare d) ∗ (∃ d, owns (c : Thread nD τ) arg5 fullShare d)
        ∗ (iprop(owns (c : Thread nD τ) arg1 fullShare x0 ∗ owns (c : Thread nD τ) arg2 fullShare x1
            ∗ owns (c : Thread nD τ) arg3 fullShare (out0_2 x0 x1) ∗ owns (c : Thread nD τ) arg4 fullShare (out0_3 x0 x1)
            ∗ owns (c : Thread nD τ) arg5 fullShare (out0_4 x0 x1)) -∗ K ⟨⟩))
      ⊢ wp frame (wpE (defs₀ (F := F)) Variants.none c none) E (cc0_kernel i arg1 harg1 arg2 harg2 arg3 harg3 arg4 harg4 arg5 harg5) K := by
  simp only [cc0_kernel_eq_skeleton]; unfold cc0_kernel_skel
  unfold owns
  iintro ⟨⟨%f0, %hf0, H0⟩, ⟨%f1, %hf1, H1⟩, ⟨%d2, %f2, -, H2⟩, ⟨%d3, %f3, -, H3⟩, ⟨%d4, %f4, -, H4⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  isplitl [H2]
  · iexists _; isplitr
    swap; · iexact H2
    ipureintro
    exact View.read_writes_eq_canon _ _ _ (cover0_2 _)
  isplitl [H3]
  · iexists _; isplitr
    swap; · iexact H3
    ipureintro
    exact View.read_writes_eq_canon _ _ _ (cover0_2 _)
  iexists _; isplitr
  swap; · iexact H4
  ipureintro
  exact View.read_writes_eq_canon _ _ _ (cover0_2 _)

/-- The region's proof data on core `c`. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
    | ⟨3, _⟩ => out0_3 (iblk0 V c 0 t) (iblk0 V c 1 t)
    | ⟨4, _⟩ => out0_4 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem after0_3 (c : Dev nD) (t : Fin cfg0.N) : (dat0 V c).after 3 t = out0_3 (iblk0 V c 0 t) (iblk0 V c 1 t) := by dsimp only [dat0]
theorem after0_4 (c : Dev nD) (t : Fin cfg0.N) : (dat0 V c).after 4 t = out0_4 (iblk0 V c 0 t) (iblk0 V c 1 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2, after0_3, after0_4]
  iintro ⟨HΦ, Ho, ⟨%d0, H0⟩, ⟨%d1, H1⟩, ⟨%d2, H2⟩, ⟨%d3, H3⟩, ⟨%d4, H4⟩⟩
  iapply (sound_kernel0 c Set.univ _ _ _ _ _ _ _ _ _ _ _ (iblk0 V c 0 t) (iblk0 V c 1 t) _)
  isplitl [H0]; · iexact H0
  isplitl [H1]; · iexact H1
  isplitl [H2]; · iexists _; iexact H2
  isplitl [H3]; · iexists _; iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KState.lean ====
/-
  The attention region's running state as pure functions of a grid point's blocks.

  A grid point (g, n) works on query tile `remap g` and key/value tile `n`. The three scratch arrays hold, per query
  row, the running maximum, the running denominator and the running numerator of the online softmax recurrence. At
  the first key/value tile they are reset to (-∞, 0, 0) (`init1`); at a tile not past the diagonal they are updated
  from the point's query, key and value blocks (`upd1`); a tile past the diagonal leaves them alone.
-/
import proofs.«102945_j49727131353090_2_alg».proof.Proof.Gen.KernelIdeal.Skeleton

set_option maxRecDepth 16384

noncomputable section

namespace Cert.KernelIdeal.Hand

open Idealize.ShloMosaic
open Cert.KernelIdeal Cert.KernelIdeal.Gen

variable {F : FTy → Type} [FloatOps F] [Named F]

/-- The key/value tile index as a word. -/
abbrev kvW (i : grid1.Coords) : BitVec 32 := BitVec.ofNat 32 (i 1).val

/-- The query tile a grid row works on, as the body computes it: a fixed permutation of the row index, spelled as a
    sum of selects. -/
abbrev remap (i : grid1.Coords) : BitVec 32 :=
  let arg0 : BitVec 32 := BitVec.ofNat 32 (i 0).val
  let v0 : BitVec 1 := Scalar.cmpi .eq arg0 0#32
  let v1 : BitVec 32 := Scalar.select v0 0#32 0#32
  let v2 : BitVec 32 := Scalar.addi 0#32 v1
  let v3 : BitVec 1 := Scalar.cmpi .eq arg0 1#32
  let v4 : BitVec 32 := Scalar.select v3 6#32 0#32
  let v5 : BitVec 32 := Scalar.addi v2 v4
  let v6 : BitVec 1 := Scalar.cmpi .eq arg0 2#32
  let v7 : BitVec 32 := Scalar.select v6 2#32 0#32
  let v8 : BitVec 32 := Scalar.addi v5 v7
  let v9 : BitVec 1 := Scalar.cmpi .eq arg0 3#32
  let v10 : BitVec 32 := Scalar.select v9 4#32 0#32
  let v11 : BitVec 32 := Scalar.addi v8 v10
  let v12 : BitVec 1 := Scalar.cmpi .eq arg0 4#32
  let v13 : BitVec 32 := Scalar.select v12 7#32 0#32
  let v14 : BitVec 32 := Scalar.addi v11 v13
  let v15 : BitVec 1 := Scalar.cmpi .eq arg0 5#32
  let v16 : BitVec 32 := Scalar.select v15 1#32 0#32
  let v17 : BitVec 32 := Scalar.addi v14 v16
  let v18 : BitVec 1 := Scalar.cmpi .eq arg0 6#32
  let v19 : BitVec 32 := Scalar.select v18 5#32 0#32
  let v20 : BitVec 32 := Scalar.addi v17 v19
  let v21 : BitVec 1 := Scalar.cmpi .eq arg0 7#32
  let v22 : BitVec 32 := Scalar.select v21 3#32 0#32
  Scalar.addi v20 v22

/-- The first key/value tile of a row: the running state is reset. -/
abbrev cond1_0 (i : grid1.Coords) : Prop := (Scalar.cmpi .ne (Scalar.extui (Scalar.cmpi .eq (kvW i) 0#32)) 0#32) = 1#1
/-- The key/value tile is not past the diagonal: the running state is updated. -/
abbrev cond1_1 (i : grid1.Coords) : Prop := (Scalar.cmpi .ne (Scalar.extui (Scalar.cmpi .sle (kvW i) (remap i))) 0#32) = 1#1
/-- The last key/value tile of a row: the result block is written. -/
abbrev cond1_2 (i : grid1.Coords) : Prop := k1_cond3 i = 1#1

/-- The running state: maximum, denominator, numerator. -/
abbrev St (F : FTy → Type) : Type := Vec F S8x256x1 .f32 × Vec F S8x256x1 .f32 × Vec F S8x256x64 .f32

/-- The reset state (-∞, 0, 0). -/
def reset1 : St F := (k1_pay11 (F := F), k1_pay12 (F := F), k1_pay13 (F := F))

/-- The reset at the first key/value tile. -/
def init1 (i : grid1.Coords) (S : St F) : St F := if cond1_0 i then reset1 else S

/-- The update from a point's query, key and value blocks, at a tile not past the diagonal. -/
def upd1 (i : grid1.Coords) (x0 x1 x2 : Vec F S8x256x64 .bf16) (S : St F) : St F :=
  if cond1_1 i then
    (k1_pay3 (k1_pay7 (kvW i) (remap i) x0 x1 S.1),
     k1_pay1 (k1_pay10 (kvW i) (remap i) x0 x1 S.1 S.1 S.2.1),
     k1_pay2 (k1_pay5 x2) (k1_pay8 (kvW i) (remap i) x0 x1 S.1 S.1) (k1_pay9 (kvW i) (remap i) x0 x1 S.1) S.2.2)
  else S

/-- One grid point's effect on the running state. -/
def step1 (i : grid1.Coords) (x0 x1 x2 : Vec F S8x256x64 .bf16) (S : St F) : St F := upd1 i x0 x1 x2 (init1 i S)

/-- What the result block's buffer holds after a point: the quotient at the last key/value tile, else what it held. -/
def fin1 (i : grid1.Coords) (S : St F) (o : Vec F S8x256x64 .f32) : Vec F S8x256x64 .f32 :=
  if cond1_2 i then k1_pay4 S.2.2 S.2.1 else o

end Cert.KernelIdeal.Hand

end
-- ==== Proof.KBody.lean ====
/-
  The attention body on whole staging and scratch buffers, in the five cases of its three conditionals that a grid
  point can be in: what each buffer holds afterwards, as the body's payloads of what it held before.
-/
import proofs.«102945_j49727131353090_2_alg».proof.Proof.KState
import proofs.«102945_j49727131353090_2_alg».proof.Proof.Gen.KernelIdeal.Launch
import proofs.«102945_j49727131353090_2_alg».proof.Proof.Gen.KernelIdeal.Points
import Idealize.ShloMosaic.Lib.Pipeline.FrameBody
import Idealize.ShloMosaic.Lib.Pipeline.Value
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

theorem hz3 : (![0, 0, 0] : Fin 3 → ℕ) = fun _ => 0 := by funext a; fin_cases a <;> rfl

/-- Reads back what a whole buffer holds after the run: its contents untouched, or the payload of the last whole-block
    store, the run's intermediate names opened and every whole-block load read through. -/
macro "buf_val" harg:ident inb:ident : tactic => `(tactic| first
  | exact Memref.IsWhole.read_unread $harg _
  | (sl_unfold_run_names; refine (View.read_writes_eq_canon _ _ _ (fun y => ⟨_, List.mem_cons_self, View.mem_set_unit_zero hz3 $inb y⟩)).trans ?_; rw [View.canon_cons_unit_zero hz3]; sl_unfold_run_names; (try simp only [View.readAt_eq_ld, Memref.IsWhole.read_unread, View.ld_unit_zero (S := S8x256x64) hz3, View.ld_unit_zero (S := S8x256x1) hz3, View.readCov_unit_zero (S := S8x256x1) _ hz3, View.readCov_unit_zero (S := S8x256x64) _ hz3]); (try rfl)))

set_option maxHeartbeats 8000000 in
/-- First key/value tile, not the last: reset, then update. -/
theorem sound_kernel1_A (c : Dev nD) (E : Set ℕ) (i : grid1.Coords)
    (arg2 : Memref sig .tc .vmem S8x256x64 .bf16) (harg2 : arg2.IsWhole) (arg3 : Memref sig .tc .vmem S8x256x64 .bf16) (harg3 : arg3.IsWhole)
    (arg4 : Memref sig .tc .vmem S8x256x64 .bf16) (harg4 : arg4.IsWhole) (arg5 : Memref sig .tc .vmem S8x256x64 .f32) (harg5 : arg5.IsWhole)
    (arg6 : Memref sig .tc .vmem S8x256x1 .f32) (harg6 : arg6.IsWhole) (arg7 : Memref sig .tc .vmem S8x256x1 .f32) (harg7 : arg7.IsWhole)
    (arg8 : Memref sig .tc .vmem S8x256x64 .f32) (harg8 : arg8.IsWhole)
    (hc0 : cond1_0 i) (hc1 : cond1_1 i) (hc2 : ¬ cond1_2 i)
    (x0 x1 x2 : Vec F S8x256x64 .bf16) (o : Vec F S8x256x64 .f32) (s0 s1 : Vec F S8x256x1 .f32) (s2 : Vec F S8x256x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare o ∗ owns (c : Thread nD τ) arg6 fullShare s0 ∗ owns (c : Thread nD τ) arg7 fullShare s1
        ∗ owns (c : Thread nD τ) arg8 fullShare s2
        ∗ (iprop(owns (c : Thread nD τ) arg2 fullShare x0 ∗ owns (c : Thread nD τ) arg3 fullShare x1 ∗ owns (c : Thread nD τ) arg4 fullShare x2
            ∗ owns (c : Thread nD τ) arg5 fullShare (o) ∗ owns (c : Thread nD τ) arg6 fullShare (k1_pay3 (k1_pay7 (kvW i) (remap i) x0 x1 (k1_pay11 (F := F))))
            ∗ owns (c : Thread nD τ) arg7 fullShare (k1_pay1 (k1_pay10 (kvW i) (remap i) x0 x1 (k1_pay11 (F := F)) (k1_pay11 (F := F)) (k1_pay12 (F := F)))) ∗ owns (c : Thread nD τ) arg8 fullShare (k1_pay2 (k1_pay5 x2) (k1_pay8 (kvW i) (remap i) x0 x1 (k1_pay11 (F := F)) (k1_pay11 (F := F))) (k1_pay9 (kvW i) (remap i) x0 x1 (k1_pay11 (F := F))) (k1_pay13 (F := F)))) -∗ K ⟨⟩))
      ⊢ wp frame (wpE (defs₀ (F := F)) Variants.none c none) E (cc1_kernel i arg2 harg2 arg3 harg3 arg4 harg4 arg5 harg5 arg6 harg6 arg7 harg7 arg8 harg8) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    buf_val harg5 inb_S8x256x64_S8x256x64_0_0_0
  isplitl [H4]
  · iexists _; isplitr
    swap; · iexact H4
    ipureintro
    buf_val harg6 inb_S8x256x1_S8x256x1_0_0_0
  isplitl [H5]
  · iexists _; isplitr
    swap; · iexact H5
    ipureintro
    buf_val harg7 inb_S8x256x1_S8x256x1_0_0_0
  iexists _; isplitr
  swap; · iexact H6
  ipureintro
  buf_val harg8 inb_S8x256x64_S8x256x64_0_0_0

set_option maxHeartbeats 8000000 in
/-- A middle tile not past the diagonal: update. -/
theorem sound_kernel1_B (c : Dev nD) (E : Set ℕ) (i : grid1.Coords)
    (arg2 : Memref sig .tc .vmem S8x256x64 .bf16) (harg2 : arg2.IsWhole) (arg3 : Memref sig .tc .vmem S8x256x64 .bf16) (harg3 : arg3.IsWhole)
    (arg4 : Memref sig .tc .vmem S8x256x64 .bf16) (harg4 : arg4.IsWhole) (arg5 : Memref sig .tc .vmem S8x256x64 .f32) (harg5 : arg5.IsWhole)
    (arg6 : Memref sig .tc .vmem S8x256x1 .f32) (harg6 : arg6.IsWhole) (arg7 : Memref sig .tc .vmem S8x256x1 .f32) (harg7 : arg7.IsWhole)
    (arg8 : Memref sig .tc .vmem S8x256x64 .f32) (harg8 : arg8.IsWhole)
    (hc0 : ¬ cond1_0 i) (hc1 : cond1_1 i) (hc2 : ¬ cond1_2 i)
    (x0 x1 x2 : Vec F S8x256x64 .bf16) (o : Vec F S8x256x64 .f32) (s0 s1 : Vec F S8x256x1 .f32) (s2 : Vec F S8x256x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare o ∗ owns (c : Thread nD τ) arg6 fullShare s0 ∗ owns (c : Thread nD τ) arg7 fullShare s1
        ∗ owns (c : Thread nD τ) arg8 fullShare s2
        ∗ (iprop(owns (c : Thread nD τ) arg2 fullShare x0 ∗ owns (c : Thread nD τ) arg3 fullShare x1 ∗ owns (c : Thread nD τ) arg4 fullShare x2
            ∗ owns (c : Thread nD τ) arg5 fullShare (o) ∗ owns (c : Thread nD τ) arg6 fullShare (k1_pay3 (k1_pay7 (kvW i) (remap i) x0 x1 (s0)))
            ∗ owns (c : Thread nD τ) arg7 fullShare (k1_pay1 (k1_pay10 (kvW i) (remap i) x0 x1 (s0) (s0) (s1))) ∗ owns (c : Thread nD τ) arg8 fullShare (k1_pay2 (k1_pay5 x2) (k1_pay8 (kvW i) (remap i) x0 x1 (s0) (s0)) (k1_pay9 (kvW i) (remap i) x0 x1 (s0)) (s2))) -∗ K ⟨⟩))
      ⊢ wp frame (wpE (defs₀ (F := F)) Variants.none c none) E (cc1_kernel i arg2 harg2 arg3 harg3 arg4 harg4 arg5 harg5 arg6 harg6 arg7 harg7 arg8 harg8) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    buf_val harg5 inb_S8x256x64_S8x256x64_0_0_0
  isplitl [H4]
  · iexists _; isplitr
    swap; · iexact H4
    ipureintro
    buf_val harg6 inb_S8x256x1_S8x256x1_0_0_0
  isplitl [H5]
  · iexists _; isplitr
    swap; · iexact H5
    ipureintro
    buf_val harg7 inb_S8x256x1_S8x256x1_0_0_0
  iexists _; isplitr
  swap; · iexact H6
  ipureintro
  buf_val harg8 inb_S8x256x64_S8x256x64_0_0_0

set_option maxHeartbeats 8000000 in
/-- A middle tile past the diagonal: nothing. -/
theorem sound_kernel1_C (c : Dev nD) (E : Set ℕ) (i : grid1.Coords)
    (arg2 : Memref sig .tc .vmem S8x256x64 .bf16) (harg2 : arg2.IsWhole) (arg3 : Memref sig .tc .vmem S8x256x64 .bf16) (harg3 : arg3.IsWhole)
    (arg4 : Memref sig .tc .vmem S8x256x64 .bf16) (harg4 : arg4.IsWhole) (arg5 : Memref sig .tc .vmem S8x256x64 .f32) (harg5 : arg5.IsWhole)
    (arg6 : Memref sig .tc .vmem S8x256x1 .f32) (harg6 : arg6.IsWhole) (arg7 : Memref sig .tc .vmem S8x256x1 .f32) (harg7 : arg7.IsWhole)
    (arg8 : Memref sig .tc .vmem S8x256x64 .f32) (harg8 : arg8.IsWhole)
    (hc0 : ¬ cond1_0 i) (hc1 : ¬ cond1_1 i) (hc2 : ¬ cond1_2 i)
    (x0 x1 x2 : Vec F S8x256x64 .bf16) (o : Vec F S8x256x64 .f32) (s0 s1 : Vec F S8x256x1 .f32) (s2 : Vec F S8x256x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare o ∗ owns (c : Thread nD τ) arg6 fullShare s0 ∗ owns (c : Thread nD τ) arg7 fullShare s1
        ∗ owns (c : Thread nD τ) arg8 fullShare s2
        ∗ (iprop(owns (c : Thread nD τ) arg2 fullShare x0 ∗ owns (c : Thread nD τ) arg3 fullShare x1 ∗ owns (c : Thread nD τ) arg4 fullShare x2
            ∗ owns (c : Thread nD τ) arg5 fullShare (o) ∗ owns (c : Thread nD τ) arg6 fullShare (s0)
            ∗ owns (c : Thread nD τ) arg7 fullShare (s1) ∗ owns (c : Thread nD τ) arg8 fullShare (s2)) -∗ K ⟨⟩))
      ⊢ wp frame (wpE (defs₀ (F := F)) Variants.none c none) E (cc1_kernel i arg2 harg2 arg3 harg3 arg4 harg4 arg5 harg5 arg6 harg6 arg7 harg7 arg8 harg8) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    buf_val harg5 inb_S8x256x64_S8x256x64_0_0_0
  isplitl [H4]
  · iexists _; isplitr
    swap; · iexact H4
    ipureintro
    buf_val harg6 inb_S8x256x1_S8x256x1_0_0_0
  isplitl [H5]
  · iexists _; isplitr
    swap; · iexact H5
    ipureintro
    buf_val harg7 inb_S8x256x1_S8x256x1_0_0_0
  iexists _; isplitr
  swap; · iexact H6
  ipureintro
  buf_val harg8 inb_S8x256x64_S8x256x64_0_0_0

set_option maxHeartbeats 8000000 in
/-- The last tile, on the diagonal: update, then the quotient. -/
theorem sound_kernel1_D (c : Dev nD) (E : Set ℕ) (i : grid1.Coords)
    (arg2 : Memref sig .tc .vmem S8x256x64 .bf16) (harg2 : arg2.IsWhole) (arg3 : Memref sig .tc .vmem S8x256x64 .bf16) (harg3 : arg3.IsWhole)
    (arg4 : Memref sig .tc .vmem S8x256x64 .bf16) (harg4 : arg4.IsWhole) (arg5 : Memref sig .tc .vmem S8x256x64 .f32) (harg5 : arg5.IsWhole)
    (arg6 : Memref sig .tc .vmem S8x256x1 .f32) (harg6 : arg6.IsWhole) (arg7 : Memref sig .tc .vmem S8x256x1 .f32) (harg7 : arg7.IsWhole)
    (arg8 : Memref sig .tc .vmem S8x256x64 .f32) (harg8 : arg8.IsWhole)
    (hc0 : ¬ cond1_0 i) (hc1 : cond1_1 i) (hc2 : cond1_2 i)
    (x0 x1 x2 : Vec F S8x256x64 .bf16) (o : Vec F S8x256x64 .f32) (s0 s1 : Vec F S8x256x1 .f32) (s2 : Vec F S8x256x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare o ∗ owns (c : Thread nD τ) arg6 fullShare s0 ∗ owns (c : Thread nD τ) arg7 fullShare s1
        ∗ owns (c : Thread nD τ) arg8 fullShare s2
        ∗ (iprop(owns (c : Thread nD τ) arg2 fullShare x0 ∗ owns (c : Thread nD τ) arg3 fullShare x1 ∗ owns (c : Thread nD τ) arg4 fullShare x2
            ∗ owns (c : Thread nD τ) arg5 fullShare (k1_pay4 (k1_pay2 (k1_pay5 x2) (k1_pay8 (kvW i) (remap i) x0 x1 (s0) (s0)) (k1_pay9 (kvW i) (remap i) x0 x1 (s0)) (s2)) (k1_pay1 (k1_pay10 (kvW i) (remap i) x0 x1 (s0) (s0) (s1)))) ∗ owns (c : Thread nD τ) arg6 fullShare (k1_pay3 (k1_pay7 (kvW i) (remap i) x0 x1 (s0)))
            ∗ owns (c : Thread nD τ) arg7 fullShare (k1_pay1 (k1_pay10 (kvW i) (remap i) x0 x1 (s0) (s0) (s1))) ∗ owns (c : Thread nD τ) arg8 fullShare (k1_pay2 (k1_pay5 x2) (k1_pay8 (kvW i) (remap i) x0 x1 (s0) (s0)) (k1_pay9 (kvW i) (remap i) x0 x1 (s0)) (s2))) -∗ K ⟨⟩))
      ⊢ wp frame (wpE (defs₀ (F := F)) Variants.none c none) E (cc1_kernel i arg2 harg2 arg3 harg3 arg4 harg4 arg5 harg5 arg6 harg6 arg7 harg7 arg8 harg8) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    buf_val harg5 inb_S8x256x64_S8x256x64_0_0_0
  isplitl [H4]
  · iexists _; isplitr
    swap; · iexact H4
    ipureintro
    buf_val harg6 inb_S8x256x1_S8x256x1_0_0_0
  isplitl [H5]
  · iexists _; isplitr
    swap; · iexact H5
    ipureintro
    buf_val harg7 inb_S8x256x1_S8x256x1_0_0_0
  iexists _; isplitr
  swap; · iexact H6
  ipureintro
  buf_val harg8 inb_S8x256x64_S8x256x64_0_0_0

set_option maxHeartbeats 8000000 in
/-- The last tile, past the diagonal: the quotient. -/
theorem sound_kernel1_E (c : Dev nD) (E : Set ℕ) (i : grid1.Coords)
    (arg2 : Memref sig .tc .vmem S8x256x64 .bf16) (harg2 : arg2.IsWhole) (arg3 : Memref sig .tc .vmem S8x256x64 .bf16) (harg3 : arg3.IsWhole)
    (arg4 : Memref sig .tc .vmem S8x256x64 .bf16) (harg4 : arg4.IsWhole) (arg5 : Memref sig .tc .vmem S8x256x64 .f32) (harg5 : arg5.IsWhole)
    (arg6 : Memref sig .tc .vmem S8x256x1 .f32) (harg6 : arg6.IsWhole) (arg7 : Memref sig .tc .vmem S8x256x1 .f32) (harg7 : arg7.IsWhole)
    (arg8 : Memref sig .tc .vmem S8x256x64 .f32) (harg8 : arg8.IsWhole)
    (hc0 : ¬ cond1_0 i) (hc1 : ¬ cond1_1 i) (hc2 : cond1_2 i)
    (x0 x1 x2 : Vec F S8x256x64 .bf16) (o : Vec F S8x256x64 .f32) (s0 s1 : Vec F S8x256x1 .f32) (s2 : Vec F S8x256x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare o ∗ owns (c : Thread nD τ) arg6 fullShare s0 ∗ owns (c : Thread nD τ) arg7 fullShare s1
        ∗ owns (c : Thread nD τ) arg8 fullShare s2
        ∗ (iprop(owns (c : Thread nD τ) arg2 fullShare x0 ∗ owns (c : Thread nD τ) arg3 fullShare x1 ∗ owns (c : Thread nD τ) arg4 fullShare x2
            ∗ owns (c : Thread nD τ) arg5 fullShare (k1_pay4 (s2) (s1)) ∗ owns (c : Thread nD τ) arg6 fullShare (s0)
            ∗ owns (c : Thread nD τ) arg7 fullShare (s1) ∗ owns (c : Thread nD τ) arg8 fullShare (s2)) -∗ K ⟨⟩))
      ⊢ wp frame (wpE (defs₀ (F := F)) Variants.none c none) E (cc1_kernel i arg2 harg2 arg3 harg3 arg4 harg4 arg5 harg5 arg6 harg6 arg7 harg7 arg8 harg8) K := by
  simp only [cc1_kernel_eq_skeleton]; unfold cc1_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, Hk⟩
  obtain rfl := harg2.eq_unread hf0; obtain rfl := harg3.eq_unread hf1; obtain rfl := harg4.eq_unread hf2; obtain rfl := harg5.eq_unread hf3
  obtain rfl := harg6.eq_unread hf4; obtain rfl := harg7.eq_unread hf5; obtain rfl := harg8.eq_unread hf6
  sl_exec (disch := first | exact hc0 | exact hc1 | exact hc2)
  sl_step
  iapply Hk
  isplitl [H0]
  · iexists _; isplitr; · ipureintro; exact harg2.read_unread _
    iexact H0
  isplitl [H1]
  · iexists _; isplitr; · ipureintro; exact harg3.read_unread _
    iexact H1
  isplitl [H2]
  · iexists _; isplitr; · ipureintro; exact harg4.read_unread _
    iexact H2
  isplitl [H3]
  · iexists _; isplitr
    swap; · iexact H3
    ipureintro
    buf_val harg5 inb_S8x256x64_S8x256x64_0_0_0
  isplitl [H4]
  · iexists _; isplitr
    swap; · iexact H4
    ipureintro
    buf_val harg6 inb_S8x256x1_S8x256x1_0_0_0
  isplitl [H5]
  · iexists _; isplitr
    swap; · iexact H5
    ipureintro
    buf_val harg7 inb_S8x256x1_S8x256x1_0_0_0
  iexists _; isplitr
  swap; · iexact H6
  ipureintro
  buf_val harg8 inb_S8x256x64_S8x256x64_0_0_0

/-- The body at any reachable combination of its conditions: the running state steps by `step1`, the result buffer by `fin1`. -/
theorem sound_kernel1 (c : Dev nD) (E : Set ℕ) (i : grid1.Coords)
    (arg2 : Memref sig .tc .vmem S8x256x64 .bf16) (harg2 : arg2.IsWhole) (arg3 : Memref sig .tc .vmem S8x256x64 .bf16) (harg3 : arg3.IsWhole)
    (arg4 : Memref sig .tc .vmem S8x256x64 .bf16) (harg4 : arg4.IsWhole) (arg5 : Memref sig .tc .vmem S8x256x64 .f32) (harg5 : arg5.IsWhole)
    (arg6 : Memref sig .tc .vmem S8x256x1 .f32) (harg6 : arg6.IsWhole) (arg7 : Memref sig .tc .vmem S8x256x1 .f32) (harg7 : arg7.IsWhole)
    (arg8 : Memref sig .tc .vmem S8x256x64 .f32) (harg8 : arg8.IsWhole)
    (hr1 : cond1_0 i → cond1_1 i) (hr2 : cond1_0 i → ¬ cond1_2 i)
    (x0 x1 x2 : Vec F S8x256x64 .bf16) (o : Vec F S8x256x64 .f32) (s0 s1 : Vec F S8x256x1 .f32) (s2 : Vec F S8x256x64 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare o ∗ owns (c : Thread nD τ) arg6 fullShare s0 ∗ owns (c : Thread nD τ) arg7 fullShare s1
        ∗ owns (c : Thread nD τ) arg8 fullShare s2
        ∗ (iprop(owns (c : Thread nD τ) arg2 fullShare x0 ∗ owns (c : Thread nD τ) arg3 fullShare x1 ∗ owns (c : Thread nD τ) arg4 fullShare x2
            ∗ owns (c : Thread nD τ) arg5 fullShare (fin1 i (step1 i x0 x1 x2 (s0, s1, s2)) o) ∗ owns (c : Thread nD τ) arg6 fullShare ((step1 i x0 x1 x2 (s0, s1, s2)).1)
            ∗ owns (c : Thread nD τ) arg7 fullShare ((step1 i x0 x1 x2 (s0, s1, s2)).2.1) ∗ owns (c : Thread nD τ) arg8 fullShare ((step1 i x0 x1 x2 (s0, s1, s2)).2.2)) -∗ K ⟨⟩))
      ⊢ wp frame (wpE (defs₀ (F := F)) Variants.none c none) E (cc1_kernel i arg2 harg2 arg3 harg3 arg4 harg4 arg5 harg5 arg6 harg6 arg7 harg7 arg8 harg8) K := by
  by_cases hc0 : cond1_0 i
  · have hc1 := hr1 hc0
    have hc2 := hr2 hc0
    simp only [step1, init1, upd1, fin1, reset1, if_pos hc0, if_pos hc1, if_neg hc2]
    exact sound_kernel1_A c E i arg2 harg2 arg3 harg3 arg4 harg4 arg5 harg5 arg6 harg6 arg7 harg7 arg8 harg8 hc0 hc1 hc2 x0 x1 x2 o s0 s1 s2 K
  · by_cases hc1 : cond1_1 i
    · by_cases hc2 : cond1_2 i
      · simp only [step1, init1, upd1, fin1, reset1, if_neg hc0, if_pos hc1, if_pos hc2]
        exact sound_kernel1_D c E i arg2 harg2 arg3 harg3 arg4 harg4 arg5 harg5 arg6 harg6 arg7 harg7 arg8 harg8 hc0 hc1 hc2 x0 x1 x2 o s0 s1 s2 K
      · simp only [step1, init1, upd1, fin1, reset1, if_neg hc0, if_pos hc1, if_neg hc2]
        exact sound_kernel1_B c E i arg2 harg2 arg3 harg3 arg4 harg4 arg5 harg5 arg6 harg6 arg7 harg7 arg8 harg8 hc0 hc1 hc2 x0 x1 x2 o s0 s1 s2 K
    · by_cases hc2 : cond1_2 i
      · simp only [step1, init1, upd1, fin1, reset1, if_neg hc0, if_neg hc1, if_pos hc2]
        exact sound_kernel1_E c E i arg2 harg2 arg3 harg3 arg4 harg4 arg5 harg5 arg6 harg6 arg7 harg7 arg8 harg8 hc0 hc1 hc2 x0 x1 x2 o s0 s1 s2 K
      · simp only [step1, init1, upd1, fin1, reset1, if_neg hc0, if_neg hc1, if_neg hc2]
        exact sound_kernel1_C c E i arg2 harg2 arg3 harg3 arg4 harg4 arg5 harg5 arg6 harg6 arg7 harg7 arg8 harg8 hc0 hc1 hc2 x0 x1 x2 o s0 s1 s2 K

end Cert.KernelIdeal.Hand

end
-- ==== Proof.KRegion1.lean ====
/-
  The attention region at the contents `V` it is entered with: the running state after each grid point by recursion on
  the point, the region's proof data, and the body obligation at every point.
-/
import proofs.«102945_j49727131353090_2_alg».proof.Proof.KBody
import Idealize.ShloMosaic.Lib.Pipeline.RegionsLoop
import Idealize.ShloMosaic.Lib.Pipeline.FrameSuffix

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

/-! ## The conditions over the grid -/

theorem hcond1_0 : ∀ t : Fin cfg1.N, cond1_0 (grid1.coords t) ↔ t.val % 8 = 0 :=
  (by decide +kernel : ∀ t : Fin grid1.N, cond1_0 (grid1.coords t) ↔ t.val % 8 = 0)
theorem hcond1_2 : ∀ t : Fin cfg1.N, cond1_2 (grid1.coords t) ↔ t.val % 8 = 7 :=
  (by decide +kernel : ∀ t : Fin grid1.N, cond1_2 (grid1.coords t) ↔ t.val % 8 = 7)
/-- The first key/value tile is never past the diagonal. -/
theorem hreach1 : ∀ t : Fin cfg1.N, cond1_0 (grid1.coords t) → cond1_1 (grid1.coords t) :=
  (by decide +kernel : ∀ t : Fin grid1.N, cond1_0 (grid1.coords t) → cond1_1 (grid1.coords t))

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem idleAt1_3 : ∀ t : Fin cfg1.N, ¬cond1_2 (grid1.coords t) → cfg1.idle 3 (grid1.coords t) = true := by decide +kernel
theorem noFlush1_3 : ∀ t : Fin cfg1.N, ¬cond1_2 (grid1.coords t) → (cfg1.win 3).flush t = false := by decide +kernel
theorem liveAt1_3 : ∀ t : Fin cfg1.N, cond1_2 (grid1.coords t) → cfg1.idle 3 (grid1.coords t) = false := by decide +kernel

/-! ## The memrefs the body is called with -/

abbrev ms1_0 (t : Fin cfg1.N) : Memref sig .tc .vmem S8x256x64 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S8x256x64 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S8x256x64 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S8x256x64 .f32 := win1_3.stage (cfg1.slots t 3)
abbrev hs1_3 (t : Fin cfg1.N) : (ms1_3 t).IsWhole := hstage1_3 ((cfg1.slots t 3).cast nbuf1_3)
abbrev scM1_0 : Memref sig .tc .vmem S8x256x1 .f32 := Memref.whole cc1_scratch0
abbrev scM1_1 : Memref sig .tc .vmem S8x256x1 .f32 := Memref.whole cc1_scratch1
abbrev scM1_2 : Memref sig .tc .vmem S8x256x64 .f32 := Memref.whole cc1_scratch2

/-- A scoped buffer of the other region, whole at some contents. -/
abbrev hole (c : Dev nD) (b : Ref sig .tc) : sProp 𝕄 :=
  iprop(∃ f : Buf (Elt F) ((c : Thread nD τ).loc b), ((c : Thread nD τ).loc b) ↦{fullShare} f)

/-- The other region's staging buffers, each whole at some contents. -/
abbrev others (c : Dev nD) : sProp 𝕄 :=
  iprop(hole c cc0_stg0_0 ∗ hole c cc0_stg0_1 ∗ hole c cc0_stg1_0 ∗ hole c cc0_stg2_0 ∗ hole c cc0_stg2_1 ∗ hole c cc0_stg3_0 ∗ hole c cc0_stg3_1 ∗ hole c cc0_stg4_0 ∗ hole c cc0_stg4_1)

theorem PhiA1_eq (c : Dev nD) :
    (Pipeline.ΦA spec1 c : sProp 𝕄)
      = iprop(iprop(hole c cc0_stg0_0 ∗ hole c cc0_stg0_1 ∗ hole c cc0_stg1_0 ∗ hole c cc0_stg2_0 ∗ hole c cc0_stg2_1 ∗ hole c cc0_stg3_0 ∗ hole c cc0_stg3_1 ∗ hole c cc0_stg4_0 ∗ hole c cc0_stg4_1
          ∗ (∃ d, owns (c : Thread nD τ) scM1_0 fullShare d) ∗ (∃ d, owns (c : Thread nD τ) scM1_1 fullShare d) ∗ (∃ d, owns (c : Thread nD τ) scM1_2 fullShare d)) ∗ (∃ r, prngReg c r)) := by
  unfold Pipeline.ΦA; rw [scopedRest1_eq]; simp only [scM1_0, scM1_1, scM1_2, owns_whole]; try rfl

/-! ## The running state after each point -/

/-- The running state after the body at position `n`: at the first point the update of the reset state, afterwards one
    `step1` of what the point before left. -/
def outsAt1 (c : Dev nD) : (n : ℕ) → n < cfg1.N → St F
  | 0, hn => upd1 (grid1.coords ⟨0, hn⟩) (iblk1 V c 0 ⟨0, hn⟩) (iblk1 V c 1 ⟨0, hn⟩) (iblk1 V c 2 ⟨0, hn⟩) reset1
  | n + 1, hn => step1 (grid1.coords ⟨n + 1, hn⟩) (iblk1 V c 0 ⟨n + 1, hn⟩) (iblk1 V c 1 ⟨n + 1, hn⟩) (iblk1 V c 2 ⟨n + 1, hn⟩) (outsAt1 c n (Nat.lt_of_succ_lt hn))

/-- At the first point the state does not depend on what the scratch held. -/
theorem outsAt1_zero (c : Dev nD) (t : Fin cfg1.N) (hz : t.val = 0) (S : St F) :
    outsAt1 V c t.val t.isLt = step1 (grid1.coords t) (iblk1 V c 0 t) (iblk1 V c 1 t) (iblk1 V c 2 t) S := by
  obtain ⟨n, hn⟩ := t
  obtain rfl : n = 0 := hz
  have h0 : cond1_0 (grid1.coords ⟨0, hn⟩) := (hcond1_0 ⟨0, hn⟩).mpr (Nat.zero_mod _)
  simp only [outsAt1, step1, init1, if_pos h0]

theorem outsAt1_pos (c : Dev nD) (t : Fin cfg1.N) (hz : t.val ≠ 0) :
    outsAt1 V c t.val t.isLt = step1 (grid1.coords t) (iblk1 V c 0 t) (iblk1 V c 1 t) (iblk1 V c 2 t)
      (outsAt1 V c (t.val - 1) (Nat.lt_of_le_of_lt (Nat.sub_le _ _) t.isLt)) := by
  obtain ⟨n, hn⟩ := t
  cases n with
  | zero => exact absurd rfl hz
  | succ n => rfl

/-- The region invariant before position `n`: before the first point every scoped buffer at anything; afterwards the three
    scratch arrays at the running state the point before left. -/
def PhiS (c : Dev nD) : (n : ℕ) → n ≤ cfg1.N → sProp 𝕄
  | 0, _ => Pipeline.ΦA spec1 c
  | n + 1, hn => iprop(iprop(hole c cc0_stg0_0 ∗ hole c cc0_stg0_1 ∗ hole c cc0_stg1_0 ∗ hole c cc0_stg2_0 ∗ hole c cc0_stg2_1 ∗ hole c cc0_stg3_0 ∗ hole c cc0_stg3_1 ∗ hole c cc0_stg4_0 ∗ hole c cc0_stg4_1
      ∗ owns (c : Thread nD τ) scM1_0 fullShare (outsAt1 V c n hn).1 ∗ owns (c : Thread nD τ) scM1_1 fullShare (outsAt1 V c n hn).2.1
      ∗ owns (c : Thread nD τ) scM1_2 fullShare (outsAt1 V c n hn).2.2) ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(iprop(hole c cc0_stg0_0 ∗ hole c cc0_stg0_1 ∗ hole c cc0_stg1_0 ∗ hole c cc0_stg2_0 ∗ hole c cc0_stg2_1 ∗ hole c cc0_stg3_0 ∗ hole c cc0_stg3_1 ∗ hole c cc0_stg4_0 ∗ hole c cc0_stg4_1
      ∗ owns (c : Thread nD τ) scM1_0 fullShare (outsAt1 V c n hn).1 ∗ owns (c : Thread nD τ) scM1_1 fullShare (outsAt1 V c n hn).2.1
      ∗ owns (c : Thread nD τ) scM1_2 fullShare (outsAt1 V c n hn).2.2) ∗ (∃ r, prngReg c r)) := rfl

theorem PhiS_pos (c : Dev nD) (n : ℕ) (h : n ≤ cfg1.N) (hz : n ≠ 0) :
    PhiS V c n h = iprop(iprop(hole c cc0_stg0_0 ∗ hole c cc0_stg0_1 ∗ hole c cc0_stg1_0 ∗ hole c cc0_stg2_0 ∗ hole c cc0_stg2_1 ∗ hole c cc0_stg3_0 ∗ hole c cc0_stg3_1 ∗ hole c cc0_stg4_0 ∗ hole c cc0_stg4_1
      ∗ owns (c : Thread nD τ) scM1_0 fullShare (outsAt1 V c (n - 1) (by omega)).1 ∗ owns (c : Thread nD τ) scM1_1 fullShare (outsAt1 V c (n - 1) (by omega)).2.1
      ∗ owns (c : Thread nD τ) scM1_2 fullShare (outsAt1 V c (n - 1) (by omega)).2.2) ∗ (∃ r, prngReg c r)) := by
  cases n with
  | zero => exact absurd rfl hz
  | succ n => rfl

/-! ## The region's proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => k1_pay4 (outsAt1 V c t.val t.isLt).2.2 (outsAt1 V c t.val t.isLt).2.1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = k1_pay4 (outsAt1 V c t.val t.isLt).2.2 (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  have hr1 := hreach1 t
  have hr2 : cond1_0 (grid1.coords t) → ¬ cond1_2 (grid1.coords t) := fun h0 h2 => by
    have a := (hcond1_0 t).mp h0; have b := (hcond1_2 t).mp h2; omega
  by_cases hz : t.val = 0
  · rw [PhiS_castSucc V c t, PhiS_zero V c _ _ hz, PhiA1_eq]
    by_cases h2 : cond1_2 (grid1.coords t)
    · exfalso; have b := (hcond1_2 t).mp h2; omega
    · rw [Dat.leavesExact_idle (dat1 V c) 3 t (idleAt1_3 t h2) (noFlush1_3 t h2)]
      iintro ⟨⟨⟨Hr0, Hr1, Hr2, Hr3, Hr4, Hr5, Hr6, Hr7, Hr8, ⟨%e0, HS0⟩, ⟨%e1, HS1⟩, ⟨%e2, HS2⟩⟩, Hg⟩, Ho, ⟨%d0, H0⟩, ⟨%d1, H1⟩, ⟨%d2, H2⟩, ⟨%d3, H3⟩⟩
      rw [outsAt1_zero V c t hz (e0, e1, e2)]
      iapply (sound_kernel1 c Set.univ (grid1.coords t) _ _ _ _ _ _ _ _ _ _ _ _ _ _ hr1 hr2 (iblk1 V c 0 t) (iblk1 V c 1 t) (iblk1 V c 2 t) _ e0 e1 e2 _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [Hr0 Hr1 Hr2 Hr3 Hr4 Hr5 Hr6 Hr7 Hr8 HS0 HS1 HS2 Hg]
      · isplitr [Hg]
        · isplitl [Hr0]; · iexact Hr0
          isplitl [Hr1]; · iexact Hr1
          isplitl [Hr2]; · iexact Hr2
          isplitl [Hr3]; · iexact Hr3
          isplitl [Hr4]; · iexact Hr4
          isplitl [Hr5]; · iexact Hr5
          isplitl [Hr6]; · iexact Hr6
          isplitl [Hr7]; · iexact Hr7
          isplitl [Hr8]; · iexact Hr8
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      simp only [fin1, if_neg h2]
      iexists _; iexact H3
  · rw [PhiS_castSucc V c t, PhiS_pos V c _ _ hz, outsAt1_pos V c t hz]
    by_cases h2 : cond1_2 (grid1.coords t)
    · rw [show (dat1 V c).leavesExact 3 t = owns (c : Thread nD τ) (ms1_3 t) fullShare ((dat1 V c).after 3 t) from by
        unfold Dat.leavesExact; rw [liveAt1_3 t h2], after1_3, outsAt1_pos V c t hz]
      iintro ⟨⟨⟨Hr0, Hr1, Hr2, Hr3, Hr4, Hr5, Hr6, Hr7, Hr8, HS0, HS1, HS2⟩, Hg⟩, Ho, ⟨%d0, H0⟩, ⟨%d1, H1⟩, ⟨%d2, H2⟩, ⟨%d3, H3⟩⟩
      iapply (sound_kernel1 c Set.univ (grid1.coords t) _ _ _ _ _ _ _ _ _ _ _ _ _ _ hr1 hr2 (iblk1 V c 0 t) (iblk1 V c 1 t) (iblk1 V c 2 t) _ _ _ _ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [Hr0 Hr1 Hr2 Hr3 Hr4 Hr5 Hr6 Hr7 Hr8 HS0 HS1 HS2 Hg]
      · isplitr [Hg]
        · isplitl [Hr0]; · iexact Hr0
          isplitl [Hr1]; · iexact Hr1
          isplitl [Hr2]; · iexact Hr2
          isplitl [Hr3]; · iexact Hr3
          isplitl [Hr4]; · iexact Hr4
          isplitl [Hr5]; · iexact Hr5
          isplitl [Hr6]; · iexact Hr6
          isplitl [Hr7]; · iexact Hr7
          isplitl [Hr8]; · iexact Hr8
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      simp only [fin1, if_pos h2]
      iexact H3
    · rw [Dat.leavesExact_idle (dat1 V c) 3 t (idleAt1_3 t h2) (noFlush1_3 t h2)]
      iintro ⟨⟨⟨Hr0, Hr1, Hr2, Hr3, Hr4, Hr5, Hr6, Hr7, Hr8, HS0, HS1, HS2⟩, Hg⟩, Ho, ⟨%d0, H0⟩, ⟨%d1, H1⟩, ⟨%d2, H2⟩, ⟨%d3, H3⟩⟩
      iapply (sound_kernel1 c Set.univ (grid1.coords t) _ _ _ _ _ _ _ _ _ _ _ _ _ _ hr1 hr2 (iblk1 V c 0 t) (iblk1 V c 1 t) (iblk1 V c 2 t) _ _ _ _ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, HS0, HS1, HS2⟩
      isplitl [Hr0 Hr1 Hr2 Hr3 Hr4 Hr5 Hr6 Hr7 Hr8 HS0 HS1 HS2 Hg]
      · isplitr [Hg]
        · isplitl [Hr0]; · iexact Hr0
          isplitl [Hr1]; · iexact Hr1
          isplitl [Hr2]; · iexact Hr2
          isplitl [Hr3]; · iexact Hr3
          isplitl [Hr4]; · iexact Hr4
          isplitl [Hr5]; · iexact Hr5
          isplitl [Hr6]; · iexact Hr6
          isplitl [Hr7]; · iexact Hr7
          isplitl [Hr8]; · iexact Hr8
          isplitl [HS0]; · iexact HS0
          isplitl [HS1]; · iexact HS1
          iexact HS2
        iexact Hg
      isplitl [Ho]; · iexact Ho
      isplitl [H0]; · iexact H0
      isplitl [H1]; · iexact H1
      isplitl [H2]; · iexact H2
      simp only [fin1, if_neg h2]
      iexists _; iexact H3

theorem body_obligation1 (c : Dev nD) : BodyObligation (dat1 (F := F) V c) (defs₀ (F := F)) Variants.none () Set.univ := fun t => by
  rw [bigSep_W1, bigSep_W1]
  exact sound_body1 V c t

/-- What the region is handed is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives every scoped buffer back at some contents. -/
theorem hout1 (c : Dev nD) : (dat1 V c).Φ (Fin.last cfg1.N) ⊢ Pipeline.ΦA spec1 c := by
  rw [show (dat1 V c).Φ (Fin.last cfg1.N) = PhiS V c (Fin.last cfg1.N).val (Nat.le_of_lt_succ (Fin.last cfg1.N).isLt) from rfl,
    PhiS_pos V c _ _ (by rw [Fin.val_last]; have : cfg1.N = 64 := N_1; omega), PhiA1_eq]
  iintro ⟨⟨Hr0, Hr1, Hr2, Hr3, Hr4, Hr5, Hr6, Hr7, Hr8, HS0, HS1, HS2⟩, Hg⟩
  isplitr [Hg]
  · isplitl [Hr0]; · iexact Hr0
    isplitl [Hr1]; · iexact Hr1
    isplitl [Hr2]; · iexact Hr2
    isplitl [Hr3]; · iexact Hr3
    isplitl [Hr4]; · iexact Hr4
    isplitl [Hr5]; · iexact Hr5
    isplitl [Hr6]; · iexact Hr6
    isplitl [Hr7]; · iexact Hr7
    isplitl [Hr8]; · iexact Hr8
    isplitl [HS0]; · iexists _; iexact HS0
    isplitl [HS1]; · iexists _; iexact HS1
    iexists _; iexact HS2
  iexact Hg

end Cert.KernelIdeal.Hand

end
-- ==== Proof.KRun.lean ====
/-
  The run of the whole program: host operations, the projection region, host operations, the attention region. At its
  end every argument array holds what it was launched with and the result array holds what the attention region's
  write-backs leave.
-/
import proofs.«102945_j49727131353090_2_alg».proof.Proof.KRegion0
import proofs.«102945_j49727131353090_2_alg».proof.Proof.KRegion1

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffers' contents at each boundary -/

abbrev W0 : Dev nD → Valuation τ sig (Elt F) := fun c b => (s₀ m ρ).mem ((c : Dev nD), b)
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-! ### No operation and no region writes an argument array -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg0) := W2_of_ne m ρ c main_arg0 (by decide)
    _ = W0 m ρ c (Proc.devRef .tc main_arg0) := StableHlo.after_of_forall_not_mem (b := Proc.devRef .tc main_arg0) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := W4_of_ne m ρ c main_arg1 (by decide)
    _ = W2 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg2) := W2_of_ne m ρ c main_arg2 (by decide)
    _ = W0 m ρ c (Proc.devRef .tc main_arg2) := StableHlo.after_of_forall_not_mem (b := Proc.devRef .tc main_arg2) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, StableHlo.nary_writes, Finset.mem_singleton]
          repeat' apply And.intro
          all_goals exact StableHlo.devRef_ne_of_ne (by decide)))
    _ = m ((c : Thread nD τ).loc main_arg3) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

theorem hostOps0_fresh' : (hostOps0 : List (HloOp τ sig (Elt F))).Forall fun op => op.fresh = ∅ := by
  simp only [List.Forall]; repeat' constructor
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = (dat1 (V3 m ρ) c).Φ 0 from rfl]
    iintro ⟨Hp, -, Hr⟩
    iapply (hin1 (V3 m ρ) c)
    unfold Pipeline.ΦA
    isplitl [Hr]; · iexact Hr
    iexact Hp
  hout c := by
    rw [Pipeline.ownSems0_none]
    have h := hout1 (V3 m ρ) c
    unfold Pipeline.ΦA at h
    rw [show (pdats m ρ 1 c).Φ (Fin.last _) = (dat1 (V3 m ρ) c).Φ (Fin.last cfg1.N) from rfl]
    iintro HP
    ihave H := h $$ HP
    icases H with ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## The program as segments, and the launch -/

abbrev segs : List (Pipeline.Seg (pcfgs (F := F)) adm (pdats m ρ) () defs₀ 𝒱₀ L lv) :=
  [ .host (hseg hostOps0 hostOps0_sub hostOps0_fresh' (W0 m ρ)),
    .region (reg0 m ρ),
    .host (hseg hostOps1 hostOps1_sub hostOps1_fresh' (W2 m ρ)),
    .region (reg1 m ρ) ]
theorem main_run (c : Dev nD) : main (F := F) c = Pipeline.Seg.run (segs m ρ) := (main_chain c).trans (by chain_rfl)

set_option backward.isDefEq.respectTransparency.types false in
/-- Every weakly fair execution terminates without a fault; at the end the result array holds what the attention region's
    write-backs leave and the four argument arrays hold their launch contents. -/
theorem run_full : θ_run defs (onTc (τ := τ) (main (F := F))) ⟨m, fun _ => 0, ρ⟩ (fun r => ∀ c : Dev nD,
      r.2.mem ((c.tc : Thread nD τ).loc main_v7) = (dat1 (V3 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨(h c _ (mem_uc main_v7 (by decide))).trans (W4_arr m ρ c 3),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c)⟩)

/-- The frame: the arguments end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => (h c).2) (run_full m ρ)

end Cert.KernelIdeal.Hand

end
-- ==== Proof.LibPlainMatmul.lean ====
/-
  A plain matrix product `[a, n] × [n, b]` (the left operand contracted on its columns, the right one on its rows,
  no batch axis) into the zero accumulator, read at an entry on the extended reals: entry `(r, j)` is the sum over
  `k` of the left operand at `(r, k)` times the right operand at `(k, j)`. General over the three extents, the two
  operand formats and the precision.
-/
import Idealize.ShloMosaic.Lib.ValueIdx
import Idealize.ShloMosaic.PureOps.Ideal.Laws

noncomputable section

open scoped BigOperators

namespace Cert.LibPlainMatmul

open Idealize.ShloMosaic Idealize.ShloMosaic.ValueIdx

variable {a n b : ℕ}

/-- The left operand's index at output entry `i` and contraction index `q`: row `i 0` … -/
theorem lhs_row (i : (⟨2, ![a, b]⟩ : Shape).Idx) (q : (DotDims.plain a n b).contr.Idx) :
    ((DotDims.plain a n b).lhsIdx i q 0).val = (i 0).val := rfl

/-- … and the contraction coordinate as its column. -/
theorem lhs_col (i : (⟨2, ![a, b]⟩ : Shape).Idx) (q : (DotDims.plain a n b).contr.Idx) :
    ((DotDims.plain a n b).lhsIdx i q 1).val = (q (⟨0, Nat.one_pos⟩ : Fin (DotDims.plain a n b).contr.rank)).val :=
  (DotDims.plain a n b).lhsIdx_val_of_single rfl i q

/-- The right operand's index: the contraction coordinate as its row … -/
theorem rhs_row (i : (⟨2, ![a, b]⟩ : Shape).Idx) (q : (DotDims.plain a n b).contr.Idx) :
    ((DotDims.plain a n b).rhsIdx i q 0).val = (q (⟨0, Nat.one_pos⟩ : Fin (DotDims.plain a n b).contr.rank)).val :=
  (DotDims.plain a n b).rhsIdx_val_of_single rfl i q

/-- … and column `i 1`. -/
theorem rhs_col (i : (⟨2, ![a, b]⟩ : Shape).Idx) (q : (DotDims.plain a n b).contr.Idx) :
    ((DotDims.plain a n b).rhsIdx i q 1).val = (i 1).val := rfl

/-- A plain matrix product into the zero accumulator, at entry `(r, j)`, is `Σₖ A (r, k) · B (k, j)`. -/
theorem matmul_zero_apply {φ₁ φ₂ : FTy} (prec : Option ContractPrecision) (A : FVec Ideal ⟨2, ![a, n]⟩ φ₁)
    (B : FVec Ideal ⟨2, ![n, b]⟩ φ₂) (r : Fin a) (j : Fin b) :
    FloatOps.matmul (DotDims.plain a n b) prec A B (constant ⟨2, ![a, b]⟩ .f32 0x00000000#32) (ix2 r j)
      = ∑ k : Fin n, A (ix2 r k) * B (ix2 k j) := by
  rw [Ideal.matmul_constant_zero_apply, ← Equiv.sum_comp (contrEquiv1 (DotDims.plain a n b) n rfl rfl).symm]
  refine Finset.sum_congr rfl fun k _ => ?_
  have hk := contrEquiv1_symm_val (DotDims.plain a n b) n rfl rfl k
  have el : (DotDims.plain a n b).lhsIdx (ix2 r j) ((contrEquiv1 (DotDims.plain a n b) n rfl rfl).symm k) = ix2 r k :=
    funext fun c => Fin.ext (by
      match c with
      | ⟨0, _⟩ => exact lhs_row _ _
      | ⟨1, _⟩ => exact (lhs_col _ _).trans hk)
  have er : (DotDims.plain a n b).rhsIdx (ix2 r j) ((contrEquiv1 (DotDims.plain a n b) n rfl rfl).symm k) = ix2 k j :=
    funext fun c => Fin.ext (by
      match c with
      | ⟨0, _⟩ => exact (rhs_row _ _).trans hk
      | ⟨1, _⟩ => exact rhs_col _ _)
  rw [el, er]

end Cert.LibPlainMatmul

end
-- ==== Proof.LibConcatSame.lean ====
/-
  A concatenation of three or of four pieces of ONE shape along an axis, read at an index: the piece is the one the
  axis coordinate names when divided by the pieces' common extent on that axis, read at the index whose axis
  coordinate is the remainder and whose other coordinates are unchanged. The pieces are given as a literal list, the
  way a program prints a concatenation of three or four operands; the general statement for a family of pieces is
  the library's.
-/
import Idealize.ShloMosaic.Lib.Pipeline.Value
import Idealize.ShloMosaic.Lib.ValueIdx

noncomputable section

namespace Cert.LibConcatSame

open Idealize.ShloMosaic

variable {α : Type} {t s₁ : Shape}

/-- Three pieces of one shape: entry `j` is piece `(j a) / K` at `j` with its axis coordinate reduced modulo `K`. -/
theorem concat3_apply (a : Fin t.rank) (x0 x1 x2 : s₁.Idx → α)
    (h : Shape.Concatenates (([⟨s₁, x0⟩, ⟨s₁, x1⟩, ⟨s₁, x2⟩] : List ((s : Shape) × (s.Idx → α))).map (·.1)) t a)
    (hr : s₁.rank = t.rank) (K : Nat) (hK : s₁.size (a.cast hr.symm) = K) (j : t.Idx) (n : Fin 3)
    (hn : (j a).val / K = n.val) (i : s₁.Idx) (hia : (i (a.cast hr.symm)).val = (j a).val % K)
    (hi : ∀ b : Fin s₁.rank, b.cast hr ≠ a → (i b).val = (j (b.cast hr)).val) :
    concatenate t a [⟨s₁, x0⟩, ⟨s₁, x1⟩, ⟨s₁, x2⟩] h j = (![x0, x1, x2] : Fin 3 → s₁.Idx → α) n i :=
  concatenate_ofFn_apply a (![x0, x1, x2] : Fin 3 → s₁.Idx → α) h hr K hK j n hn i hia hi

/-- Four pieces of one shape, the same way. -/
theorem concat4_apply (a : Fin t.rank) (x0 x1 x2 x3 : s₁.Idx → α)
    (h : Shape.Concatenates (([⟨s₁, x0⟩, ⟨s₁, x1⟩, ⟨s₁, x2⟩, ⟨s₁, x3⟩] : List ((s : Shape) × (s.Idx → α))).map (·.1)) t a)
    (hr : s₁.rank = t.rank) (K : Nat) (hK : s₁.size (a.cast hr.symm) = K) (j : t.Idx) (n : Fin 4)
    (hn : (j a).val / K = n.val) (i : s₁.Idx) (hia : (i (a.cast hr.symm)).val = (j a).val % K)
    (hi : ∀ b : Fin s₁.rank, b.cast hr ≠ a → (i b).val = (j (b.cast hr)).val) :
    concatenate t a [⟨s₁, x0⟩, ⟨s₁, x1⟩, ⟨s₁, x2⟩, ⟨s₁, x3⟩] h j = (![x0, x1, x2, x3] : Fin 4 → s₁.Idx → α) n i :=
  concatenate_ofFn_apply a (![x0, x1, x2, x3] : Fin 4 → s₁.Idx → α) h hr K hK j n hn i hia hi

end Cert.LibConcatSame

end
-- ==== Proof.LibFlatten.lean ====
/-
  Merging the two leading axes of a three-axis array and splitting them again, read at an index. An `[a, b, c]` array
  cast to `[a·b, c]` holds at row `i·b + j` the rows `(i, j)`; an `[n, c]` array with `n = a·b` cast to `[a, b, c]`
  holds at `(i, j)` its row `i·b + j`. General in the extents.
-/
import Idealize.ShloMosaic.Lib.Pipeline.Value
import Idealize.ShloMosaic.Lib.ValueIdx

noncomputable section

namespace Cert.LibFlatten

open Idealize.ShloMosaic Idealize.ShloMosaic.ValueIdx

variable {α : Type}

/-- An `[a, b, c]` array cast to `[n, c]` (with `n = a·b`) reads, at `(r, k)` with `r = i·b + j`, the operand at `(i, j, k)`. -/
theorem shapeCast_abc_nc_apply {a b c n : ℕ} (x : (⟨3, ![a, b, c]⟩ : Shape).Idx → α)
    (h : (⟨3, ![a, b, c]⟩ : Shape).ShapeCasts ⟨2, ![n, c]⟩) (i : Fin a) (j : Fin b) (k : Fin c) (r : Fin n)
    (hr : r.val = i.val * b + j.val) : shapeCast ⟨2, ![n, c]⟩ x h (ix2 r k) = x (ix3 i j k) :=
  shapeCast_apply x h _ _ (by
    rw [Shape.rowMajor_val_two, Shape.rowMajor_val_three]
    show (i.val * b + j.val) * c + k.val = r.val * c + k.val
    rw [hr])

/-- An `[n, c]` array (with `n = a·b`) cast to `[a, b, c]` reads, at `(i, j, k)`, the operand at `(r, k)` with `r = i·b + j`. -/
theorem shapeCast_nc_abc_apply {a b c n : ℕ} (x : (⟨2, ![n, c]⟩ : Shape).Idx → α)
    (h : (⟨2, ![n, c]⟩ : Shape).ShapeCasts ⟨3, ![a, b, c]⟩) (i : Fin a) (j : Fin b) (k : Fin c) (r : Fin n)
    (hr : r.val = i.val * b + j.val) : shapeCast ⟨3, ![a, b, c]⟩ x h (ix3 i j k) = x (ix2 r k) :=
  shapeCast_apply x h _ _ (by
    rw [Shape.rowMajor_val_two, Shape.rowMajor_val_three]
    show r.val * c + k.val = (i.val * b + j.val) * c + k.val
    rw [hr])

end Cert.LibFlatten

end
-- ==== Proof.KProj.lean ====
/-
  The projection region read at an entry, on the extended reals.

  A grid point multiplies a block of 1024 rows of the flattened input, `[1024, 1024]`, by the fused weight matrix
  `[Wq | Wk | Wv]`, `[1024, 192]`, and stores columns `0 … 63`, `64 … 127` and `128 … 191` of the product into three
  result blocks. Changes of float format are the identity here, a whole-block load reads the block and one whole-block
  store leaves its payload, so entry `(r, h)` of the three result blocks is `Σ_e x0(r, e) · x1(e, h)`,
  `Σ_e x0(r, e) · x1(e, 64 + h)` and `Σ_e x0(r, e) · x1(e, 128 + h)`.

  Around the region: the fused matrix is the concatenation of the three weight matrices along the columns, so its
  entry `(e, h)`, `(e, 64 + h)`, `(e, 128 + h)` is `Wq(e, h)`, `Wk(e, h)`, `Wv(e, h)`; the input `[8, 2048, 1024]` is
  flattened to `[16384, 1024]`, row `b · 2048 + t` holding row `(b, t)`, and each result `[16384, 64]` is split back the
  same way. Together: where a block's row `r` is row `(b, t)` of the input, the three result blocks hold the query,
  key and value projections `proj x Wq b t h`, `proj x Wk b t h`, `proj x Wv b t h`.
-/
import proofs.«102945_j49727131353090_2_alg».proof.Proof.KRegion0
import proofs.«102945_j49727131353090_2_alg».proof.Proof.Spec
import proofs.«102945_j49727131353090_2_alg».proof.Proof.LibPlainMatmul
import proofs.«102945_j49727131353090_2_alg».proof.Proof.LibConcatSame
import proofs.«102945_j49727131353090_2_alg».proof.Proof.LibFlatten
import Idealize.ShloMosaic.Lib.Pipeline.Value
import Idealize.ShloMosaic.Lib.StableHlo.Run
import Idealize.ShloMosaic.Lib.ValueIdx
import Idealize.ShloMosaic.PureOps.Ideal.Laws

noncomputable section

open scoped BigOperators

namespace Cert.KernelIdeal.Hand

open Idealize.ShloMosaic Idealize.ShloMosaic.ValueIdx Cert.KernelIdeal Cert.KernelIdeal.Gen Cert.Attn

/-! ## The body's payloads at an entry -/

/-- The offsets of a whole-block rectangle of a matrix are zero. -/
theorem off2_zero : (![0, 0] : Fin 2 → Nat) = fun _ => 0 := by
  funext a; match a with | ⟨0, _⟩ => rfl | ⟨1, _⟩ => rfl

/-- The product `[1024, 1024] × [1024, 192]` into the zero accumulator at `(r, j)`. -/
theorem pay1_apply (v0 : Vec Ideal S1024x1024 .f32) (v3 : Vec Ideal S1024x192 .bf16) (r : Fin 1024) (j : Fin 192) :
    k0_pay1 (F := Ideal) v0 v3 (ix2 r j) = ∑ e : Fin 1024, v0 (ix2 r e) * v3 (ix2 e j) := by
  unfold k0_pay1
  rw [shapeCast_self, shapeCast_self]
  exact Cert.LibPlainMatmul.matmul_zero_apply (a := 1024) (n := 1024) (b := 192) none
    (truncf .bf16 v0 bitsLt_bf16_f32 : FVec Ideal S1024x1024 .bf16) v3 r j

/-- Columns `0 … 63` of the product. -/
theorem pay2_apply (v0 : Vec Ideal S1024x1024 .f32) (v3 : Vec Ideal S1024x192 .bf16) (r : Fin 1024) (h : Fin 64) :
    k0_pay2 (F := Ideal) v0 v3 (ix2 r h) = ∑ e : Fin 1024, v0 (ix2 r e) * v3 (ix2 e ⟨h.val, by omega⟩) := by
  unfold k0_pay2
  refine Eq.trans ?_ (pay1_apply v0 v3 r ⟨h.val, by omega⟩)
  refine extractStridedSlice_apply (s := S1024x192) (t := S1024x64) ![0, 0] (k0_pay1 (F := Ideal) v0 v3)
    slices_S1024x192_o0_0_S1024x64 (ix2 r h) (ix2 r ⟨h.val, by omega⟩) (fun a => ?_)
  match a with
  | ⟨0, _⟩ => show r.val = 0 + r.val; omega
  | ⟨1, _⟩ => show h.val = 0 + h.val; omega

/-- Columns `64 … 127` of the product. -/
theorem pay3_apply (v0 : Vec Ideal S1024x1024 .f32) (v3 : Vec Ideal S1024x192 .bf16) (r : Fin 1024) (h : Fin 64) :
    k0_pay3 (F := Ideal) v0 v3 (ix2 r h) = ∑ e : Fin 1024, v0 (ix2 r e) * v3 (ix2 e ⟨64 + h.val, by omega⟩) := by
  unfold k0_pay3
  refine Eq.trans ?_ (pay1_apply v0 v3 r ⟨64 + h.val, by omega⟩)
  refine extractStridedSlice_apply (s := S1024x192) (t := S1024x64) ![0, 64] (k0_pay1 (F := Ideal) v0 v3)
    slices_S1024x192_o0_64_S1024x64 (ix2 r h) (ix2 r ⟨64 + h.val, by omega⟩) (fun a => ?_)
  match a with
  | ⟨0, _⟩ => show r.val = 0 + r.val; omega
  | ⟨1, _⟩ => show 64 + h.val = 64 + h.val; rfl

/-- Columns `128 … 191` of the product. -/
theorem pay4_apply (v0 : Vec Ideal S1024x1024 .f32) (v3 : Vec Ideal S1024x192 .bf16) (r : Fin 1024) (h : Fin 64) :
    k0_pay4 (F := Ideal) v0 v3 (ix2 r h) = ∑ e : Fin 1024, v0 (ix2 r e) * v3 (ix2 e ⟨128 + h.val, by omega⟩) := by
  unfold k0_pay4
  refine Eq.trans ?_ (pay1_apply v0 v3 r ⟨128 + h.val, by omega⟩)
  refine extractStridedSlice_apply (s := S1024x192) (t := S1024x64) ![0, 128] (k0_pay1 (F := Ideal) v0 v3)
    slices_S1024x192_o0_128_S1024x64 (ix2 r h) (ix2 r ⟨128 + h.val, by omega⟩) (fun a => ?_)
  match a with
  | ⟨0, _⟩ => show r.val = 0 + r.val; omega
  | ⟨1, _⟩ => show 128 + h.val = 128 + h.val; rfl

/-! ## The three result blocks at an entry -/

/-- The first result block: `Σ_e x0(r, e) · x1(e, h)`. -/
theorem out0_2_apply (x0 : Vec Ideal S1024x1024 .f32) (x1 : Vec Ideal S1024x192 .bf16) (r : Fin 1024) (h : Fin 64) :
    out0_2 (F := Ideal) x0 x1 (ix2 r h) = ∑ e : Fin 1024, x0 (ix2 r e) * x1 (ix2 e ⟨h.val, by omega⟩) := by
  unfold out0_2
  rw [View.canon_unit_zero off2_zero, View.ld_unit_zero off2_zero, View.ld_unit_zero off2_zero]
  exact pay2_apply x0 x1 r h

/-- The second result block: `Σ_e x0(r, e) · x1(e, 64 + h)`. -/
theorem out0_3_apply (x0 : Vec Ideal S1024x1024 .f32) (x1 : Vec Ideal S1024x192 .bf16) (r : Fin 1024) (h : Fin 64) :
    out0_3 (F := Ideal) x0 x1 (ix2 r h) = ∑ e : Fin 1024, x0 (ix2 r e) * x1 (ix2 e ⟨64 + h.val, by omega⟩) := by
  unfold out0_3
  rw [View.canon_unit_zero off2_zero, View.ld_unit_zero off2_zero, View.ld_unit_zero off2_zero]
  exact pay3_apply x0 x1 r h

/-- The third result block: `Σ_e x0(r, e) · x1(e, 128 + h)`. -/
theorem out0_4_apply (x0 : Vec Ideal S1024x1024 .f32) (x1 : Vec Ideal S1024x192 .bf16) (r : Fin 1024) (h : Fin 64) :
    out0_4 (F := Ideal) x0 x1 (ix2 r h) = ∑ e : Fin 1024, x0 (ix2 r e) * x1 (ix2 e ⟨128 + h.val, by omega⟩) := by
  unfold out0_4
  rw [View.canon_unit_zero off2_zero, View.ld_unit_zero off2_zero, View.ld_unit_zero off2_zero]
  exact pay4_apply x0 x1 r h

/-! ## The fused weight matrix at an entry -/

/-- The fused weight matrix `[Wq | Wk | Wv]` in the narrower float format, spelt as the program's two host operations
    compose it: the concatenation along the columns, then the change of format. -/
abbrev fusedW (Wq Wk Wv : FVec Ideal S1024x64 .f32) : FVec Ideal S1024x192 .bf16 :=
  truncf (F := Ideal) .bf16 (concatenate S1024x192 1 [⟨S1024x64, Wq⟩, ⟨S1024x64, Wk⟩, ⟨S1024x64, Wv⟩]
    concatenates_S1024x64_S1024x64_S1024x64_S1024x192_d1) bitsLt_bf16_f32

/-- A column of a piece keeps its row; only the column coordinate is on the concatenated axis. -/
private theorem row_kept (e : Fin 1024) (h : Fin 64) (j : Fin 192) (b : Fin S1024x64.rank)
    (hb : b.cast (rfl : S1024x64.rank = S1024x192.rank) ≠ (1 : Fin S1024x192.rank)) :
    ((ix2 e h : S1024x64.Idx) b).val = ((ix2 e j : S1024x192.Idx) (b.cast (rfl : S1024x64.rank = S1024x192.rank))).val := by
  match b with
  | ⟨0, _⟩ => rfl
  | ⟨1, _⟩ => exact absurd rfl hb

/-- Columns `0 … 63` of the fused matrix are the query weights. -/
theorem fusedW_q (Wq Wk Wv : FVec Ideal S1024x64 .f32) (e : Fin 1024) (h : Fin 64) :
    (truncf (F := Ideal) .bf16 (concatenate S1024x192 1 [⟨S1024x64, Wq⟩, ⟨S1024x64, Wk⟩, ⟨S1024x64, Wv⟩]
      concatenates_S1024x64_S1024x64_S1024x64_S1024x192_d1) bitsLt_bf16_f32 : FVec Ideal S1024x192 .bf16)
        (ix2 e ⟨h.val, by omega⟩) = Wq (ix2 e h) :=
  Cert.LibConcatSame.concat3_apply (t := S1024x192) (s₁ := S1024x64) 1 Wq Wk Wv
    concatenates_S1024x64_S1024x64_S1024x64_S1024x192_d1 rfl 64 rfl (ix2 e ⟨h.val, by omega⟩) 0
    (by show h.val / 64 = 0; omega) (ix2 e h) (by show h.val = h.val % 64; omega) (row_kept e h _)

/-- Columns `64 … 127` of the fused matrix are the key weights. -/
theorem fusedW_k (Wq Wk Wv : FVec Ideal S1024x64 .f32) (e : Fin 1024) (h : Fin 64) :
    (truncf (F := Ideal) .bf16 (concatenate S1024x192 1 [⟨S1024x64, Wq⟩, ⟨S1024x64, Wk⟩, ⟨S1024x64, Wv⟩]
      concatenates_S1024x64_S1024x64_S1024x64_S1024x192_d1) bitsLt_bf16_f32 : FVec Ideal S1024x192 .bf16)
        (ix2 e ⟨64 + h.val, by omega⟩) = Wk (ix2 e h) :=
  Cert.LibConcatSame.concat3_apply (t := S1024x192) (s₁ := S1024x64) 1 Wq Wk Wv
    concatenates_S1024x64_S1024x64_S1024x64_S1024x192_d1 rfl 64 rfl (ix2 e ⟨64 + h.val, by omega⟩) 1
    (by show (64 + h.val) / 64 = 1; omega) (ix2 e h) (by show h.val = (64 + h.val) % 64; omega) (row_kept e h _)

/-- Columns `128 … 191` of the fused matrix are the value weights. -/
theorem fusedW_v (Wq Wk Wv : FVec Ideal S1024x64 .f32) (e : Fin 1024) (h : Fin 64) :
    (truncf (F := Ideal) .bf16 (concatenate S1024x192 1 [⟨S1024x64, Wq⟩, ⟨S1024x64, Wk⟩, ⟨S1024x64, Wv⟩]
      concatenates_S1024x64_S1024x64_S1024x64_S1024x192_d1) bitsLt_bf16_f32 : FVec Ideal S1024x192 .bf16)
        (ix2 e ⟨128 + h.val, by omega⟩) = Wv (ix2 e h) :=
  Cert.LibConcatSame.concat3_apply (t := S1024x192) (s₁ := S1024x64) 1 Wq Wk Wv
    concatenates_S1024x64_S1024x64_S1024x64_S1024x192_d1 rfl 64 rfl (ix2 e ⟨128 + h.val, by omega⟩) 2
    (by show (128 + h.val) / 64 = 2; omega) (ix2 e h) (by show h.val = (128 + h.val) % 64; omega) (row_kept e h _)

/-! ## The reshapes at an entry -/

/-- The input flattened to `[16384, 1024]`: row `b · 2048 + t` is row `(b, t)`. -/
theorem flat_apply {α : Type} (x : S8x2048x1024.Idx → α) (b : Fin 8) (t : Fin 2048) (e : Fin 1024) (n : Fin 16384)
    (hn : n.val = b.val * 2048 + t.val) :
    shapeCast S16384x1024 x shapeCasts_S8x2048x1024_S16384x1024 (ix2 n e) = x (ix3 b t e) :=
  Cert.LibFlatten.shapeCast_abc_nc_apply x shapeCasts_S8x2048x1024_S16384x1024 b t e n hn

/-- A result `[16384, 64]` split to `[8, 2048, 64]`: row `(b, t)` is row `b · 2048 + t`. -/
theorem unflat_apply {α : Type} (y : S16384x64.Idx → α) (b : Fin 8) (t : Fin 2048) (h : Fin 64) (n : Fin 16384)
    (hn : n.val = b.val * 2048 + t.val) :
    shapeCast S8x2048x64 y shapeCasts_S16384x64_S8x2048x64 (ix3 b t h) = y (ix2 n h) :=
  Cert.LibFlatten.shapeCast_nc_abc_apply y shapeCasts_S16384x64_S8x2048x64 b t h n hn

/-! ## The three result blocks are the three projections -/

/-- Where row `r` of the input block is row `(b, t)` of the input and the weight block is the fused matrix, the first
    result block holds the query projection. -/
theorem out0_2_proj (x : SX.Idx → EReal) (Wk Wq Wv : SW.Idx → EReal) (x0 : Vec Ideal S1024x1024 .f32) (b : Fin 8)
    (t : Fin 2048) (r : Fin 1024) (h : Fin 64) (hx0 : ∀ e : Fin 1024, x0 (ix2 r e) = x (ix3 b t e))
    (x1 : Vec Ideal S1024x192 .bf16) (hx1 : x1 = fusedW Wq Wk Wv) :
    out0_2 (F := Ideal) x0 x1 (ix2 r h) = proj x Wq b t h := by
  subst hx1
  rw [out0_2_apply]
  exact Finset.sum_congr rfl fun e _ => by rw [hx0 e]; exact congrArg (x (ix3 b t e) * ·) (fusedW_q Wq Wk Wv e h)

/-- … the second the key projection … -/
theorem out0_3_proj (x : SX.Idx → EReal) (Wk Wq Wv : SW.Idx → EReal) (x0 : Vec Ideal S1024x1024 .f32) (b : Fin 8)
    (t : Fin 2048) (r : Fin 1024) (h : Fin 64) (hx0 : ∀ e : Fin 1024, x0 (ix2 r e) = x (ix3 b t e))
    (x1 : Vec Ideal S1024x192 .bf16) (hx1 : x1 = fusedW Wq Wk Wv) :
    out0_3 (F := Ideal) x0 x1 (ix2 r h) = proj x Wk b t h := by
  subst hx1
  rw [out0_3_apply]
  exact Finset.sum_congr rfl fun e _ => by rw [hx0 e]; exact congrArg (x (ix3 b t e) * ·) (fusedW_k Wq Wk Wv e h)

/-- … and the third the value projection. -/
theorem out0_4_proj (x : SX.Idx → EReal) (Wk Wq Wv : SW.Idx → EReal) (x0 : Vec Ideal S1024x1024 .f32) (b : Fin 8)
    (t : Fin 2048) (r : Fin 1024) (h : Fin 64) (hx0 : ∀ e : Fin 1024, x0 (ix2 r e) = x (ix3 b t e))
    (x1 : Vec Ideal S1024x192 .bf16) (hx1 : x1 = fusedW Wq Wk Wv) :
    out0_4 (F := Ideal) x0 x1 (ix2 r h) = proj x Wv b t h := by
  subst hx1
  rw [out0_4_apply]
  exact Finset.sum_congr rfl fun e _ => by rw [hx0 e]; exact congrArg (x (ix3 b t e) * ·) (fusedW_v Wq Wk Wv e h)

/-- The same with the input block given as rows `p · 1024 … p · 1024 + 1023` of the flattened input: row `r` of block
    `p` is row `(b, t)` of the input when `p · 1024 + r = b · 2048 + t`. -/
theorem block_row (x : SX.Idx → EReal) (x0 : Vec Ideal S1024x1024 .f32) (p : Fin 16) (b : Fin 8) (t : Fin 2048)
    (r : Fin 1024) (hp : p.val * 1024 + r.val = b.val * 2048 + t.val)
    (hx0 : ∀ e : Fin 1024, x0 (ix2 r e)
      = shapeCast S16384x1024 x shapeCasts_S8x2048x1024_S16384x1024 (ix2 ⟨p.val * 1024 + r.val, by omega⟩ e)) (e : Fin 1024) :
    x0 (ix2 r e) = x (ix3 b t e) :=
  (hx0 e).trans (flat_apply x b t e ⟨p.val * 1024 + r.val, by omega⟩ hp)

/-! ## The host operations around the two regions, as functions of what they read -/

section Host
open Idealize.ShloMosaic.StableHlo

variable (V : Valuation τ sig (Elt Ideal))

/-- Before the first region: the weight buffer holds the fused matrix of the three weight arguments … -/
theorem hostOps0_fused :
    StableHlo.after (hostOps0 (F := Ideal)) V (Proc.devRef .tc main_v1)
      = fusedW (V (Proc.devRef .tc main_arg2)) (V (Proc.devRef .tc main_arg1)) (V (Proc.devRef .tc main_arg3)) := by
  after_results; rfl

/-- … and the input buffer of the region the input flattened to `[16384, 1024]`. -/
theorem hostOps0_flat :
    StableHlo.after (hostOps0 (F := Ideal)) V (Proc.devRef .tc main_v2)
      = shapeCast S16384x1024 (V (Proc.devRef .tc main_arg0)) shapeCasts_S8x2048x1024_S16384x1024 := by
  after_results; rfl

/-- Between the regions: each result `[16384, 64]` of the first is split to `[8, 2048, 64]`. -/
theorem hostOps1_q :
    StableHlo.after (hostOps1 (F := Ideal)) V (Proc.devRef .tc main_v4)
      = shapeCast S8x2048x64 (V (Proc.devRef .tc main_v3_0)) shapeCasts_S16384x64_S8x2048x64 := by
  after_results; rfl
theorem hostOps1_k :
    StableHlo.after (hostOps1 (F := Ideal)) V (Proc.devRef .tc main_v5)
      = shapeCast S8x2048x64 (V (Proc.devRef .tc main_v3_1)) shapeCasts_S16384x64_S8x2048x64 := by
  after_results; rfl
theorem hostOps1_v :
    StableHlo.after (hostOps1 (F := Ideal)) V (Proc.devRef .tc main_v6)
      = shapeCast S8x2048x64 (V (Proc.devRef .tc main_v3_2)) shapeCasts_S16384x64_S8x2048x64 := by
  after_results; rfl

end Host

end Cert.KernelIdeal.Hand

end
-- ==== Proof.KFinal0.lean ====
/-
  The projection region, from blocks to arrays, on the extended reals.

  The grid has 16 points. Point `t` reads rows `t · 1024 … t · 1024 + 1023` of the flattened input `[16384, 1024]` and
  the whole fused weight matrix `[1024, 192]`, and writes rows `t · 1024 … t · 1024 + 1023` of each of the three results
  `[16384, 64]`. What point `t` writes back is therefore block `t` of ONE function of the two arrays the region is
  entered with, `projArr X Wf off (n, h) = Σ_e X(n, e) · Wf(e, off + h)` with `off = 0, 64, 128`; row `n` is covered by
  point `n / 1024`, so after the last point each result array is that function everywhere.
-/
import proofs.«102945_j49727131353090_2_alg».proof.Proof.KRegion0
import proofs.«102945_j49727131353090_2_alg».proof.Proof.KProj
import Idealize.ShloMosaic.Lib.Pipeline.Value

set_option maxRecDepth 16384

noncomputable section

open scoped BigOperators

namespace Cert.KernelIdeal.Hand

open Idealize.ShloMosaic Idealize.ShloMosaic.TcCoe Idealize.ShloMosaic.ValueIdx
open Idealize.ShloMosaic.Pipeline (Dat)
open Cert.KernelIdeal Cert.KernelIdeal.Gen Cert.Attn

/-- One result array of the projection region as a function of the flattened input `X` and the fused weights `Wf`:
    entry `(n, h)` is `Σ_e X(n, e) · Wf(e, off + h)`. -/
def projArr (X : S16384x1024.Idx → EReal) (Wf : S1024x192.Idx → EReal) (off : ℕ) (hoff : off + 64 ≤ 192) :
    S16384x64.Idx → EReal :=
  fun j => ∑ e : Fin 1024, X (ix2 (j 0) e) * Wf (ix2 e ⟨off + (j 1).val, by have := idx2_lt1 j; omega⟩)

/-! ## A result block as a block of `projArr`, over plain variables -/

/-- Where the input block `x0` is rows `p · 1024 …` of `X`, entry `y` of result block 2 is `projArr X Wf 0` at the
    array entry `i` that sits `p` blocks down: row `p · 1024 + y 0`, column `y 1`. -/
theorem out0_2_block (X : S16384x1024.Idx → EReal) (Wf : Vec Ideal S1024x192 .bf16) (x0 : Vec Ideal S1024x1024 .f32)
    (p : ℕ) (hp : p < 16)
    (hx0 : ∀ r e : Fin 1024, x0 (ix2 r e) = X (ix2 ⟨p * 1024 + r.val, by omega⟩ e))
    (y : S1024x64.Idx) (i : S16384x64.Idx) (hi0 : (i 0).val = p * 1024 + (y 0).val) (hi1 : (i 1).val = (y 1).val) :
    out0_2 (F := Ideal) x0 Wf y = projArr X Wf 0 (by omega) i := by
  obtain ⟨r, h, rfl⟩ : ∃ (r : Fin 1024) (h : Fin 64), y = ix2 r h := ⟨y 0, y 1, eq_ix2 y⟩
  rw [out0_2_apply]
  unfold projArr
  refine Finset.sum_congr rfl fun e _ => ?_
  rw [hx0]
  refine congrArg₂ (· * ·) (congrArg X (funext fun a => Fin.ext ?_)) (congrArg Wf (funext fun a => Fin.ext ?_))
  · match a with
    | ⟨0, _⟩ => exact hi0.symm
    | ⟨1, _⟩ => rfl
  · match a with
    | ⟨0, _⟩ => rfl
    | ⟨1, _⟩ => show h.val = 0 + (i 1).val; rw [hi1]; show h.val = 0 + h.val; omega

/-- Where the input block `x0` is rows `p · 1024 …` of `X`, entry `y` of result block 3 is `projArr X Wf 64` at the
    array entry `i` that sits `p` blocks down: row `p · 1024 + y 0`, column `y 1`. -/
theorem out0_3_block (X : S16384x1024.Idx → EReal) (Wf : Vec Ideal S1024x192 .bf16) (x0 : Vec Ideal S1024x1024 .f32)
    (p : ℕ) (hp : p < 16)
    (hx0 : ∀ r e : Fin 1024, x0 (ix2 r e) = X (ix2 ⟨p * 1024 + r.val, by omega⟩ e))
    (y : S1024x64.Idx) (i : S16384x64.Idx) (hi0 : (i 0).val = p * 1024 + (y 0).val) (hi1 : (i 1).val = (y 1).val) :
    out0_3 (F := Ideal) x0 Wf y = projArr X Wf 64 (by omega) i := by
  obtain ⟨r, h, rfl⟩ : ∃ (r : Fin 1024) (h : Fin 64), y = ix2 r h := ⟨y 0, y 1, eq_ix2 y⟩
  rw [out0_3_apply]
  unfold projArr
  refine Finset.sum_congr rfl fun e _ => ?_
  rw [hx0]
  refine congrArg₂ (· * ·) (congrArg X (funext fun a => Fin.ext ?_)) (congrArg Wf (funext fun a => Fin.ext ?_))
  · match a with
    | ⟨0, _⟩ => exact hi0.symm
    | ⟨1, _⟩ => rfl
  · match a with
    | ⟨0, _⟩ => rfl
    | ⟨1, _⟩ => show 64 + h.val = 64 + (i 1).val; rw [hi1]

/-- Where the input block `x0` is rows `p · 1024 …` of `X`, entry `y` of result block 4 is `projArr X Wf 128` at the
    array entry `i` that sits `p` blocks down: row `p · 1024 + y 0`, column `y 1`. -/
theorem out0_4_block (X : S16384x1024.Idx → EReal) (Wf : Vec Ideal S1024x192 .bf16) (x0 : Vec Ideal S1024x1024 .f32)
    (p : ℕ) (hp : p < 16)
    (hx0 : ∀ r e : Fin 1024, x0 (ix2 r e) = X (ix2 ⟨p * 1024 + r.val, by omega⟩ e))
    (y : S1024x64.Idx) (i : S16384x64.Idx) (hi0 : (i 0).val = p * 1024 + (y 0).val) (hi1 : (i 1).val = (y 1).val) :
    out0_4 (F := Ideal) x0 Wf y = projArr X Wf 128 (by omega) i := by
  obtain ⟨r, h, rfl⟩ : ∃ (r : Fin 1024) (h : Fin 64), y = ix2 r h := ⟨y 0, y 1, eq_ix2 y⟩
  rw [out0_4_apply]
  unfold projArr
  refine Finset.sum_congr rfl fun e _ => ?_
  rw [hx0]
  refine congrArg₂ (· * ·) (congrArg X (funext fun a => Fin.ext ?_)) (congrArg Wf (funext fun a => Fin.ext ?_))
  · match a with
    | ⟨0, _⟩ => exact hi0.symm
    | ⟨1, _⟩ => rfl
  · match a with
    | ⟨0, _⟩ => rfl
    | ⟨1, _⟩ => show 128 + h.val = 128 + (i 1).val; rw [hi1]

variable (V : (c : Dev nD) → (b : Ref sig .tc) → Buf (Elt Ideal) ((c : Thread nD τ).loc b))

/-! ## The index maps over the grid -/

/-- The printed index maps, decided over the 16 points: the input's and the three results' row blocks move with the
    point, every column block is the first, and the weight matrix's block is the whole matrix. -/
theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0
    ∧ win0_4.index t (0 : Fin 2) = t.val ∧ win0_4.index t (1 : Fin 2) = 0 :=
  (by decide +kernel : ∀ t : Fin grid0.N, _)

/-! ## The two input blocks at a point -/

/-- Point `t`'s input block is rows `t · 1024 …` of the array the region finds in the input's buffer. -/
theorem iblk0_0_apply (c : Dev nD) (t : Fin cfg0.N) (r : Fin 1024) (e : Fin 1024) :
    iblk0 V c 0 t (ix2 r e) = V c main_v2 (ix2 ⟨t.val * 1024 + r.val, by have := t.isLt; have : cfg0.N = 16 := rfl; omega⟩ e) := by
  obtain ⟨e0, e1, -⟩ := idx_facts0 t
  show V c main_v2 (((cfg0.win 0).blk t).view.emb (ix2 r e)) = _
  refine congrArg (V c main_v2) (funext fun a => Fin.ext ?_)
  match a with
  | ⟨0, _⟩ => show win0_0.index t (0 : Fin 2) * 1024 + 1 * r.val = t.val * 1024 + r.val; omega
  | ⟨1, _⟩ => show win0_0.index t (1 : Fin 2) * 1024 + 1 * e.val = e.val; omega

/-- Point `t`'s weight block is the whole fused matrix the region finds. -/
theorem iblk0_1_eq (c : Dev nD) (t : Fin cfg0.N) : iblk0 V c 1 t = V c main_v1 := by
  obtain ⟨-, -, e2, e3, -⟩ := idx_facts0 t
  funext y
  show V c main_v1 (((cfg0.win 1).blk t).view.emb y) = V c main_v1 y
  refine congrArg (V c main_v1) (funext fun a => Fin.ext ?_)
  match a with
  | ⟨0, _⟩ => show win0_1.index t (0 : Fin 2) * 1024 + 1 * (y 0).val = (y 0).val; omega
  | ⟨1, _⟩ => show win0_1.index t (1 : Fin 2) * 192 + 1 * (y 1).val = (y 1).val; omega

/-! ## Result window 2 (columns `0 … 63` of the product) -/

/-- WHAT POINT `t` WRITES BACK to result window 2 is block `t` of `projArr` of the two arrays the region finds. -/
theorem flushed0_2_eq (c : Dev nD) (t : Fin cfg0.N) :
    (dat0 V c).flushed 2 t
      = ((cfg0.win 2).blk t).view.read (Elt Ideal) (projArr (V c main_v2) (V c main_v1) 0 (by omega)) := by
  show (cfg0.win 2).cut (grid0.coords t) ((dat0 V c).after 2 t) = _
  rw [after0_2, iblk0_1_eq]
  obtain ⟨-, -, -, -, e4, e5, -⟩ := idx_facts0 t
  funext y
  refine out0_2_block (V c main_v2) (V c main_v1) (iblk0 V c 0 t) t.val t.isLt (fun r e => iblk0_0_apply V c t r e) y
    (((cfg0.win 2).blk t).view.emb y) ?_ ?_
  · show win0_2.index t (0 : Fin 2) * 1024 + 1 * (y 0).val = t.val * 1024 + (y 0).val; omega
  · show win0_2.index t (1 : Fin 2) * 64 + 1 * (y 1).val = (y 1).val; omega

/-- An index of the array is in point `t`'s block iff each coordinate is in the block's range on its axis. -/
theorem mem_blk0_2 (t : Fin cfg0.N) (i : S16384x64.Idx) :
    i ∈ ((cfg0.win 2).blk t).view.set
      ↔ ∀ a : Fin 2, win0_2.index t a * S1024x64.size a ≤ (i a).val ∧ (i a).val < win0_2.index t a * S1024x64.size a + S1024x64.size a := by
  show i ∈ ((View.whole main_v3_0).slice (win0_2.rect t)).set ↔ _
  rw [View.set_slice_whole, Rect.mem_set_unit]
  exact Iff.rfl

/-- Every entry of the array is in the block of the point its row names: row `n` is covered by point `n / 1024`. -/
theorem covered0_2 (i : S16384x64.Idx) :
    ∃ t : Fin cfg0.N, (cfg0.win 2).flush t = true ∧ i ∈ ((cfg0.win 2).blk t).view.set := by
  have hi0 : (i 0).val < 16384 := idx2_lt0 i
  have hi1 : (i 1).val < 64 := idx2_lt1 i
  have ht : (i 0).val / 1024 < cfg0.N := by show (i 0).val / 1024 < 16; omega
  refine ⟨⟨(i 0).val / 1024, ht⟩, flush0_2 _, ?_⟩
  obtain ⟨-, -, -, -, e4, e5, -⟩ := idx_facts0 ⟨(i 0).val / 1024, ht⟩
  rw [mem_blk0_2]
  intro a
  match a with
  | ⟨0, _⟩ =>
    show win0_2.index ⟨(i 0).val / 1024, ht⟩ (0 : Fin 2) * 1024 ≤ (i 0).val
      ∧ (i 0).val < win0_2.index ⟨(i 0).val / 1024, ht⟩ (0 : Fin 2) * 1024 + 1024
    rw [e4]; show (i 0).val / 1024 * 1024 ≤ (i 0).val ∧ (i 0).val < (i 0).val / 1024 * 1024 + 1024; omega
  | ⟨1, _⟩ =>
    show win0_2.index ⟨(i 0).val / 1024, ht⟩ (1 : Fin 2) * 64 ≤ (i 1).val
      ∧ (i 1).val < win0_2.index ⟨(i 0).val / 1024, ht⟩ (1 : Fin 2) * 64 + 64
    rw [e5]; omega

/-- THE ARRAY after the region: `projArr` of the two arrays the region was entered with, at column offset 0. -/
theorem final0_2 (c : Dev nD) :
    (dat0 V c).arrAt 2 cfg0.N = projArr (V c main_v2) (V c main_v1) 0 (by omega) :=
  (dat0 V c).arrAt_eq_of_cover 2 (projArr (V c main_v2) (V c main_v1) 0 (by omega))
    (fun t _ => flushed0_2_eq V c t) covered0_2

/-! ## Result window 3 (columns `64 … 127` of the product) -/

/-- WHAT POINT `t` WRITES BACK to result window 3 is block `t` of `projArr` of the two arrays the region finds. -/
theorem flushed0_3_eq (c : Dev nD) (t : Fin cfg0.N) :
    (dat0 V c).flushed 3 t
      = ((cfg0.win 3).blk t).view.read (Elt Ideal) (projArr (V c main_v2) (V c main_v1) 64 (by omega)) := by
  show (cfg0.win 3).cut (grid0.coords t) ((dat0 V c).after 3 t) = _
  rw [after0_3, iblk0_1_eq]
  obtain ⟨-, -, -, -, -, -, e4, e5, -⟩ := idx_facts0 t
  funext y
  refine out0_3_block (V c main_v2) (V c main_v1) (iblk0 V c 0 t) t.val t.isLt (fun r e => iblk0_0_apply V c t r e) y
    (((cfg0.win 3).blk t).view.emb y) ?_ ?_
  · show win0_3.index t (0 : Fin 2) * 1024 + 1 * (y 0).val = t.val * 1024 + (y 0).val; omega
  · show win0_3.index t (1 : Fin 2) * 64 + 1 * (y 1).val = (y 1).val; omega

/-- An index of the array is in point `t`'s block iff each coordinate is in the block's range on its axis. -/
theorem mem_blk0_3 (t : Fin cfg0.N) (i : S16384x64.Idx) :
    i ∈ ((cfg0.win 3).blk t).view.set
      ↔ ∀ a : Fin 2, win0_3.index t a * S1024x64.size a ≤ (i a).val ∧ (i a).val < win0_3.index t a * S1024x64.size a + S1024x64.size a := by
  show i ∈ ((View.whole main_v3_1).slice (win0_3.rect t)).set ↔ _
  rw [View.set_slice_whole, Rect.mem_set_unit]
  exact Iff.rfl

/-- Every entry of the array is in the block of the point its row names: row `n` is covered by point `n / 1024`. -/
theorem covered0_3 (i : S16384x64.Idx) :
    ∃ t : Fin cfg0.N, (cfg0.win 3).flush t = true ∧ i ∈ ((cfg0.win 3).blk t).view.set := by
  have hi0 : (i 0).val < 16384 := idx2_lt0 i
  have hi1 : (i 1).val < 64 := idx2_lt1 i
  have ht : (i 0).val / 1024 < cfg0.N := by show (i 0).val / 1024 < 16; omega
  refine ⟨⟨(i 0).val / 1024, ht⟩, flush0_3 _, ?_⟩
  obtain ⟨-, -, -, -, -, -, e4, e5, -⟩ := idx_facts0 ⟨(i 0).val / 1024, ht⟩
  rw [mem_blk0_3]
  intro a
  match a with
  | ⟨0, _⟩ =>
    show win0_3.index ⟨(i 0).val / 1024, ht⟩ (0 : Fin 2) * 1024 ≤ (i 0).val
      ∧ (i 0).val < win0_3.index ⟨(i 0).val / 1024, ht⟩ (0 : Fin 2) * 1024 + 1024
    rw [e4]; show (i 0).val / 1024 * 1024 ≤ (i 0).val ∧ (i 0).val < (i 0).val / 1024 * 1024 + 1024; omega
  | ⟨1, _⟩ =>
    show win0_3.index ⟨(i 0).val / 1024, ht⟩ (1 : Fin 2) * 64 ≤ (i 1).val
      ∧ (i 1).val < win0_3.index ⟨(i 0).val / 1024, ht⟩ (1 : Fin 2) * 64 + 64
    rw [e5]; omega

/-- THE ARRAY after the region: `projArr` of the two arrays the region was entered with, at column offset 64. -/
theorem final0_3 (c : Dev nD) :
    (dat0 V c).arrAt 3 cfg0.N = projArr (V c main_v2) (V c main_v1) 64 (by omega) :=
  (dat0 V c).arrAt_eq_of_cover 3 (projArr (V c main_v2) (V c main_v1) 64 (by omega))
    (fun t _ => flushed0_3_eq V c t) covered0_3

/-! ## Result window 4 (columns `128 … 191` of the product) -/

/-- WHAT POINT `t` WRITES BACK to result window 4 is block `t` of `projArr` of the two arrays the region finds. -/
theorem flushed0_4_eq (c : Dev nD) (t : Fin cfg0.N) :
    (dat0 V c).flushed 4 t
      = ((cfg0.win 4).blk t).view.read (Elt Ideal) (projArr (V c main_v2) (V c main_v1) 128 (by omega)) := by
  show (cfg0.win 4).cut (grid0.coords t) ((dat0 V c).after 4 t) = _
  rw [after0_4, iblk0_1_eq]
  obtain ⟨-, -, -, -, -, -, -, -, e4, e5⟩ := idx_facts0 t
  funext y
  refine out0_4_block (V c main_v2) (V c main_v1) (iblk0 V c 0 t) t.val t.isLt (fun r e => iblk0_0_apply V c t r e) y
    (((cfg0.win 4).blk t).view.emb y) ?_ ?_
  · show win0_4.index t (0 : Fin 2) * 1024 + 1 * (y 0).val = t.val * 1024 + (y 0).val; omega
  · show win0_4.index t (1 : Fin 2) * 64 + 1 * (y 1).val = (y 1).val; omega

/-- An index of the array is in point `t`'s block iff each coordinate is in the block's range on its axis. -/
theorem mem_blk0_4 (t : Fin cfg0.N) (i : S16384x64.Idx) :
    i ∈ ((cfg0.win 4).blk t).view.set
      ↔ ∀ a : Fin 2, win0_4.index t a * S1024x64.size a ≤ (i a).val ∧ (i a).val < win0_4.index t a * S1024x64.size a + S1024x64.size a := by
  show i ∈ ((View.whole main_v3_2).slice (win0_4.rect t)).set ↔ _
  rw [View.set_slice_whole, Rect.mem_set_unit]
  exact Iff.rfl

/-- Every entry of the array is in the block of the point its row names: row `n` is covered by point `n / 1024`. -/
theorem covered0_4 (i : S16384x64.Idx) :
    ∃ t : Fin cfg0.N, (cfg0.win 4).flush t = true ∧ i ∈ ((cfg0.win 4).blk t).view.set := by
  have hi0 : (i 0).val < 16384 := idx2_lt0 i
  have hi1 : (i 1).val < 64 := idx2_lt1 i
  have ht : (i 0).val / 1024 < cfg0.N := by show (i 0).val / 1024 < 16; omega
  refine ⟨⟨(i 0).val / 1024, ht⟩, flush0_4 _, ?_⟩
  obtain ⟨-, -, -, -, -, -, -, -, e4, e5⟩ := idx_facts0 ⟨(i 0).val / 1024, ht⟩
  rw [mem_blk0_4]
  intro a
  match a with
  | ⟨0, _⟩ =>
    show win0_4.index ⟨(i 0).val / 1024, ht⟩ (0 : Fin 2) * 1024 ≤ (i 0).val
      ∧ (i 0).val < win0_4.index ⟨(i 0).val / 1024, ht⟩ (0 : Fin 2) * 1024 + 1024
    rw [e4]; show (i 0).val / 1024 * 1024 ≤ (i 0).val ∧ (i 0).val < (i 0).val / 1024 * 1024 + 1024; omega
  | ⟨1, _⟩ =>
    show win0_4.index ⟨(i 0).val / 1024, ht⟩ (1 : Fin 2) * 64 ≤ (i 1).val
      ∧ (i 1).val < win0_4.index ⟨(i 0).val / 1024, ht⟩ (1 : Fin 2) * 64 + 64
    rw [e5]; omega

/-- THE ARRAY after the region: `projArr` of the two arrays the region was entered with, at column offset 128. -/
theorem final0_4 (c : Dev nD) :
    (dat0 V c).arrAt 4 cfg0.N = projArr (V c main_v2) (V c main_v1) 128 (by omega) :=
  (dat0 V c).arrAt_eq_of_cover 4 (projArr (V c main_v2) (V c main_v1) 128 (by omega))
    (fun t _ => flushed0_4_eq V c t) covered0_4

/-! ## The three result arrays are the three projections

With the region entered at the flattened input and the fused weight matrix, `projArr` at row `b · 2048 + t` is the
projection of input row `(b, t)`; splitting the rows back gives the projections as `[8, 2048, 64]` arrays. -/

section Spec
variable (x : SX.Idx → EReal) (Wk Wq Wv : SW.Idx → EReal)

theorem projArr_q (b : Fin 8) (t : Fin 2048) (h : Fin 64) (n : Fin 16384) (hn : n.val = b.val * 2048 + t.val) :
    projArr (shapeCast S16384x1024 x shapeCasts_S8x2048x1024_S16384x1024) (fusedW Wq Wk Wv) 0 (by omega) (ix2 n h)
      = proj x Wq b t h := by
  unfold projArr proj
  refine Finset.sum_congr rfl fun e _ => congrArg₂ (· * ·) (flat_apply x b t e n hn) ?_
  refine Eq.trans (congrArg (fusedW Wq Wk Wv) (funext fun a => Fin.ext ?_)) (fusedW_q Wq Wk Wv e h)
  match a with
  | ⟨0, _⟩ => rfl
  | ⟨1, _⟩ => exact Nat.zero_add _

theorem projArr_k (b : Fin 8) (t : Fin 2048) (h : Fin 64) (n : Fin 16384) (hn : n.val = b.val * 2048 + t.val) :
    projArr (shapeCast S16384x1024 x shapeCasts_S8x2048x1024_S16384x1024) (fusedW Wq Wk Wv) 64 (by omega) (ix2 n h)
      = proj x Wk b t h := by
  unfold projArr proj
  exact Finset.sum_congr rfl fun e _ => congrArg₂ (· * ·) (flat_apply x b t e n hn) (fusedW_k Wq Wk Wv e h)

theorem projArr_v (b : Fin 8) (t : Fin 2048) (h : Fin 64) (n : Fin 16384) (hn : n.val = b.val * 2048 + t.val) :
    projArr (shapeCast S16384x1024 x shapeCasts_S8x2048x1024_S16384x1024) (fusedW Wq Wk Wv) 128 (by omega) (ix2 n h)
      = proj x Wv b t h := by
  unfold projArr proj
  exact Finset.sum_congr rfl fun e _ => congrArg₂ (· * ·) (flat_apply x b t e n hn) (fusedW_v Wq Wk Wv e h)

variable (c : Dev nD)
  (hX : V c main_v2 = shapeCast S16384x1024 x shapeCasts_S8x2048x1024_S16384x1024) (hW : V c main_v1 = fusedW Wq Wk Wv)

include hX hW

/-- The first result array, split to `[8, 2048, 64]`, is the query projection. -/
theorem arr0_2_proj (b : Fin 8) (t : Fin 2048) (h : Fin 64) :
    shapeCast S8x2048x64 ((dat0 V c).arrAt 2 cfg0.N) shapeCasts_S16384x64_S8x2048x64 (ix3 b t h) = proj x Wq b t h := by
  rw [final0_2, hX, hW]
  exact (unflat_apply _ b t h ⟨b.val * 2048 + t.val, by omega⟩ rfl).trans (projArr_q x Wk Wq Wv b t h _ rfl)

/-- The second, the key projection. -/
theorem arr0_3_proj (b : Fin 8) (t : Fin 2048) (h : Fin 64) :
    shapeCast S8x2048x64 ((dat0 V c).arrAt 3 cfg0.N) shapeCasts_S16384x64_S8x2048x64 (ix3 b t h) = proj x Wk b t h := by
  rw [final0_3, hX, hW]
  exact (unflat_apply _ b t h ⟨b.val * 2048 + t.val, by omega⟩ rfl).trans (projArr_k x Wk Wq Wv b t h _ rfl)

/-- The third, the value projection. -/
theorem arr0_4_proj (b : Fin 8) (t : Fin 2048) (h : Fin 64) :
    shapeCast S8x2048x64 ((dat0 V c).arrAt 4 cfg0.N) shapeCasts_S16384x64_S8x2048x64 (ix3 b t h) = proj x Wv b t h := by
  rw [final0_4, hX, hW]
  exact (unflat_apply _ b t h ⟨b.val * 2048 + t.val, by omega⟩ rfl).trans (projArr_v x Wk Wq Wv b t h _ rfl)

end Spec

end Cert.KernelIdeal.Hand

end
-- ==== Proof.LibPairAxes.lean ====
/-
  A matrix placed on two of three axes, read at an index. An `[a, b]` matrix cast to `[a, b, 1]` or to `[a, 1, b]` keeps
  its entries (the unit axis carries no position), and a broadcast of either to `[a, b, c]` repeats it along the unit axis:
  together they read the matrix at the first two, or the first and third, coordinates. General lemmas over any extents.
-/
import Idealize.ShloMosaic.Lib.Pipeline.Value
import Idealize.ShloMosaic.Lib.ValueIdx

noncomputable section

namespace Cert.LibPairAxes

open Idealize.ShloMosaic Idealize.ShloMosaic.ValueIdx

variable {α : Type}

/-- An `[a, b]` matrix cast to `[a, b, 1]` reads, at `(i, j, u)`, the matrix at `(i, j)`. -/
theorem shapeCast_ab_ab1_apply {a b : ℕ} (x : (⟨2, ![a, b]⟩ : Shape).Idx → α)
    (h : (⟨2, ![a, b]⟩ : Shape).ShapeCasts ⟨3, ![a, b, 1]⟩) (i : Fin a) (j : Fin b) (u : Fin 1) :
    shapeCast ⟨3, ![a, b, 1]⟩ x h (ix3 i j u) = x (ix2 i j) :=
  shapeCast_apply x h _ _ (by
    have hu : u.val = 0 := by omega
    rw [Shape.rowMajor_val_two, Shape.rowMajor_val_three]
    show i.val * b + j.val = (i.val * b + j.val) * 1 + u.val
    rw [hu, Nat.mul_one, Nat.add_zero])

/-- An `[a, b]` matrix cast to `[a, 1, b]` reads, at `(i, u, j)`, the matrix at `(i, j)`. -/
theorem shapeCast_ab_a1b_apply {a b : ℕ} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_two, Shape.rowMajor_val_three]
    show i.val * b + j.val = (i.val * 1 + u.val) * b + j.val
    rw [hu, Nat.mul_one, Nat.add_zero])

/-- An `[a, b, 1]` array broadcast to `[a, b, c]` reads, at `(i, j, k)`, the operand at `(i, j, 0)`. -/
theorem broadcastTo_ab1_abc_apply {a b c : ℕ} (v : (⟨3, ![a, b, 1]⟩ : Shape).Idx → α)
    (h : (⟨3, ![a, b, 1]⟩ : Shape).Broadcasts ⟨3, ![a, b, c]⟩) (i : Fin a) (j : Fin b) (k : Fin c) :
    broadcastTo ⟨3, ![a, b, c]⟩ v h (ix3 i j k) = v (ix3 i j (0 : Fin 1)) := by
  refine broadcastTo_apply v h (ix3 i j k) (ix3 i j (0 : Fin 1)) fun ax => ?_
  match ax with
  | ⟨0, _⟩ =>
    show i.val = if a = 1 then 0 else i.val
    split
    · have := i.isLt; omega
    · rfl
  | ⟨1, _⟩ =>
    show j.val = if b = 1 then 0 else j.val
    split
    · have := j.isLt; omega
    · rfl
  | ⟨2, _⟩ => rfl

/-- An `[a, 1, c]` array broadcast to `[a, b, c]` reads, at `(i, j, k)`, the operand at `(i, 0, k)`. -/
theorem broadcastTo_a1c_abc_apply {a b c : ℕ} (v : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ v h (ix3 i j k) = v (ix3 i (0 : Fin 1) k) := by
  refine broadcastTo_apply v h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- The two together, on the first two axes: the matrix at `(i, j)`, whatever the third coordinate. -/
theorem bcast_cast_ab1 {a b c : ℕ} (x : (⟨2, ![a, b]⟩ : Shape).Idx → α)
    (hc : (⟨2, ![a, b]⟩ : Shape).ShapeCasts ⟨3, ![a, b, 1]⟩) (hb : (⟨3, ![a, b, 1]⟩ : Shape).Broadcasts ⟨3, ![a, b, c]⟩)
    (i : Fin a) (j : Fin b) (k : Fin c) :
    broadcastTo ⟨3, ![a, b, c]⟩ (shapeCast ⟨3, ![a, b, 1]⟩ x hc) hb (ix3 i j k) = x (ix2 i j) :=
  (broadcastTo_ab1_abc_apply _ hb i j k).trans (shapeCast_ab_ab1_apply x hc i j 0)

/-- The two together, on the first and third axes: the matrix at `(i, k)`, whatever the second coordinate. -/
theorem bcast_cast_a1b {a b c : ℕ} (x : (⟨2, ![a, c]⟩ : Shape).Idx → α)
    (hc : (⟨2, ![a, c]⟩ : Shape).ShapeCasts ⟨3, ![a, 1, c]⟩) (hb : (⟨3, ![a, 1, c]⟩ : Shape).Broadcasts ⟨3, ![a, b, c]⟩)
    (i : Fin a) (j : Fin b) (k : Fin c) :
    broadcastTo ⟨3, ![a, b, c]⟩ (shapeCast ⟨3, ![a, 1, c]⟩ x hc) hb (ix3 i j k) = x (ix2 i k) :=
  (broadcastTo_a1c_abc_apply _ hb i j k).trans (shapeCast_ab_a1b_apply x hc i 0 k)

end Cert.LibPairAxes

end
-- ==== Proof.LibRank3.lean ====
/-
  Rank-3 arrays read at an index, on the extended reals. A lane sum over the last or over the middle axis of an
  `[a, b, c]` array is the sum of the entries along that axis; a lane maximum over the middle axis is the fold of `max`,
  from the accumulator's value, over the entries along it. A `[c]` vector, or a `[1, c]` row, laid along the last axis as
  `[1, 1, c]` and repeated over the first two axes reads the vector at the last coordinate. An `[a, b, 1]` array with
  its unit axis dropped keeps its entries. General lemmas over any extents.
-/
import Idealize.ShloMosaic.Lib.Pipeline.Value
import Idealize.ShloMosaic.Lib.ValueIdx
import Idealize.ShloMosaic.PureOps.Ideal.Laws

noncomputable section

open scoped BigOperators

namespace Cert.LibRank3

open Idealize.ShloMosaic Idealize.ShloMosaic.ValueIdx

variable {α : Type}

/-! ## Reductions along one axis -/

/-- On the extended reals a lane sum over the LAST axis of an `[a, b, c]` array is, at `(i, j)`, the sum of the entries
    `(i, j, ·)`. -/
theorem multiReduction_add_last {a b c : ℕ} (src : FVec Ideal ⟨3, ![a, b, c]⟩ .f32) (acc : BitVec (FTy.bits .f32))
    (h : (⟨3, ![a, b, c]⟩ : Shape).Reduces [2] ⟨2, ![a, b]⟩) (hφ : FKind.Formats .f32) (hacc : acc = FKind.add.neutral .f32 hφ)
    (i : Fin a) (j : Fin b) :
    multiReduction .add [2] ⟨2, ![a, b]⟩ src acc h hφ hacc (ix2 i j) = ∑ k : Fin c, src (ix3 i j k) := by
  refine (Ideal.multiReduction_add_single src acc h hφ hacc (ix2 i j)).trans ?_
  refine Finset.sum_congr rfl fun k _ => congrArg src (funext fun ax => Fin.ext ?_)
  match ax with
  | ⟨0, _⟩ => rfl
  | ⟨1, _⟩ => rfl
  | ⟨2, _⟩ => rfl

/-- On the extended reals a lane sum over the MIDDLE axis of an `[a, b, c]` array is, at `(i, k)`, the sum of the entries
    `(i, ·, k)`. -/
theorem multiReduction_add_mid {a b c : ℕ} (src : FVec Ideal ⟨3, ![a, b, c]⟩ .f32) (acc : BitVec (FTy.bits .f32))
    (h : (⟨3, ![a, b, c]⟩ : Shape).Reduces [1] ⟨2, ![a, c]⟩) (hφ : FKind.Formats .f32) (hacc : acc = FKind.add.neutral .f32 hφ)
    (i : Fin a) (k : Fin c) :
    multiReduction .add [1] ⟨2, ![a, c]⟩ src acc h hφ hacc (ix2 i k) = ∑ j : Fin b, src (ix3 i j k) := by
  refine (Ideal.multiReduction_add_single src acc h hφ hacc (ix2 i k)).trans ?_
  refine Finset.sum_congr rfl fun j _ => congrArg src (funext fun ax => Fin.ext ?_)
  match ax with
  | ⟨0, _⟩ => rfl
  | ⟨1, _⟩ => rfl
  | ⟨2, _⟩ => rfl

/-- On the extended reals a lane maximum over the MIDDLE axis of an `[a, b, c]` array is, at `(i, k)`, the fold of `max`
    from the accumulator's value over the entries `(i, ·, k)`. -/
theorem multiReduction_maximumf_mid {a b c : ℕ} (src : FVec Ideal ⟨3, ![a, b, c]⟩ .f32) (acc : BitVec (FTy.bits .f32))
    (h : (⟨3, ![a, b, c]⟩ : Shape).Reduces [1] ⟨2, ![a, c]⟩) (hφ : FKind.Formats .f32)
    (hacc : acc = FKind.maximumf.neutral .f32 hφ) (i : Fin a) (k : Fin c) :
    multiReduction .maximumf [1] ⟨2, ![a, c]⟩ src acc h hφ hacc (ix2 i k)
      = (Finset.univ : Finset (Fin b)).fold max (Ideal.ofBits .f32 acc) (fun j => src (ix3 i j k)) := by
  refine (Ideal.multiReduction_maximumf_single src acc h hφ hacc (ix2 i k)).trans ?_
  refine congrArg (fun f => Finset.fold max (Ideal.ofBits .f32 acc) f (Finset.univ : Finset (Fin b))) ?_
  exact funext fun j => congrArg src (funext fun ax => Fin.ext (by
    match ax with
    | ⟨0, _⟩ => rfl
    | ⟨1, _⟩ => rfl
    | ⟨2, _⟩ => rfl))

/-! ## A vector along the last axis, repeated over the first two -/

/-- A `[1, 1, c]` array broadcast to `[a, b, c]` reads, at `(i, j, k)`, the operand at `(0, 0, k)`. -/
theorem broadcastTo_11c_abc_apply {a b c : ℕ} (v : (⟨3, ![1, 1, c]⟩ : Shape).Idx → α)
    (h : (⟨3, ![1, 1, c]⟩ : Shape).Broadcasts ⟨3, ![a, b, c]⟩) (i : Fin a) (j : Fin b) (k : Fin c) :
    broadcastTo ⟨3, ![a, b, c]⟩ v h (ix3 i j k) = v (ix3 (0 : Fin 1) (0 : Fin 1) k) := by
  refine broadcastTo_apply v h (ix3 i j k) (ix3 (0 : Fin 1) (0 : Fin 1) k) fun ax => ?_
  match ax with
  | ⟨0, _⟩ => rfl
  | ⟨1, _⟩ => rfl
  | ⟨2, _⟩ =>
    show k.val = if c = 1 then 0 else k.val
    split
    · have := k.isLt; omega
    · rfl

/-- A `[c]` vector cast to `[1, 1, c]` reads, at `(u, w, k)`, the vector at `k`. -/
theorem shapeCast_c_11c_apply {c : ℕ} (x : (⟨1, ![c]⟩ : Shape).Idx → α)
    (h : (⟨1, ![c]⟩ : Shape).ShapeCasts ⟨3, ![1, 1, c]⟩) (u w : Fin 1) (k : Fin c) :
    shapeCast ⟨3, ![1, 1, c]⟩ x h (ix3 u w k) = x (ix1 k) :=
  shapeCast_apply x h _ _ (by
    have hu : u.val = 0 := by omega
    have hw : w.val = 0 := by omega
    rw [Shape.rowMajor_val_one, Shape.rowMajor_val_three]
    show k.val = (u.val * 1 + w.val) * c + k.val
    rw [hu, hw]; simp)

/-- A `[1, c]` row cast to `[1, 1, c]` reads, at `(u, w, k)`, the row at `(0, k)`. -/
theorem shapeCast_1c_11c_apply {c : ℕ} (x : (⟨2, ![1, c]⟩ : Shape).Idx → α)
    (h : (⟨2, ![1, c]⟩ : Shape).ShapeCasts ⟨3, ![1, 1, c]⟩) (u w : Fin 1) (k : Fin c) :
    shapeCast ⟨3, ![1, 1, c]⟩ x h (ix3 u w k) = x (ix2 (0 : Fin 1) k) :=
  shapeCast_apply x h _ _ (by
    have hu : u.val = 0 := by omega
    have hw : w.val = 0 := by omega
    rw [Shape.rowMajor_val_two, Shape.rowMajor_val_three]
    show (0 : ℕ) * c + k.val = (u.val * 1 + w.val) * c + k.val
    rw [hu, hw])

/-- The two together for a vector: laid along the last axis and repeated, it reads the vector at the last coordinate. -/
theorem bcast_cast_c {a b c : ℕ} (x : (⟨1, ![c]⟩ : Shape).Idx → α)
    (hc : (⟨1, ![c]⟩ : Shape).ShapeCasts ⟨3, ![1, 1, c]⟩) (hb : (⟨3, ![1, 1, c]⟩ : Shape).Broadcasts ⟨3, ![a, b, c]⟩)
    (i : Fin a) (j : Fin b) (k : Fin c) :
    broadcastTo ⟨3, ![a, b, c]⟩ (shapeCast ⟨3, ![1, 1, c]⟩ x hc) hb (ix3 i j k) = x (ix1 k) :=
  (broadcastTo_11c_abc_apply _ hb i j k).trans (shapeCast_c_11c_apply x hc 0 0 k)

/-- The two together for a one-row matrix. -/
theorem bcast_cast_1c {a b c : ℕ} (x : (⟨2, ![1, c]⟩ : Shape).Idx → α)
    (hc : (⟨2, ![1, c]⟩ : Shape).ShapeCasts ⟨3, ![1, 1, c]⟩) (hb : (⟨3, ![1, 1, c]⟩ : Shape).Broadcasts ⟨3, ![a, b, c]⟩)
    (i : Fin a) (j : Fin b) (k : Fin c) :
    broadcastTo ⟨3, ![a, b, c]⟩ (shapeCast ⟨3, ![1, 1, c]⟩ x hc) hb (ix3 i j k) = x (ix2 (0 : Fin 1) k) :=
  (broadcastTo_11c_abc_apply _ hb i j k).trans (shapeCast_1c_11c_apply x hc 0 0 k)

/-! ## A trailing unit axis dropped -/

/-- An `[a, b, 1]` array cast to `[a, b]` reads, at `(i, j)`, the operand at `(i, j, 0)`. -/
theorem shapeCast_ab1_ab_apply {a b : ℕ} (x : (⟨3, ![a, b, 1]⟩ : Shape).Idx → α)
    (h : (⟨3, ![a, b, 1]⟩ : Shape).ShapeCasts ⟨2, ![a, b]⟩) (i : Fin a) (j : Fin b) :
    shapeCast ⟨2, ![a, b]⟩ x h (ix2 i j) = x (ix3 i j (0 : Fin 1)) :=
  shapeCast_apply x h _ _ (by
    rw [Shape.rowMajor_val_two, Shape.rowMajor_val_three]
    show (i.val * b + j.val) * 1 + 0 = i.val * b + j.val
    omega)

end Cert.LibRank3

end
-- ==== Proof.KUpdate.lean ====
/-
  The attention region's payloads read at an index, at the ideal instance.

  A grid point `(g, n)` works on query tile `perm g` and key/value tile `n`. Read at a batch `b`, a query row `r` of the
  tile and a head column `h`, the update of the running state is one step of the online softmax recurrence over the
  256 columns of the masked score tile

      tileS c = (Σ_h q(b,r,h) · k(b,c,h)) · 2⁻⁵   if  n·256 + c ≤ perm g · 256 + r,   else -∞,

  namely `m' = max m (sup_c tileS c)`, `l' = e^(m - m') · l + Σ_c e^(tileS c - m')` and
  `a' = e^(m - m') · a + Σ_c e^(tileS c - m') · v(b,c,h)`; the reset state is `(-∞, 0, 0)` and the result is `a / l`.
-/
import proofs.«102945_j49727131353090_2_alg».proof.Proof.KState
import proofs.«102945_j49727131353090_2_alg».proof.Proof.Spec
import proofs.«102945_j49727131353090_2_alg».proof.Proof.LibPairAxes
import proofs.«102945_j49727131353090_2_alg».proof.Proof.LibRank3
import Idealize.ShloMosaic.Lib.Pipeline.Value
import Idealize.ShloMosaic.Lib.ValueIdx
import Idealize.ShloMosaic.Lib.ValueLayout
import Idealize.ShloMosaic.PureOps.Ideal.Laws
import Idealize.ShloMosaic.PureOps.IdealRules

set_option maxRecDepth 16384

noncomputable section

open scoped BigOperators

namespace Cert.KernelIdeal.Hand

open Idealize.ShloMosaic Idealize.ShloMosaic.ValueIdx
open Cert.KernelIdeal Cert.KernelIdeal.Gen

/-! ## The query tile of a grid row and the three conditions -/

/-- The query tile grid row `g` works on. -/
def perm : Fin 8 → Fin 8 := ![0, 6, 2, 4, 7, 1, 5, 3]

/-- The sum of selects the body computes is the permutation's value, row by row. -/
theorem remap_eq (i : grid1.Coords) : remap i = BitVec.ofNat 32 (perm (i 0)).val := by
  have key : ∀ a : Fin 8, ∀ j : grid1.Coords, j 0 = a → remap j = BitVec.ofNat 32 (perm a).val := by
    intro a
    fin_cases a <;> intro j hj <;> simp only [remap, hj] <;> rfl
  exact key (i 0) i rfl

/-- The first key/value tile. -/
theorem cond1_0_iff (i : grid1.Coords) : cond1_0 i ↔ (i 1).val = 0 := by
  have key : ∀ b : Fin 8, ((Scalar.cmpi .ne (Scalar.extui (Scalar.cmpi .eq (BitVec.ofNat 32 b.val) 0#32)) 0#32) = 1#1) ↔ b.val = 0 := by
    decide
  exact key (i 1)

/-- The key/value tile is not past the query tile. -/
theorem cond1_1_iff (i : grid1.Coords) : cond1_1 i ↔ (i 1).val ≤ (perm (i 0)).val := by
  have key : ∀ a b : Fin 8, ((Scalar.cmpi .ne (Scalar.extui (Scalar.cmpi .sle (BitVec.ofNat 32 b.val) (BitVec.ofNat 32 (perm a).val))) 0#32) = 1#1)
      ↔ b.val ≤ (perm a).val := by
    decide
  show ((Scalar.cmpi .ne (Scalar.extui (Scalar.cmpi .sle (kvW i) (remap i))) 0#32) = 1#1) ↔ _
  rw [remap_eq]
  exact key (i 0) (i 1)

/-- The last key/value tile. -/
theorem cond1_2_iff (i : grid1.Coords) : cond1_2 i ↔ (i 1).val = 7 := by
  have key : ∀ b : Fin 8, ((Scalar.cmpi .ne (Scalar.extui (Scalar.cmpi .eq (BitVec.ofNat 32 b.val) 7#32)) 0#32) = 1#1) ↔ b.val = 7 := by
    decide
  exact key (i 1)

/-! ## The reset state and the result, read at an index -/

/-- The single-precision word `0xFF800000` is `-∞`. -/
theorem neg_inf : Ideal.ofBits .f32 0xFF800000#32 = (⊥ : EReal) := by
  simp [Ideal.ofBits, Ideal.ieee]

/-- The reset running maximum is `-∞` everywhere. -/
theorem reset1_m (j : S8x256x1.Idx) : (reset1 (F := Ideal)).1 j = ⊥ := by
  show k1_pay11 (F := Ideal) j = ⊥
  unfold k1_pay11
  rw [shapeCast_self]
  exact neg_inf

/-- The reset running denominator is `0` everywhere. -/
theorem reset1_l (j : S8x256x1.Idx) : (reset1 (F := Ideal)).2.1 j = 0 := by
  show k1_pay12 (F := Ideal) j = 0
  unfold k1_pay12
  rw [shapeCast_self]
  exact Ideal.ofBits_zero_f32

/-- The reset running numerator is `0` everywhere. -/
theorem reset1_a (j : S8x256x64.Idx) : (reset1 (F := Ideal)).2.2 j = 0 := by
  show k1_pay13 (F := Ideal) j = 0
  unfold k1_pay13
  rw [shapeCast_self]
  exact Ideal.ofBits_zero_f32

/-- At the first key/value tile the state is reset. -/
theorem init1_pos {F : FTy → Type} [FloatOps F] [Named F] (i : grid1.Coords) (S : St F) (h : cond1_0 i) :
    init1 i S = reset1 := if_pos h

/-- At any other key/value tile the state is kept. -/
theorem init1_neg {F : FTy → Type} [FloatOps F] [Named F] (i : grid1.Coords) (S : St F) (h : ¬cond1_0 i) :
    init1 i S = S := if_neg h

/-- At a key/value tile past the query tile the state is kept. -/
theorem upd1_neg {F : FTy → Type} [FloatOps F] [Named F] (i : grid1.Coords) (x0 x1 x2 : Vec F S8x256x64 .bf16) (S : St F)
    (h : ¬cond1_1 i) : upd1 i x0 x1 x2 S = S := if_neg h

/-- The result block: the running numerator over the running denominator of its row. -/
theorem fin_at (acc : Vec Ideal S8x256x64 .f32) (l : Vec Ideal S8x256x1 .f32) (b : Fin 8) (r : Fin 256) (h : Fin 64) :
    k1_pay4 (F := Ideal) acc l (ix3 b r h) = Ideal.div (acc (ix3 b r h)) (l (ix3 b r 0)) := by
  unfold k1_pay4
  rw [divf_apply]
  exact congrArg (Ideal.div (acc (ix3 b r h))) (Cert.LibPairAxes.broadcastTo_ab1_abc_apply l _ b r h)

/-! ## Words of row and column numbers -/

/-- A natural number below `4096` read as a signed 32-bit word is itself. -/
theorem toInt_ofNat_small {n : ℕ} (h : n < 4096) : (BitVec.ofNat 32 n).toInt = (n : ℤ) := by
  rw [BitVec.toInt_eq_toNat_cond, BitVec.toNat_ofNat]
  have e : n % 2 ^ 32 = n := Nat.mod_eq_of_lt (by omega)
  rw [e]
  split <;> omega

/-- Tile number times 256 plus the position inside the tile, as words, is the word of the row or column number. -/
theorem word_tile (p r : ℕ) :
    IntOp.addi (Scalar.muli (BitVec.ofNat 32 p) 256#32) (BitVec.ofNat 32 r) = BitVec.ofNat 32 (p * 256 + r) := by
  rw [BitVec.ofNat_add, BitVec.ofNat_mul]
  rfl

/-- The signed comparison `x ≥ y` of two numbers below `4096` as words is the bit of `y ≤ x`. -/
theorem sge_words {x y : ℕ} (hx : x < 4096) (hy : y < 4096) :
    IntOp.cmpi .sge (BitVec.ofNat 32 x) (BitVec.ofNat 32 y) = if y ≤ x then 1#1 else 0#1 := by
  simp only [IntOp.cmpi, BitVec.sle, toInt_ofNat_small hx, toInt_ofNat_small hy]
  by_cases h : y ≤ x
  · have h' : (y : ℤ) ≤ (x : ℤ) := by exact_mod_cast h
    rw [if_pos h, decide_eq_true h']; rfl
  · have h' : ¬ (y : ℤ) ≤ (x : ℤ) := fun hh => h (by exact_mod_cast hh)
    rw [if_neg h, decide_eq_false h']; rfl

/-! ## The two batched products read at an index -/

/-- The dimension numbers of `q · kᵀ`: batch axis 0, contraction over the head axis of both. -/
abbrev dQK := dot_S8x256x64_S8x256x64_S8x256x256_2_2_1_1_0_0
/-- The dimension numbers of `p · v`: batch axis 0, contraction over the column axis of `p` and the row axis of `v`. -/
abbrev dPV := dot_S8x256x256_S8x256x64_S8x256x64_2_1_1_2_0_0

theorem lhs_qk_0 (j : S8x256x256.Idx) (q : dQK.contr.Idx) : (dQK.lhsIdx j q 0).val = (j 0).val := by
  unfold DotDims.lhsIdx
  rw [dif_pos (show (0 : Fin S8x256x64.rank) ∈ dQK.lhsBatch by decide)]
  rfl
theorem lhs_qk_1 (j : S8x256x256.Idx) (q : dQK.contr.Idx) : (dQK.lhsIdx j q 1).val = (j 1).val := by
  unfold DotDims.lhsIdx
  rw [dif_neg (show ¬(1 : Fin S8x256x64.rank) ∈ dQK.lhsBatch by decide),
    dif_pos (show (1 : Fin S8x256x64.rank) ∈ dQK.lhsNonContracting by decide)]
  rfl
theorem lhs_qk_2 (j : S8x256x256.Idx) (q : dQK.contr.Idx) : (dQK.lhsIdx j q 2).val = (q ⟨0, by decide⟩).val :=
  dQK.lhsIdx_val_of_single rfl j q
theorem rhs_qk_0 (j : S8x256x256.Idx) (q : dQK.contr.Idx) : (dQK.rhsIdx j q 0).val = (j 0).val := by
  unfold DotDims.rhsIdx
  rw [dif_pos (show (0 : Fin S8x256x64.rank) ∈ dQK.rhsBatch by decide)]
  rfl
theorem rhs_qk_1 (j : S8x256x256.Idx) (q : dQK.contr.Idx) : (dQK.rhsIdx j q 1).val = (j 2).val := by
  unfold DotDims.rhsIdx
  rw [dif_neg (show ¬(1 : Fin S8x256x64.rank) ∈ dQK.rhsBatch by decide),
    dif_pos (show (1 : Fin S8x256x64.rank) ∈ dQK.rhsNonContracting by decide)]
  rfl
theorem rhs_qk_2 (j : S8x256x256.Idx) (q : dQK.contr.Idx) : (dQK.rhsIdx j q 2).val = (q ⟨0, by decide⟩).val :=
  dQK.rhsIdx_val_of_single rfl j q

/-- `q · kᵀ` into the zero accumulator, at `(b, r, c)`: the sum over the head axis of `q(b,r,h) · k(b,c,h)`. -/
theorem matmul_qk_at (q k : FVec Ideal S8x256x64 .bf16) (b : Fin 8) (r c : Fin 256) :
    FloatOps.matmul dQK none q k (constant S8x256x256 .f32 0x00000000#32) (ix3 b r c)
      = ∑ h : Fin 64, q (ix3 b r h) * k (ix3 b c h) := by
  rw [Ideal.matmul_constant_zero_apply, ← Equiv.sum_comp (ValueIdx.contrEquiv1 dQK 64 rfl rfl).symm]
  refine Finset.sum_congr rfl fun h _ => ?_
  have hk := ValueIdx.contrEquiv1_symm_val dQK 64 rfl rfl h
  have el : dQK.lhsIdx (ix3 b r c) ((ValueIdx.contrEquiv1 dQK 64 rfl rfl).symm h) = ix3 b r h := funext fun a => Fin.ext (by
    match a with
    | ⟨0, _⟩ => exact lhs_qk_0 _ _
    | ⟨1, _⟩ => exact lhs_qk_1 _ _
    | ⟨2, _⟩ => exact (lhs_qk_2 _ _).trans hk)
  have er : dQK.rhsIdx (ix3 b r c) ((ValueIdx.contrEquiv1 dQK 64 rfl rfl).symm h) = ix3 b c h := funext fun a => Fin.ext (by
    match a with
    | ⟨0, _⟩ => exact rhs_qk_0 _ _
    | ⟨1, _⟩ => exact rhs_qk_1 _ _
    | ⟨2, _⟩ => exact (rhs_qk_2 _ _).trans hk)
  rw [el, er]

theorem lhs_pv_0 (j : S8x256x64.Idx) (q : dPV.contr.Idx) : (dPV.lhsIdx j q 0).val = (j 0).val := by
  unfold DotDims.lhsIdx
  rw [dif_pos (show (0 : Fin S8x256x256.rank) ∈ dPV.lhsBatch by decide)]
  rfl
theorem lhs_pv_1 (j : S8x256x64.Idx) (q : dPV.contr.Idx) : (dPV.lhsIdx j q 1).val = (j 1).val := by
  unfold DotDims.lhsIdx
  rw [dif_neg (show ¬(1 : Fin S8x256x256.rank) ∈ dPV.lhsBatch by decide),
    dif_pos (show (1 : Fin S8x256x256.rank) ∈ dPV.lhsNonContracting by decide)]
  rfl
theorem lhs_pv_2 (j : S8x256x64.Idx) (q : dPV.contr.Idx) : (dPV.lhsIdx j q 2).val = (q ⟨0, by decide⟩).val :=
  dPV.lhsIdx_val_of_single rfl j q
theorem rhs_pv_0 (j : S8x256x64.Idx) (q : dPV.contr.Idx) : (dPV.rhsIdx j q 0).val = (j 0).val := by
  unfold DotDims.rhsIdx
  rw [dif_pos (show (0 : Fin S8x256x64.rank) ∈ dPV.rhsBatch by decide)]
  rfl
theorem rhs_pv_1 (j : S8x256x64.Idx) (q : dPV.contr.Idx) : (dPV.rhsIdx j q 1).val = (q ⟨0, by decide⟩).val :=
  dPV.rhsIdx_val_of_single rfl j q
theorem rhs_pv_2 (j : S8x256x64.Idx) (q : dPV.contr.Idx) : (dPV.rhsIdx j q 2).val = (j 2).val := by
  unfold DotDims.rhsIdx
  rw [dif_neg (show ¬(2 : Fin S8x256x64.rank) ∈ dPV.rhsBatch by decide),
    dif_pos (show (2 : Fin S8x256x64.rank) ∈ dPV.rhsNonContracting by decide)]
  rfl

/-- `p · v` into the zero accumulator, at `(b, r, h)`: the sum over the columns of `p(b,r,c) · v(b,c,h)`. -/
theorem matmul_pv_at (p : FVec Ideal S8x256x256 .bf16) (v : FVec Ideal S8x256x64 .bf16) (b : Fin 8) (r : Fin 256) (h : Fin 64) :
    FloatOps.matmul dPV none p v (constant S8x256x64 .f32 0x00000000#32) (ix3 b r h)
      = ∑ c : Fin 256, p (ix3 b r c) * v (ix3 b c h) := by
  rw [Ideal.matmul_constant_zero_apply, ← Equiv.sum_comp (ValueIdx.contrEquiv1 dPV 256 rfl rfl).symm]
  refine Finset.sum_congr rfl fun c _ => ?_
  have hk := ValueIdx.contrEquiv1_symm_val dPV 256 rfl rfl c
  have el : dPV.lhsIdx (ix3 b r h) ((ValueIdx.contrEquiv1 dPV 256 rfl rfl).symm c) = ix3 b r c := funext fun a => Fin.ext (by
    match a with
    | ⟨0, _⟩ => exact lhs_pv_0 _ _
    | ⟨1, _⟩ => exact lhs_pv_1 _ _
    | ⟨2, _⟩ => exact (lhs_pv_2 _ _).trans hk)
  have er : dPV.rhsIdx (ix3 b r h) ((ValueIdx.contrEquiv1 dPV 256 rfl rfl).symm c) = ix3 b c h := funext fun a => Fin.ext (by
    match a with
    | ⟨0, _⟩ => exact rhs_pv_0 _ _
    | ⟨1, _⟩ => exact (rhs_pv_1 _ _).trans hk
    | ⟨2, _⟩ => exact rhs_pv_2 _ _)
  rw [el, er]

/-! ## The lane maximum over the last axis -/

/-- On the extended reals a lane maximum over the LAST axis of an `[a, b, c]` array is, at `(i, j)`, the fold of `max`
    from the accumulator's value over the entries `(i, j, ·)`. -/
theorem multiReduction_maximumf_last {a b c : ℕ} (src : FVec Ideal ⟨3, ![a, b, c]⟩ .f32) (acc : BitVec (FTy.bits .f32))
    (h : (⟨3, ![a, b, c]⟩ : Shape).Reduces [2] ⟨2, ![a, b]⟩) (hφ : FKind.Formats .f32)
    (hacc : acc = FKind.maximumf.neutral .f32 hφ) (i : Fin a) (j : Fin b) :
    multiReduction .maximumf [2] ⟨2, ![a, b]⟩ src acc h hφ hacc (ix2 i j)
      = (Finset.univ : Finset (Fin c)).fold max (Ideal.ofBits .f32 acc) (fun k => src (ix3 i j k)) := by
  refine (Ideal.multiReduction_maximumf_single src acc h hφ hacc (ix2 i j)).trans ?_
  refine congrArg (fun f => Finset.fold max (Ideal.ofBits .f32 acc) f (Finset.univ : Finset (Fin c))) ?_
  exact funext fun k => congrArg src (funext fun ax => Fin.ext (by
    match ax with
    | ⟨0, _⟩ => rfl
    | ⟨1, _⟩ => rfl
    | ⟨2, _⟩ => rfl))

/-- A fold of `max` from `-∞` over a finite index type is the supremum over it. -/
theorem fold_max_bot_univ {n : ℕ} (f : Fin n → EReal) :
    (Finset.univ : Finset (Fin n)).fold max (⊥ : EReal) f = Finset.univ.sup f := rfl

/-! ## The masked score tile -/

/-- The constant the mask writes above the diagonal is `-∞` at the ideal instance. -/
theorem named_neg_big : Named.named (F := Ideal) Cert.KernelIdeal.κ "neg_big" (φ := .f32) 0xFF333332#32 = (⊥ : EReal) :=
  IdealRules.named_const.ideal_named_scalar _ _ _ _ rfl

/-- The masked score tile of a grid point, for batch `b` and query row `r` of the tile: the scaled score against key row
    `c` of the tile where the key's row number is at most the query's, `-∞` elsewhere. -/
def tileS (i : grid1.Coords) (x0 x1 : FVec Ideal S8x256x64 .bf16) (b : Fin 8) (r : Fin 256) : Fin 256 → EReal := fun c =>
  if (i 1).val * 256 + c.val ≤ (perm (i 0)).val * 256 + r.val then
    (∑ h : Fin 64, x0 (ix3 b r h) * x1 (ix3 b c h)) * Cert.Attn.scale
  else ⊥

/-- The mask bit at `(b, r, c)` compares the words of the query's and the key's row numbers. -/
theorem mask_at (kv rm : BitVec 32) (h1 : S8x256x256.Iotas .tc 32 [1]) (h2 : S8x256x256.Iotas .tc 32 [2])
    (b : Fin 8) (r c : Fin 256) :
    cmpi .sge (addi (broadcast S8x256x256 (Scalar.muli rm 256#32)) (iota .tc S8x256x256 32 [1] h1))
        (addi (broadcast S8x256x256 (Scalar.muli kv 256#32)) (iota .tc S8x256x256 32 [2] h2)) (ix3 b r c)
      = IntOp.cmpi .sge (IntOp.addi (Scalar.muli rm 256#32) (BitVec.ofNat 32 r.val))
          (IntOp.addi (Scalar.muli kv 256#32) (BitVec.ofNat 32 c.val)) := by
  show IntOp.cmpi .sge (IntOp.addi _ (iota .tc S8x256x256 32 [1] h1 (ix3 b r c)))
      (IntOp.addi _ (iota .tc S8x256x256 32 [2] h2 (ix3 b r c))) = _
  rw [iota_single_apply, iota_single_apply]
  rfl

/-- Selecting on the bit of a decidable proposition is the `if` on it. -/
theorem select_bit {α : Type} (p : Prop) [Decidable p] (x y : α) :
    Scalar.select (if p then 1#1 else 0#1) x y = if p then x else y := by
  by_cases h : p
  · rw [if_pos h, if_pos h]; exact select_one _ _
  · rw [if_neg h, if_neg h]; exact select_zero _ _

/-- The masked, scaled product `q · kᵀ` of a grid point's blocks, read at `(b, r, c)`, is the masked score tile. -/
theorem pay6_at (i : grid1.Coords) (x0 x1 : FVec Ideal S8x256x64 .bf16) (b : Fin 8) (r c : Fin 256) :
    k1_pay6 (F := Ideal) (kvW i) (remap i) x0 x1 (ix3 b r c) = tileS i x0 x1 b r c := by
  have hp := (perm (i 0)).isLt
  have hn : (i 1).val < 8 := (i 1).isLt
  have hr := r.isLt
  have hc := c.isLt
  unfold k1_pay6
  rw [select_apply, mask_at, mulf_apply, broadcast_apply, broadcast_apply, shapeCast_self, shapeCast_self]
  simp only [matmul]
  rw [matmul_qk_at, remap_eq]
  show Scalar.select (IntOp.cmpi .sge
      (IntOp.addi (Scalar.muli (BitVec.ofNat 32 (perm (i 0)).val) 256#32) (BitVec.ofNat 32 r.val))
      (IntOp.addi (Scalar.muli (BitVec.ofNat 32 (i 1).val) 256#32) (BitVec.ofNat 32 c.val))) _ _ = _
  rw [word_tile, word_tile, sge_words (by omega) (by omega), select_bit, named_neg_big]
  rfl

/-! ## One step of the recurrence, read at an index -/

/-- The running maximum after the tile: the old one against the tile's maximum. -/
abbrev newM (i : grid1.Coords) (x0 x1 : FVec Ideal S8x256x64 .bf16) (m : FVec Ideal S8x256x1 .f32) (b : Fin 8) (r : Fin 256) : EReal :=
  max (m (ix3 b r 0)) (Finset.univ.sup (tileS i x0 x1 b r))

theorem pay7_at (i : grid1.Coords) (x0 x1 : FVec Ideal S8x256x64 .bf16) (m : FVec Ideal S8x256x1 .f32) (b : Fin 8) (r : Fin 256) :
    k1_pay7 (F := Ideal) (kvW i) (remap i) x0 x1 m (ix3 b r 0) = newM i x0 x1 m b r := by
  unfold k1_pay7
  rw [maximumf_apply, Cert.LibPairAxes.shapeCast_ab_ab1_apply]
  refine congrArg (max (m (ix3 b r 0))) ?_
  refine (multiReduction_maximumf_last (k1_pay6 (F := Ideal) (kvW i) (remap i) x0 x1) 0xFF800000#32 _ _ _ b r).trans ?_
  rw [neg_inf, fold_max_bot_univ]
  exact congrArg _ (funext fun c => pay6_at i x0 x1 b r c)

theorem pay8_at (i : grid1.Coords) (x0 x1 : FVec Ideal S8x256x64 .bf16) (m m2 : FVec Ideal S8x256x1 .f32) (b : Fin 8) (r : Fin 256) :
    k1_pay8 (F := Ideal) (kvW i) (remap i) x0 x1 m m2 (ix3 b r 0) = Ideal.exp (m2 (ix3 b r 0) - newM i x0 x1 m b r) := by
  unfold k1_pay8
  show Ideal.exp (subf m2 (k1_pay7 (F := Ideal) (kvW i) (remap i) x0 x1 m) (ix3 b r 0)) = _
  rw [subf_apply, pay7_at]

theorem pay9_at (i : grid1.Coords) (x0 x1 : FVec Ideal S8x256x64 .bf16) (m : FVec Ideal S8x256x1 .f32) (b : Fin 8) (r c : Fin 256) :
    k1_pay9 (F := Ideal) (kvW i) (remap i) x0 x1 m (ix3 b r c) = Ideal.exp (tileS i x0 x1 b r c - newM i x0 x1 m b r) := by
  unfold k1_pay9
  show Ideal.exp (subf (k1_pay6 (F := Ideal) (kvW i) (remap i) x0 x1)
    (broadcastTo S8x256x256 (k1_pay7 (F := Ideal) (kvW i) (remap i) x0 x1 m) broadcasts_S8x256x1_S8x256x256) (ix3 b r c)) = _
  rw [subf_apply, pay6_at, Cert.LibPairAxes.broadcastTo_ab1_abc_apply, pay7_at]

theorem pay10_at (i : grid1.Coords) (x0 x1 : FVec Ideal S8x256x64 .bf16) (m m2 l : FVec Ideal S8x256x1 .f32) (b : Fin 8) (r : Fin 256) :
    k1_pay10 (F := Ideal) (kvW i) (remap i) x0 x1 m m2 l (ix3 b r 0)
      = Ideal.exp (m2 (ix3 b r 0) - newM i x0 x1 m b r) * l (ix3 b r 0)
        + ∑ c : Fin 256, Ideal.exp (tileS i x0 x1 b r c - newM i x0 x1 m b r) := by
  unfold k1_pay10
  rw [addf_apply, mulf_apply, pay8_at, Cert.LibPairAxes.shapeCast_ab_ab1_apply]
  refine congrArg (HAdd.hAdd (_ : EReal)) ?_
  refine (Cert.LibRank3.multiReduction_add_last (k1_pay9 (F := Ideal) (kvW i) (remap i) x0 x1 m) 0x00000000#32 _ _ _ b r).trans ?_
  exact Finset.sum_congr rfl fun c _ => pay9_at i x0 x1 m b r c

theorem pay2_at (v38 : FVec Ideal S8x256x64 .bf16) (v59 : FVec Ideal S8x256x1 .f32) (v62 : FVec Ideal S8x256x256 .f32)
    (v71 : FVec Ideal S8x256x64 .f32) (b : Fin 8) (r : Fin 256) (h : Fin 64) :
    k1_pay2 (F := Ideal) v38 v59 v62 v71 (ix3 b r h)
      = v59 (ix3 b r 0) * v71 (ix3 b r h) + ∑ c : Fin 256, v62 (ix3 b r c) * v38 (ix3 b c h) := by
  unfold k1_pay2
  rw [shapeCast_self, addf_apply, mulf_apply, Cert.LibPairAxes.broadcastTo_ab1_abc_apply]
  simp only [matmul]
  rw [matmul_pv_at]
  rfl

/-- The running maximum after an update. -/
theorem upd_m (i : grid1.Coords) (x0 x1 x2 : Vec Ideal S8x256x64 .bf16) (S : St Ideal) (hc : cond1_1 i) (b : Fin 8) (r : Fin 256) :
    (upd1 i x0 x1 x2 S).1 (ix3 b r 0) = max (S.1 (ix3 b r 0)) (Finset.univ.sup (tileS i x0 x1 b r)) := by
  unfold upd1
  rw [if_pos hc]
  show k1_pay3 (k1_pay7 (F := Ideal) (kvW i) (remap i) x0 x1 S.1) (ix3 b r 0) = _
  unfold k1_pay3
  rw [shapeCast_self]
  exact pay7_at i x0 x1 S.1 b r

/-- The running denominator after an update. -/
theorem upd_l (i : grid1.Coords) (x0 x1 x2 : Vec Ideal S8x256x64 .bf16) (S : St Ideal) (hc : cond1_1 i) (b : Fin 8) (r : Fin 256) :
    (upd1 i x0 x1 x2 S).2.1 (ix3 b r 0)
      = Ideal.exp (S.1 (ix3 b r 0) - newM i x0 x1 S.1 b r) * S.2.1 (ix3 b r 0)
        + ∑ c : Fin 256, Ideal.exp (tileS i x0 x1 b r c - newM i x0 x1 S.1 b r) := by
  unfold upd1
  rw [if_pos hc]
  show k1_pay1 (k1_pay10 (F := Ideal) (kvW i) (remap i) x0 x1 S.1 S.1 S.2.1) (ix3 b r 0) = _
  unfold k1_pay1
  rw [shapeCast_self]
  exact pay10_at i x0 x1 S.1 S.1 S.2.1 b r

/-- The running numerator after an update. -/
theorem upd_a (i : grid1.Coords) (x0 x1 x2 : Vec Ideal S8x256x64 .bf16) (S : St Ideal) (hc : cond1_1 i) (b : Fin 8) (r : Fin 256)
    (h : Fin 64) :
    (upd1 i x0 x1 x2 S).2.2 (ix3 b r h)
      = Ideal.exp (S.1 (ix3 b r 0) - newM i x0 x1 S.1 b r) * S.2.2 (ix3 b r h)
        + ∑ c : Fin 256, Ideal.exp (tileS i x0 x1 b r c - newM i x0 x1 S.1 b r) * x2 (ix3 b c h) := by
  unfold upd1
  rw [if_pos hc]
  show k1_pay2 (F := Ideal) (k1_pay5 x2) (k1_pay8 (F := Ideal) (kvW i) (remap i) x0 x1 S.1 S.1)
    (k1_pay9 (F := Ideal) (kvW i) (remap i) x0 x1 S.1) S.2.2 (ix3 b r h) = _
  rw [pay2_at, pay8_at]
  refine congrArg (HAdd.hAdd (_ : EReal)) (Finset.sum_congr rfl fun c _ => ?_)
  rw [pay9_at]
  unfold k1_pay5
  rw [shapeCast_self]

end Cert.KernelIdeal.Hand

end
-- ==== Proof.Online.lean ====
/-
  The blocked causal attention `flash` equals the textbook causal attention `attn` on real inputs.

  Row `i`'s masked scores are real numbers at the columns `j ≤ i` and `-∞` past the diagonal. A score of `-∞` has
  weight `e^(-∞ - μ) = 0`, so the closed forms of the online softmax recurrence hold for scores that are real or `-∞`
  as soon as the first block holds one real score (the running maximum is then a real number from the first block on):

      l = Σ_{k<n} Σ_j e^(s k j - m),   a = Σ_{k<n} Σ_j e^(s k j - m) · v k j,   m = the maximum of the scores seen.

  A block that is `-∞` throughout changes none of `m`, `l`, `a` (it multiplies by `e^0 = 1` and adds `0`), so stopping
  after block `i / 256` gives the same state as running over all 8 blocks. The 8 blocks of 256 columns are the 2048
  columns of the row (`j = k · 256 + c`), so the sums and the maximum over blocks are those over the row. Finally the
  denominator is a positive real (it contains the positive weight of column `i`), division by it is multiplication by
  its reciprocal, and that distributes over the finite real sum: `(Σ_j w_j v_j) / L = Σ_j (w_j / L) v_j`.
-/
import proofs.«102945_j49727131353090_2_alg».proof.Proof.Spec

noncomputable section

open scoped BigOperators

namespace Cert.Attn

open Idealize.ShloMosaic Idealize.ShloMosaic.ValueIdx Cert.Attn.Online Cert.Attn.RealLaw

section Masked

variable {J : Type*} [Fintype J]

/-- Scores that are the real `s' k j` where `p k j` holds and `-∞` elsewhere. -/
def msk (p : ℕ → J → Prop) [∀ k j, Decidable (p k j)] (s' : ℕ → J → ℝ) : ℕ → J → EReal := fun k j =>
  if p k j then ((s' k j : ℝ) : EReal) else ⊥

/-- The real weight of a masked score against the real maximum `μ`: `e^(s' - μ)`, or `0` at a score of `-∞`. -/
def wt (p : ℕ → J → Prop) [∀ k j, Decidable (p k j)] (s' : ℕ → J → ℝ) (μ : ℝ) : ℕ → J → ℝ := fun k j =>
  if p k j then Real.exp (s' k j - μ) else 0

variable (p : ℕ → J → Prop) [∀ k j, Decidable (p k j)] (s' : ℕ → J → ℝ)

/-- The exponential of a masked score minus a real is the real weight. -/
theorem exp_msk (μ : ℝ) (k : ℕ) (j : J) : Ideal.exp (msk p s' k j - (μ : EReal)) = ((wt p s' μ k j : ℝ) : EReal) := by
  unfold msk wt
  split_ifs
  · rw [← EReal.coe_sub, Ideal.exp_coe]
  · rw [EReal.bot_sub, Ideal.exp_bot, EReal.coe_zero]

/-- Changing the maximum rescales every weight by the same real factor. -/
theorem wt_rescale (μ μ' : ℝ) (k : ℕ) (j : J) : Real.exp (μ - μ') * wt p s' μ k j = wt p s' μ' k j := by
  unfold wt
  split_ifs
  · rw [← Real.exp_add]; congr 1; ring
  · rw [mul_zero]

/-- A weight is nonnegative. -/
theorem wt_nonneg (μ : ℝ) (k : ℕ) (j : J) : 0 ≤ wt p s' μ k j := by
  unfold wt
  split_ifs
  · exact (Real.exp_pos _).le
  · exact le_rfl

/-- With one real score in the first block the running maximum is a real number from the first block on. -/
theorem runM_msk_real (j0 : J) (h0 : p 0 j0) (n : ℕ) : ∃ μ : ℝ, runM (msk p s') (n + 1) = (μ : EReal) := by
  have hlt : runM (msk p s') (n + 1) < ⊤ := by
    rw [runM_eq_sup, Finset.sup_lt_iff bot_lt_top]
    intro k _
    rw [Finset.sup_lt_iff bot_lt_top]
    intro j _
    unfold msk
    split_ifs
    · exact EReal.coe_lt_top _
    · exact bot_lt_top
  have hgt : ((s' 0 j0 : ℝ) : EReal) ≤ runM (msk p s') (n + 1) := by
    rw [runM_eq_sup]
    have h1 : msk p s' 0 j0 ≤ Finset.univ.sup (msk p s' 0) := Finset.le_sup (Finset.mem_univ j0)
    have h2 : Finset.univ.sup (msk p s' 0) ≤ (Finset.range (n + 1)).sup fun k => Finset.univ.sup (msk p s' k) :=
      Finset.le_sup (f := fun k => Finset.univ.sup (msk p s' k)) (Finset.mem_range.mpr (Nat.succ_pos n))
    have h3 : msk p s' 0 j0 = ((s' 0 j0 : ℝ) : EReal) := by unfold msk; rw [if_pos h0]
    exact h3 ▸ h1.trans h2
  refine ⟨(runM (msk p s') (n + 1)).toReal, (EReal.coe_toReal hlt.ne ?_).symm⟩
  exact ne_of_gt (lt_of_lt_of_le (EReal.bot_lt_coe _) hgt)

/-- The running numerator in closed form, for masked scores with a real score in the first block. -/
theorem runA_closed_msk (v' : ℕ → J → ℝ) (j0 : J) (h0 : p 0 j0) (n : ℕ) :
    runA (msk p s') (fun k j => ((v' k j : ℝ) : EReal)) n
      = ∑ k ∈ Finset.range n, ∑ j, Ideal.exp (msk p s' k j - runM (msk p s') n) * ((v' k j : ℝ) : EReal) := by
  induction n with
  | zero => simp [runA]
  | succ n ih =>
    rw [runA, ih, Finset.sum_range_succ]
    refine congrArg (· + _) ?_
    cases n with
    | zero => simp
    | succ n =>
      obtain ⟨μ, hμ⟩ := runM_msk_real p s' j0 h0 n
      obtain ⟨μ', hμ'⟩ := runM_msk_real p s' j0 h0 (n + 1)
      simp only [hμ, hμ', exp_msk, ← EReal.coe_sub, Ideal.exp_coe, ← EReal.coe_mul, ← coe_sum]
      refine congrArg _ ?_
      rw [Finset.mul_sum]
      refine Finset.sum_congr rfl fun k _ => ?_
      rw [Finset.mul_sum]
      refine Finset.sum_congr rfl fun j _ => ?_
      rw [← mul_assoc, wt_rescale]

/-- The running denominator in closed form, for masked scores with a real score in the first block. -/
theorem runL_closed_msk (j0 : J) (h0 : p 0 j0) (n : ℕ) :
    runL (msk p s') n = ∑ k ∈ Finset.range n, ∑ j, Ideal.exp (msk p s' k j - runM (msk p s') n) := by
  induction n with
  | zero => simp [runL]
  | succ n ih =>
    rw [runL, ih, Finset.sum_range_succ]
    refine congrArg (· + _) ?_
    cases n with
    | zero => simp
    | succ n =>
      obtain ⟨μ, hμ⟩ := runM_msk_real p s' j0 h0 n
      obtain ⟨μ', hμ'⟩ := runM_msk_real p s' j0 h0 (n + 1)
      simp only [hμ, hμ', exp_msk, ← EReal.coe_sub, Ideal.exp_coe, ← EReal.coe_mul, ← coe_sum]
      refine congrArg _ ?_
      rw [Finset.mul_sum]
      refine Finset.sum_congr rfl fun k _ => ?_
      rw [Finset.mul_sum]
      refine Finset.sum_congr rfl fun j _ => ?_
      rw [wt_rescale]

end Masked

section Stable

variable {J : Type*} [Fintype J]

/-- A block of `-∞` scores leaves the running maximum unchanged. -/
theorem runM_succ_bot (s : ℕ → J → EReal) (n : ℕ) (hb : ∀ j, s n j = ⊥) : runM s (n + 1) = runM s n := by
  have h : Finset.univ.sup (s n) = ⊥ := by
    rw [Finset.sup_eq_bot_iff]
    exact fun j _ => hb j
  rw [runM, h]
  exact max_eq_left bot_le

/-- After a real running maximum, a block of `-∞` scores leaves the running denominator unchanged:
    it is multiplied by `e^0 = 1` and `0` is added. -/
theorem runL_succ_bot (s : ℕ → J → EReal) (n : ℕ) (hb : ∀ j, s n j = ⊥) (μ : ℝ) (hμ : runM s n = (μ : EReal)) :
    runL s (n + 1) = runL s n := by
  rw [runL, runM_succ_bot s n hb, hμ]
  simp only [hb, EReal.bot_sub, Ideal.exp_bot, Finset.sum_const_zero, add_zero, ← EReal.coe_sub, sub_self, Ideal.exp_coe,
    Real.exp_zero, EReal.coe_one, one_mul]

/-- After a real running maximum, a block of `-∞` scores leaves the running numerator unchanged. -/
theorem runA_succ_bot (s v : ℕ → J → EReal) (n : ℕ) (hb : ∀ j, s n j = ⊥) (μ : ℝ) (hμ : runM s n = (μ : EReal)) :
    runA s v (n + 1) = runA s v n := by
  rw [runA, runM_succ_bot s n hb, hμ]
  simp only [hb, EReal.bot_sub, Ideal.exp_bot, zero_mul, Finset.sum_const_zero, add_zero, ← EReal.coe_sub, sub_self,
    Ideal.exp_coe, Real.exp_zero, EReal.coe_one, one_mul]

/-- Any number of trailing blocks of `-∞` scores leaves the whole running state unchanged. -/
theorem run_stable (s v : ℕ → J → EReal) (N : ℕ) (μ : ℝ) (hμ : runM s N = (μ : EReal)) (m : ℕ)
    (hb : ∀ k, N ≤ k → k < N + m → ∀ j, s k j = ⊥) :
    runM s (N + m) = runM s N ∧ runL s (N + m) = runL s N ∧ runA s v (N + m) = runA s v N := by
  induction m with
  | zero => exact ⟨rfl, rfl, rfl⟩
  | succ m ih =>
    obtain ⟨h1, h2, h3⟩ := ih fun k hk hk' => hb k hk (by omega)
    have hb' : ∀ j, s (N + m) j = ⊥ := hb (N + m) (by omega) (by omega)
    have hμ' : runM s (N + m) = (μ : EReal) := h1.trans hμ
    exact ⟨(runM_succ_bot s (N + m) hb').trans h1, (runL_succ_bot s (N + m) hb' μ hμ').trans h2,
      (runA_succ_bot s v (N + m) hb' μ hμ').trans h3⟩

end Stable

section Blocks

/-- Column `k · 256 + c` lies in the row of 2048 columns for a block `k < 8`. -/
theorem col_lt {k : ℕ} (hk : k < 8) (c : Fin 256) : k * 256 + c.val < 2048 := by
  have := c.isLt
  omega

/-- A sum over the 2048 columns is the sum over 8 blocks of 256 columns. -/
theorem sum_blocks {M : Type*} [AddCommMonoid M] (f : Fin 2048 → M) :
    ∑ j, f j = ∑ k ∈ Finset.range 8, ∑ c : Fin 256, if h : k * 256 + c.val < 2048 then f ⟨k * 256 + c.val, h⟩ else 0 := by
  have e : ∑ j : Fin 2048, f j = ∑ q : Fin 8 × Fin 256, f (finProdFinEquiv q) :=
    (Equiv.sum_comp (finProdFinEquiv : Fin 8 × Fin 256 ≃ Fin (8 * 256)) f).symm
  rw [e, Fintype.sum_prod_type,
    ← Fin.sum_univ_eq_sum_range (fun k => ∑ c : Fin 256, if h : k * 256 + c.val < 2048 then f ⟨k * 256 + c.val, h⟩ else 0) 8]
  refine Finset.sum_congr rfl fun k _ => Finset.sum_congr rfl fun c _ => ?_
  rw [dif_pos (col_lt k.isLt c)]
  congr 1
  apply Fin.ext
  rw [finProdFinEquiv_apply_val]
  show c.val + 256 * k.val = k.val * 256 + c.val
  omega

/-- A maximum over the 2048 columns is the maximum over 8 blocks of 256 columns. -/
theorem sup_blocks (f : Fin 2048 → EReal) :
    Finset.univ.sup f = (Finset.range 8).sup fun k => Finset.univ.sup fun c : Fin 256 =>
      if h : k * 256 + c.val < 2048 then f ⟨k * 256 + c.val, h⟩ else ⊥ := by
  apply le_antisymm
  · apply Finset.sup_le
    intro j _
    have hj := j.isLt
    have hk : j.val / 256 < 8 := by omega
    have hc : j.val % 256 < 256 := Nat.mod_lt _ (by norm_num)
    have hjj : j.val / 256 * 256 + j.val % 256 = j.val := by omega
    have h1 : f j ≤ Finset.univ.sup fun c : Fin 256 =>
        if h : j.val / 256 * 256 + c.val < 2048 then f ⟨j.val / 256 * 256 + c.val, h⟩ else ⊥ := by
      refine le_trans (le_of_eq ?_) (Finset.le_sup (f := fun c : Fin 256 =>
        if h : j.val / 256 * 256 + c.val < 2048 then f ⟨j.val / 256 * 256 + c.val, h⟩ else ⊥) (Finset.mem_univ ⟨j.val % 256, hc⟩))
      show f j = if h : j.val / 256 * 256 + j.val % 256 < 2048 then f ⟨j.val / 256 * 256 + j.val % 256, h⟩ else ⊥
      rw [dif_pos (by omega)]
      exact congrArg f (Fin.ext hjj.symm)
    exact h1.trans (Finset.le_sup (f := fun k => Finset.univ.sup fun c : Fin 256 =>
      if h : k * 256 + c.val < 2048 then f ⟨k * 256 + c.val, h⟩ else ⊥) (Finset.mem_range.mpr hk))
  · apply Finset.sup_le
    intro k _
    apply Finset.sup_le
    intro c _
    split_ifs with h
    · exact Finset.le_sup (Finset.mem_univ _)
    · exact bot_le

end Blocks

section Final

/-- A softmax-weighted sum: for real weights `w` with a nonzero total, dividing the weighted sum by the total is the
    sum of the divided weights times the values. -/
theorem div_sum {J : Type*} [Fintype J] (w v : J → ℝ) (hL : ∑ j, w j ≠ 0) :
    Ideal.div (∑ j, ((w j : ℝ) : EReal) * ((v j : ℝ) : EReal)) (∑ j, ((w j : ℝ) : EReal))
      = ∑ j, Ideal.div ((w j : ℝ) : EReal) (∑ j', ((w j' : ℝ) : EReal)) * ((v j : ℝ) : EReal) := by
  simp only [← coe_sum, Ideal.div_coe hL, ← EReal.coe_mul]
  refine congrArg _ ?_
  rw [Finset.sum_mul]
  refine Finset.sum_congr rfl fun j _ => ?_
  ring

/-- A row of 2048 scores in blocks of 256 columns (`-∞` past the last column). -/
def blkS (ms : Fin 2048 → EReal) : ℕ → Fin 256 → EReal := fun n c =>
  if h : n * 256 + c.val < 2048 then ms ⟨n * 256 + c.val, h⟩ else ⊥

/-- A column of 2048 values in blocks of 256 rows (`0` past the last row). -/
def blkV (pv : Fin 2048 → EReal) : ℕ → Fin 256 → EReal := fun n c =>
  if h : n * 256 + c.val < 2048 then pv ⟨n * 256 + c.val, h⟩ else 0

/-- One row: the online softmax recurrence over the blocks `0 … i / 256` of causally masked real scores, divided at
    the end, is the softmax of the masked row applied to the values. -/
theorem row_core (i : Fin 2048) (sr vr : Fin 2048 → ℝ) (ms pv : Fin 2048 → EReal)
    (hms : ∀ j, ms j = if j ≤ i then ((sr j : ℝ) : EReal) else ⊥) (hpv : ∀ j, pv j = ((vr j : ℝ) : EReal)) :
    Ideal.div (runA (blkS ms) (blkV pv) (i.val / 256 + 1)) (runL (blkS ms) (i.val / 256 + 1))
      = ∑ j, Ideal.div (Ideal.exp (ms j - Finset.univ.sup ms)) (∑ j'', Ideal.exp (ms j'' - Finset.univ.sup ms)) * pv j := by
  have hi := i.isLt
  -- the blocks as masked real scores and real values
  let p : ℕ → Fin 256 → Prop := fun k c => k * 256 + c.val ≤ i.val
  let s' : ℕ → Fin 256 → ℝ := fun k c => if h : k * 256 + c.val < 2048 then sr ⟨k * 256 + c.val, h⟩ else 0
  let v' : ℕ → Fin 256 → ℝ := fun k c => if h : k * 256 + c.val < 2048 then vr ⟨k * 256 + c.val, h⟩ else 0
  have hS : blkS ms = msk p s' := by
    funext k c
    unfold blkS msk
    by_cases h : k * 256 + c.val < 2048
    · rw [dif_pos h, hms]
      by_cases hle : k * 256 + c.val ≤ i.val
      · have hle' : (⟨k * 256 + c.val, h⟩ : Fin 2048) ≤ i := hle
        rw [if_pos hle', if_pos hle]
        show _ = (((if h : k * 256 + c.val < 2048 then sr ⟨k * 256 + c.val, h⟩ else 0 : ℝ)) : EReal)
        rw [dif_pos h]
      · have hle' : ¬ (⟨k * 256 + c.val, h⟩ : Fin 2048) ≤ i := hle
        rw [if_neg hle', if_neg hle]
    · have hle : ¬ k * 256 + c.val ≤ i.val := by omega
      rw [dif_neg h, if_neg hle]
  have hV : blkV pv = fun k c => ((v' k c : ℝ) : EReal) := by
    funext k c
    unfold blkV
    show _ = (((if h : k * 256 + c.val < 2048 then vr ⟨k * 256 + c.val, h⟩ else 0 : ℝ)) : EReal)
    by_cases h : k * 256 + c.val < 2048
    · rw [dif_pos h, dif_pos h, hpv]
    · rw [dif_neg h, dif_neg h, EReal.coe_zero]
  have h0 : p 0 (0 : Fin 256) := by
    show 0 * 256 + (0 : Fin 256).val ≤ i.val
    simp
  -- the blocks past the diagonal block are `-∞` throughout: run over all 8 blocks
  obtain ⟨μN, hμN⟩ := runM_msk_real p s' 0 h0 (i.val / 256)
  have hstab := run_stable (msk p s') (fun k c => ((v' k c : ℝ) : EReal)) (i.val / 256 + 1) μN hμN (8 - (i.val / 256 + 1))
    (fun k hk _ c => by
      have hc := c.isLt
      have hle : ¬ k * 256 + c.val ≤ i.val := by omega
      unfold msk
      rw [if_neg hle])
  rw [show i.val / 256 + 1 + (8 - (i.val / 256 + 1)) = 8 by omega] at hstab
  obtain ⟨-, hL8, hA8⟩ := hstab
  rw [hS, hV, ← hL8, ← hA8, runA_closed_msk p s' v' 0 h0 8, runL_closed_msk p s' 0 h0 8]
  -- the maximum over the blocks is the maximum of the row, a real number
  have hsup : Finset.univ.sup ms = runM (msk p s') 8 := by
    rw [runM_eq_sup, sup_blocks ms, ← hS]
    rfl
  obtain ⟨μ, hμ⟩ := runM_msk_real p s' 0 h0 7
  rw [hsup, hμ]
  -- the real weights of the row
  let w : Fin 2048 → ℝ := fun j => if j ≤ i then Real.exp (sr j - μ) else 0
  have hw : ∀ j, Ideal.exp (ms j - (μ : EReal)) = ((w j : ℝ) : EReal) := by
    intro j
    show _ = (((if j ≤ i then Real.exp (sr j - μ) else 0 : ℝ)) : EReal)
    rw [hms]
    split_ifs
    · rw [← EReal.coe_sub, Ideal.exp_coe]
    · rw [EReal.bot_sub, Ideal.exp_bot, EReal.coe_zero]
  have hcol : ∀ k ∈ Finset.range 8, ∀ c : Fin 256, k * 256 + c.val < 2048 := fun k hk c => col_lt (Finset.mem_range.mp hk) c
  have hE : ∀ k (hk : k ∈ Finset.range 8) (c : Fin 256),
      Ideal.exp (msk p s' k c - (μ : EReal)) = ((w ⟨k * 256 + c.val, hcol k hk c⟩ : ℝ) : EReal) := by
    intro k hk c
    rw [← hS, blkS, dif_pos (hcol k hk c)]
    exact hw _
  have hVr : ∀ k (hk : k ∈ Finset.range 8) (c : Fin 256), v' k c = vr ⟨k * 256 + c.val, hcol k hk c⟩ :=
    fun k hk c => dif_pos (hcol k hk c)
  have hnum : ∑ k ∈ Finset.range 8, ∑ c : Fin 256, Ideal.exp (msk p s' k c - (μ : EReal)) * ((v' k c : ℝ) : EReal)
      = ∑ j, ((w j : ℝ) : EReal) * ((vr j : ℝ) : EReal) := by
    rw [sum_blocks fun j => ((w j : ℝ) : EReal) * ((vr j : ℝ) : EReal)]
    refine Finset.sum_congr rfl fun k hk => Finset.sum_congr rfl fun c _ => ?_
    rw [dif_pos (hcol k hk c), hE k hk c, hVr k hk c]
  have hden : ∑ k ∈ Finset.range 8, ∑ c : Fin 256, Ideal.exp (msk p s' k c - (μ : EReal)) = ∑ j, ((w j : ℝ) : EReal) := by
    rw [sum_blocks fun j => ((w j : ℝ) : EReal)]
    refine Finset.sum_congr rfl fun k hk => Finset.sum_congr rfl fun c _ => ?_
    rw [dif_pos (hcol k hk c), hE k hk c]
  -- the total weight is positive: every weight is nonnegative and column `i`'s is positive
  have hpos : 0 < ∑ j, w j := by
    refine Finset.sum_pos' (fun j _ => ?_) ⟨i, Finset.mem_univ i, ?_⟩
    · show 0 ≤ (if j ≤ i then Real.exp (sr j - μ) else 0 : ℝ)
      split_ifs
      · exact (Real.exp_pos _).le
      · exact le_rfl
    · show 0 < (if i ≤ i then Real.exp (sr i - μ) else 0 : ℝ)
      rw [if_pos le_rfl]
      exact Real.exp_pos _
  rw [hnum, hden]
  simp only [hw, hpv]
  exact div_sum w vr hpos.ne'

/-- The score scale is the real `2⁻⁵`: sign `0`, exponent field `122`, significand field `0`. -/
theorem scale_eq : scale = (((1 / 32 : ℝ)) : EReal) := by
  unfold scale
  simp [Ideal.ofBits, Ideal.ieee, -EReal.coe_mul]; norm_num

/-- A projection of real inputs is real. -/
theorem isReal_proj (x : SX.Idx → EReal) (W : SW.Idx → EReal) (hx : ∀ i, IsReal (x i)) (hW : ∀ i, IsReal (W i))
    (b : Fin 8) (t : Fin 2048) (h : Fin 64) : IsReal (proj x W b t h) :=
  isReal_sum_mul (fun _ => hx _) (fun _ => hW _)

/-- A score of real inputs is real. -/
theorem isReal_score (x : SX.Idx → EReal) (Wq Wk : SW.Idx → EReal) (hx : ∀ i, IsReal (x i)) (hq : ∀ i, IsReal (Wq i))
    (hk : ∀ i, IsReal (Wk i)) (b : Fin 8) (i j : Fin 2048) : IsReal (score x Wq Wk b i j) :=
  isReal_mul (isReal_sum_mul (fun _ => isReal_proj x Wq hx hq _ _ _) (fun _ => isReal_proj x Wk hx hk _ _ _))
    ⟨1 / 32, scale_eq⟩

/-- On real inputs the blocked causal attention is the textbook causal attention. -/
theorem flash_eq_attn (x : SX.Idx → EReal) (Wk Wq Wv : SW.Idx → EReal) (hx : ∀ i, RealLaw.IsReal (x i))
    (hk : ∀ i, RealLaw.IsReal (Wk i)) (hq : ∀ i, RealLaw.IsReal (Wq i)) (hv : ∀ i, RealLaw.IsReal (Wv i)) :
    flash x Wk Wq Wv = attn x Wk Wq Wv := by
  funext idx
  choose sr hsr using fun j => isReal_score x Wq Wk hx hq hk (idx 0) (idx 1) j
  choose vr hvr using fun j => isReal_proj x Wv hx hv (idx 0) j (idx 2)
  exact row_core (idx 1) sr vr (mscore x Wq Wk (idx 0) (idx 1)) (fun j => proj x Wv (idx 0) j (idx 2))
    (fun j => by unfold mscore; rw [hsr]) hvr

end Final

end Cert.Attn

end
-- ==== Proof.KRow.lean ====
/-
  One grid row of the attention region is one query tile's rows of the blocked causal attention.

  The region's grid is 8 × 8, run row-major: point `t` is `(g, n) = (t / 8, t % 8)`. Grid row `g` works on query tile
  `perm g` and visits the key/value tiles `n = 0 … 7`. At `n = 0` the running state restarts from `(-∞, 0, 0)`; while
  `n ≤ perm g` it takes one step of the online softmax recurrence on key/value tile `n`; past the query tile it is kept.
  So after point `(g, n)` the state of query row `r` of the tile is the recurrence's state after `min n (perm g) + 1` blocks
  of row `perm g · 256 + r`'s masked scores, and after the row's last point the quotient of numerator and denominator is
  the blocked attention's value at that row.
-/
import proofs.«102945_j49727131353090_2_alg».proof.Proof.KUpdate
import proofs.«102945_j49727131353090_2_alg».proof.Proof.Online
import proofs.«102945_j49727131353090_2_alg».proof.Proof.Gen.KernelIdeal.Launch

set_option maxRecDepth 16384

noncomputable section

open scoped BigOperators

namespace Cert.KernelIdeal.Hand

open Idealize.ShloMosaic Idealize.ShloMosaic.ValueIdx
open Cert.KernelIdeal Cert.KernelIdeal.Gen Cert.Attn.Online

/-- The grid's points in running order: point `t` is `(t / 8, t % 8)`. -/
theorem coords_row (t : Fin grid1.N) : (grid1.coords t 0).val = t.val / 8 ∧ (grid1.coords t 1).val = t.val % 8 := by
  revert t
  decide +kernel

/-- A point's masked score tile is a block of the row's masked scores: for a grid point `(g, n)` with `n ≤ perm g` whose
    query block holds the query projection's rows of tile `perm g` and whose key block those of tile `n`. -/
theorem tile_rowS (x : Cert.Attn.SX.Idx → EReal) (Wk Wq : Cert.Attn.SW.Idx → EReal)
    (i : grid1.Coords) (g : Fin 8) (n : ℕ) (hg : (i 0 : Fin 8) = g) (hn : (i 1).val = n) (hnq : n ≤ (perm g).val)
    (x0 x1 : FVec Ideal S8x256x64 .bf16) (b : Fin 8) (r : Fin 256) (hlt : (perm g).val * 256 + r.val < 2048)
    (h0 : ∀ h, x0 (ix3 b r h) = Cert.Attn.proj x Wq b ⟨(perm g).val * 256 + r.val, hlt⟩ h)
    (h1 : ∀ (c : Fin 256) (hc : n * 256 + c.val < 2048) (h : Fin 64), x1 (ix3 b c h) = Cert.Attn.proj x Wk b ⟨n * 256 + c.val, hc⟩ h) :
    tileS i x0 x1 b r = Cert.Attn.rowS x Wq Wk b ⟨(perm g).val * 256 + r.val, hlt⟩ n := by
  subst hg hn
  funext c
  have hp := (perm (i 0)).isLt
  have hc := c.isLt
  have hcol : (i 1).val * 256 + c.val < 2048 := by omega
  unfold tileS Cert.Attn.rowS Cert.Attn.mscore Cert.Attn.score
  rw [dif_pos hcol]
  simp only [h0, h1 c hcol]
  rfl

section Row

variable (x : Cert.Attn.SX.Idx → EReal) (Wk Wq Wv : Cert.Attn.SW.Idx → EReal)
  (Q K W : Cert.Attn.SO.Idx → EReal)
  (X0 X1 X2 : Fin cfg1.N → Vec Ideal S8x256x64 .bf16)
  (st : (n : ℕ) → n < cfg1.N → St Ideal)
  (hQ : ∀ (b : Fin 8) (t : Fin 2048) (h : Fin 64), Q (ix3 b t h) = Cert.Attn.proj x Wq b t h)
  (hK : ∀ (b : Fin 8) (t : Fin 2048) (h : Fin 64), K (ix3 b t h) = Cert.Attn.proj x Wk b t h)
  (hW : ∀ (b : Fin 8) (t : Fin 2048) (h : Fin 64), W (ix3 b t h) = Cert.Attn.proj x Wv b t h)
  (hX0 : ∀ (t : Fin cfg1.N) (g : Fin 8), t.val / 8 = g.val → ∀ (b : Fin 8) (r : Fin 256) (h : Fin 64)
    (hlt : (perm g).val * 256 + r.val < 2048), X0 t (ix3 b r h) = Q (ix3 b ⟨(perm g).val * 256 + r.val, hlt⟩ h))
  (hX1 : ∀ (t : Fin cfg1.N) (g : Fin 8) (n : ℕ), t.val / 8 = g.val → t.val % 8 = n → ∀ (b : Fin 8) (c : Fin 256) (h : Fin 64)
    (hlt : min n (perm g).val * 256 + c.val < 2048), X1 t (ix3 b c h) = K (ix3 b ⟨min n (perm g).val * 256 + c.val, hlt⟩ h))
  (hX2 : ∀ (t : Fin cfg1.N) (g : Fin 8) (n : ℕ), t.val / 8 = g.val → t.val % 8 = n → ∀ (b : Fin 8) (c : Fin 256) (h : Fin 64)
    (hlt : min n (perm g).val * 256 + c.val < 2048), X2 t (ix3 b c h) = W (ix3 b ⟨min n (perm g).val * 256 + c.val, hlt⟩ h))
  (h0 : ∀ hn, st 0 hn = upd1 (grid1.coords ⟨0, hn⟩) (X0 ⟨0, hn⟩) (X1 ⟨0, hn⟩) (X2 ⟨0, hn⟩) reset1)
  (hs : ∀ n hn, st (n + 1) hn
    = step1 (grid1.coords ⟨n + 1, hn⟩) (X0 ⟨n + 1, hn⟩) (X1 ⟨n + 1, hn⟩) (X2 ⟨n + 1, hn⟩) (st n (Nat.lt_of_succ_lt hn)))

include h0 hs in
/-- At the first point of a grid row the state is one update of the reset state, whatever the row before left. -/
theorem st_start (T : ℕ) (hT : T < cfg1.N) (h8 : T % 8 = 0) :
    st T hT = upd1 (grid1.coords ⟨T, hT⟩) (X0 ⟨T, hT⟩) (X1 ⟨T, hT⟩) (X2 ⟨T, hT⟩) reset1 := by
  cases T with
  | zero => exact h0 hT
  | succ m =>
    rw [hs m hT]
    unfold step1
    rw [init1_pos _ _ ((cond1_0_iff _).2 ((coords_row ⟨m + 1, hT⟩).2.trans h8))]

include hs in
/-- At a later point of a grid row the state is one update of the state the point before left. -/
theorem st_next (T : ℕ) (hT : T + 1 < cfg1.N) (h8 : (T + 1) % 8 ≠ 0) :
    st (T + 1) hT = upd1 (grid1.coords ⟨T + 1, hT⟩) (X0 ⟨T + 1, hT⟩) (X1 ⟨T + 1, hT⟩) (X2 ⟨T + 1, hT⟩)
      (st T (Nat.lt_of_succ_lt hT)) := by
  rw [hs T hT]
  unfold step1
  rw [init1_neg _ _ (fun hc => h8 ((coords_row ⟨T + 1, hT⟩).2.symm.trans ((cond1_0_iff _).1 hc)))]

include hQ hK hW hX0 hX1 hX2 in
/-- One update at point `(g, n)`, `n ≤ perm g`, takes the recurrence's state after `n` blocks of the row's masked scores to
    its state after `n + 1` blocks. -/
theorem upd_state (T : ℕ) (hT : T < cfg1.N) (g : Fin 8) (n : ℕ) (hg : T / 8 = g.val) (hn : T % 8 = n) (hnq : n ≤ (perm g).val)
    (S : St Ideal) (b : Fin 8) (r : Fin 256) (h : Fin 64) (hlt : (perm g).val * 256 + r.val < 2048)
    (hm : S.1 (ix3 b r 0) = runM (Cert.Attn.rowS x Wq Wk b ⟨(perm g).val * 256 + r.val, hlt⟩) n)
    (hl : S.2.1 (ix3 b r 0) = runL (Cert.Attn.rowS x Wq Wk b ⟨(perm g).val * 256 + r.val, hlt⟩) n)
    (ha : S.2.2 (ix3 b r h) = runA (Cert.Attn.rowS x Wq Wk b ⟨(perm g).val * 256 + r.val, hlt⟩) (Cert.Attn.rowV x Wv b h) n) :
    (upd1 (grid1.coords ⟨T, hT⟩) (X0 ⟨T, hT⟩) (X1 ⟨T, hT⟩) (X2 ⟨T, hT⟩) S).1 (ix3 b r 0)
        = runM (Cert.Attn.rowS x Wq Wk b ⟨(perm g).val * 256 + r.val, hlt⟩) (n + 1)
      ∧ (upd1 (grid1.coords ⟨T, hT⟩) (X0 ⟨T, hT⟩) (X1 ⟨T, hT⟩) (X2 ⟨T, hT⟩) S).2.1 (ix3 b r 0)
        = runL (Cert.Attn.rowS x Wq Wk b ⟨(perm g).val * 256 + r.val, hlt⟩) (n + 1)
      ∧ (upd1 (grid1.coords ⟨T, hT⟩) (X0 ⟨T, hT⟩) (X1 ⟨T, hT⟩) (X2 ⟨T, hT⟩) S).2.2 (ix3 b r h)
        = runA (Cert.Attn.rowS x Wq Wk b ⟨(perm g).val * 256 + r.val, hlt⟩) (Cert.Attn.rowV x Wv b h) (n + 1) := by
  have hq := (perm g).isLt
  have hc0 : (grid1.coords ⟨T, hT⟩ 0 : Fin 8) = g := Fin.ext ((coords_row ⟨T, hT⟩).1.trans hg)
  have hc1 : (grid1.coords ⟨T, hT⟩ 1).val = n := (coords_row ⟨T, hT⟩).2.trans hn
  have hpq : perm (grid1.coords ⟨T, hT⟩ 0) = perm g := congrArg perm hc0
  have hcond : cond1_1 (grid1.coords ⟨T, hT⟩) := (cond1_1_iff _).2 (by rw [hc1, hpq]; exact hnq)
  have hmin : min n (perm g).val = n := min_eq_left hnq
  -- the point's blocks are the projections' tiles
  have hk1 : ∀ (c : Fin 256) (hc : n * 256 + c.val < 2048) (h' : Fin 64),
      X1 ⟨T, hT⟩ (ix3 b c h') = Cert.Attn.proj x Wk b ⟨n * 256 + c.val, hc⟩ h' := by
    intro c hc h'
    have hc' : min n (perm g).val * 256 + c.val < 2048 := by rw [hmin]; exact hc
    have e : (⟨min n (perm g).val * 256 + c.val, hc'⟩ : Fin 2048) = ⟨n * 256 + c.val, hc⟩ := Fin.ext (by
      show min n (perm g).val * 256 + c.val = n * 256 + c.val
      rw [hmin])
    rw [hX1 ⟨T, hT⟩ g n hg hn b c h' hc', e, hK]
  have hk2 : ∀ (c : Fin 256) (hc : n * 256 + c.val < 2048) (h' : Fin 64),
      X2 ⟨T, hT⟩ (ix3 b c h') = Cert.Attn.proj x Wv b ⟨n * 256 + c.val, hc⟩ h' := by
    intro c hc h'
    have hc' : min n (perm g).val * 256 + c.val < 2048 := by rw [hmin]; exact hc
    have e : (⟨min n (perm g).val * 256 + c.val, hc'⟩ : Fin 2048) = ⟨n * 256 + c.val, hc⟩ := Fin.ext (by
      show min n (perm g).val * 256 + c.val = n * 256 + c.val
      rw [hmin])
    rw [hX2 ⟨T, hT⟩ g n hg hn b c h' hc', e, hW]
  have htile : tileS (grid1.coords ⟨T, hT⟩) (X0 ⟨T, hT⟩) (X1 ⟨T, hT⟩) b r
      = Cert.Attn.rowS x Wq Wk b ⟨(perm g).val * 256 + r.val, hlt⟩ n :=
    tile_rowS x Wk Wq (grid1.coords ⟨T, hT⟩) g n hc0 hc1 hnq (X0 ⟨T, hT⟩) (X1 ⟨T, hT⟩) b r hlt
      (fun h' => (hX0 ⟨T, hT⟩ g hg b r h' hlt).trans (hQ _ _ _)) hk1
  have hM : newM (grid1.coords ⟨T, hT⟩) (X0 ⟨T, hT⟩) (X1 ⟨T, hT⟩) S.1 b r
      = runM (Cert.Attn.rowS x Wq Wk b ⟨(perm g).val * 256 + r.val, hlt⟩) (n + 1) := by
    show max (S.1 (ix3 b r 0)) (Finset.univ.sup (tileS (grid1.coords ⟨T, hT⟩) (X0 ⟨T, hT⟩) (X1 ⟨T, hT⟩) b r)) = _
    rw [htile, hm]
    rfl
  refine ⟨?_, ?_, ?_⟩
  · rw [upd_m _ _ _ _ _ hcond]
    exact hM
  · rw [upd_l _ _ _ _ _ hcond, hM, hm, hl, htile]
    rfl
  · rw [upd_a _ _ _ _ _ hcond, hM, hm, ha, htile]
    refine congrArg (HAdd.hAdd (_ : EReal)) (Finset.sum_congr rfl fun c _ => ?_)
    have hc := c.isLt
    have hcol : n * 256 + c.val < 2048 := by omega
    rw [hk2 c hcol h]
    unfold Cert.Attn.rowV
    rw [dif_pos hcol]

include hQ hK hW hX0 hX1 hX2 h0 hs in
/-- After point `(g, n)` the state of query row `r` of tile `perm g` is the recurrence's state after `min n (perm g) + 1`
    blocks of that row's masked scores. -/
theorem row_state : ∀ (T : ℕ) (hT : T < cfg1.N) (g : Fin 8) (n : ℕ), T / 8 = g.val → T % 8 = n →
    ∀ (b : Fin 8) (r : Fin 256) (h : Fin 64) (hlt : (perm g).val * 256 + r.val < 2048),
      (st T hT).1 (ix3 b r 0)
          = runM (Cert.Attn.rowS x Wq Wk b ⟨(perm g).val * 256 + r.val, hlt⟩) (min n (perm g).val + 1)
        ∧ (st T hT).2.1 (ix3 b r 0)
          = runL (Cert.Attn.rowS x Wq Wk b ⟨(perm g).val * 256 + r.val, hlt⟩) (min n (perm g).val + 1)
        ∧ (st T hT).2.2 (ix3 b r h)
          = runA (Cert.Attn.rowS x Wq Wk b ⟨(perm g).val * 256 + r.val, hlt⟩) (Cert.Attn.rowV x Wv b h)
              (min n (perm g).val + 1) := by
  have hN : cfg1.N = 64 := N_1
  -- the first point of a row: one update of the reset state
  have start : ∀ (T : ℕ) (hT : T < cfg1.N) (g : Fin 8), T / 8 = g.val → T % 8 = 0 →
      ∀ (b : Fin 8) (r : Fin 256) (h : Fin 64) (hlt : (perm g).val * 256 + r.val < 2048),
        (st T hT).1 (ix3 b r 0) = runM (Cert.Attn.rowS x Wq Wk b ⟨(perm g).val * 256 + r.val, hlt⟩) (0 + 1)
          ∧ (st T hT).2.1 (ix3 b r 0) = runL (Cert.Attn.rowS x Wq Wk b ⟨(perm g).val * 256 + r.val, hlt⟩) (0 + 1)
          ∧ (st T hT).2.2 (ix3 b r h)
            = runA (Cert.Attn.rowS x Wq Wk b ⟨(perm g).val * 256 + r.val, hlt⟩) (Cert.Attn.rowV x Wv b h) (0 + 1) := by
    intro T hT g hg h8 b r h hlt
    rw [st_start X0 X1 X2 st h0 hs T hT h8]
    exact upd_state x Wk Wq Wv Q K W X0 X1 X2 hQ hK hW hX0 hX1 hX2 T hT g 0 hg h8 (Nat.zero_le _) reset1 b r h hlt
      (reset1_m _) (reset1_l _) (reset1_a _)
  intro T
  induction T with
  | zero =>
    intro hT g n hg hn b r h hlt
    have hn0 : n = 0 := by omega
    subst hn0
    rw [Nat.zero_min]
    exact start 0 hT g hg rfl b r h hlt
  | succ m ih =>
    intro hT g n hg hn b r h hlt
    have hq := (perm g).isLt
    by_cases h8 : (m + 1) % 8 = 0
    · have hn0 : n = 0 := by omega
      subst hn0
      rw [Nat.zero_min]
      exact start (m + 1) hT g hg h8 b r h hlt
    · have hg' : m / 8 = g.val := by omega
      have hn' : m % 8 = n - 1 := by omega
      have hn1 : 1 ≤ n := by omega
      obtain ⟨ihm, ihl, iha⟩ := ih (Nat.lt_of_succ_lt hT) g (n - 1) hg' hn' b r h hlt
      rw [st_next X0 X1 X2 st hs m hT h8]
      by_cases hle : n ≤ (perm g).val
      · have e1 : min (n - 1) (perm g).val + 1 = n := by omega
        have e2 : min n (perm g).val = n := by omega
        rw [e1] at ihm ihl iha
        rw [e2]
        exact upd_state x Wk Wq Wv Q K W X0 X1 X2 hQ hK hW hX0 hX1 hX2 (m + 1) hT g n hg hn hle _ b r h hlt ihm ihl iha
      · have e : min (n - 1) (perm g).val = min n (perm g).val := by omega
        have hc0 : (grid1.coords ⟨m + 1, hT⟩ 0 : Fin 8) = g := Fin.ext ((coords_row ⟨m + 1, hT⟩).1.trans hg)
        have hc1 : (grid1.coords ⟨m + 1, hT⟩ 1).val = n := (coords_row ⟨m + 1, hT⟩).2.trans hn
        have hpq : perm (grid1.coords ⟨m + 1, hT⟩ 0) = perm g := congrArg perm hc0
        have hnc : ¬cond1_1 (grid1.coords ⟨m + 1, hT⟩) := fun hc => hle (by
          have := (cond1_1_iff _).1 hc
          rw [hc1, hpq] at this
          exact this)
        rw [upd1_neg _ _ _ _ _ hnc, ← e]
        exact ⟨ihm, ihl, iha⟩

include hQ hK hW hX0 hX1 hX2 h0 hs in
/-- After the last point of grid row `g` the quotient of the running numerator and denominator is the blocked causal
    attention at the rows of query tile `perm g`. -/
theorem row_final (g : Fin 8) (t : Fin cfg1.N) (ht : t.val = g.val * 8 + 7) (b : Fin 8) (r : Fin 256) (h : Fin 64)
    (hlt : (perm g).val * 256 + r.val < 2048) :
    k1_pay4 (F := Ideal) (st t.val t.isLt).2.2 (st t.val t.isLt).2.1 (ix3 b r h)
      = Cert.Attn.flash x Wk Wq Wv (ix3 b ⟨(perm g).val * 256 + r.val, hlt⟩ h) := by
  have hq := (perm g).isLt
  have hr := r.isLt
  obtain ⟨-, hl, ha⟩ := row_state x Wk Wq Wv Q K W X0 X1 X2 st hQ hK hW hX0 hX1 hX2 h0 hs t.val t.isLt g 7
    (by omega) (by omega) b r h hlt
  have e : min 7 (perm g).val + 1 = (perm g).val + 1 := by omega
  have ediv : ((perm g).val * 256 + r.val) / 256 = (perm g).val := by omega
  rw [fin_at, ha, hl, e]
  unfold Cert.Attn.flash
  show _ = Ideal.div
    (runA (Cert.Attn.rowS x Wq Wk b ⟨(perm g).val * 256 + r.val, hlt⟩) (Cert.Attn.rowV x Wv b h)
      (((perm g).val * 256 + r.val) / 256 + 1))
    (runL (Cert.Attn.rowS x Wq Wk b ⟨(perm g).val * 256 + r.val, hlt⟩) (((perm g).val * 256 + r.val) / 256 + 1))
  rw [ediv]

end Row

end Cert.KernelIdeal.Hand

end
-- ==== Proof.KFinal1.lean ====
/-
  The attention region, from blocks to the array, on the extended reals.

  The grid is 8 × 8, point `t` is `(g, n) = (t / 8, t % 8)`. Point `t` reads rows `perm g · 256 …` of the query array and
  rows `min n (perm g) · 256 …` of the key and value arrays, all 8 batches and 64 head columns at once, and at the last
  point of a grid row (`n = 7`) writes rows `perm g · 256 …` of the result back. What is written back is those rows of the
  blocked causal attention of the three arrays the region is entered with; `perm` is a permutation of the 8 tiles, so
  the 8 blocks written back cover the result, which therefore ends as the blocked causal attention everywhere.
-/
import proofs.«102945_j49727131353090_2_alg».proof.Proof.KRegion1
import proofs.«102945_j49727131353090_2_alg».proof.Proof.KRow
import Idealize.ShloMosaic.Lib.Pipeline.Value

set_option maxRecDepth 16384

noncomputable section

open scoped BigOperators

namespace Cert.KernelIdeal.Hand

open Idealize.ShloMosaic Idealize.ShloMosaic.TcCoe Idealize.ShloMosaic.ValueIdx
open Idealize.ShloMosaic.Pipeline (Dat)
open Cert.KernelIdeal Cert.KernelIdeal.Gen

/-! ## The index maps over the grid -/

/-- The printed index maps, decided over the 64 points: every window's batch and head blocks are the first; the query
    and the result windows' row block is the grid row's query tile, the key and value windows' row block is the
    key/value tile clamped to the query tile. -/
theorem idx_facts1 : ∀ t : Fin cfg1.N,
    win1_0.index t (0 : Fin 3) = 0 ∧ win1_0.index t (1 : Fin 3) = (perm (grid1.coords t 0)).val ∧ win1_0.index t (2 : Fin 3) = 0
    ∧ win1_1.index t (0 : Fin 3) = 0
      ∧ win1_1.index t (1 : Fin 3) = min (grid1.coords t 1).val (perm (grid1.coords t 0)).val ∧ win1_1.index t (2 : Fin 3) = 0
    ∧ win1_2.index t (0 : Fin 3) = 0
      ∧ win1_2.index t (1 : Fin 3) = min (grid1.coords t 1).val (perm (grid1.coords t 0)).val ∧ win1_2.index t (2 : Fin 3) = 0
    ∧ win1_3.index t (0 : Fin 3) = 0 ∧ win1_3.index t (1 : Fin 3) = (perm (grid1.coords t 0)).val ∧ win1_3.index t (2 : Fin 3) = 0 :=
  (by decide +kernel : ∀ t : Fin grid1.N, _)

/-- The tile whose query rows grid row `g` works on, inverted. -/
def permInv : Fin 8 → Fin 8 := ![0, 5, 2, 7, 3, 6, 1, 4]

theorem perm_permInv : ∀ q : Fin 8, perm (permInv q) = q := by decide

variable (V : (c : Dev nD) → (b : Ref sig .tc) → Buf (Elt Ideal) ((c : Thread nD τ).loc b))

/-! ## The three input blocks at a point -/

/-- Point `t`'s query block is rows `perm g · 256 …` of the array the region finds in the query's buffer. -/
theorem iblk1_0_apply (c : Dev nD) (t : Fin cfg1.N) (g : Fin 8) (hg : t.val / 8 = g.val) (b : Fin 8) (r : Fin 256) (h : Fin 64)
    (hlt : (perm g).val * 256 + r.val < 2048) :
    iblk1 V c 0 t (ix3 b r h) = V c main_v4 (ix3 b ⟨(perm g).val * 256 + r.val, hlt⟩ h) := by
  obtain ⟨e0, e1, e2, -⟩ := idx_facts1 t
  have hc0 : (grid1.coords t 0 : Fin 8) = g := Fin.ext ((coords_row t).1.trans hg)
  rw [congrArg perm hc0] at e1
  show V c main_v4 (((cfg1.win 0).blk t).view.emb (ix3 b r h)) = _
  refine congrArg (V c main_v4) (funext fun a => Fin.ext ?_)
  match a with
  | ⟨0, _⟩ => show win1_0.index t (0 : Fin 3) * 8 + 1 * b.val = b.val; omega
  | ⟨1, _⟩ => show win1_0.index t (1 : Fin 3) * 256 + 1 * r.val = (perm g).val * 256 + r.val; omega
  | ⟨2, _⟩ => show win1_0.index t (2 : Fin 3) * 64 + 1 * h.val = h.val; omega

/-- Point `t`'s key block is rows `min n (perm g) · 256 …` of the array the region finds in the key's buffer. -/
theorem iblk1_1_apply (c : Dev nD) (t : Fin cfg1.N) (g : Fin 8) (n : ℕ) (hg : t.val / 8 = g.val) (hn : t.val % 8 = n)
    (b : Fin 8) (r : Fin 256) (h : Fin 64) (hlt : min n (perm g).val * 256 + r.val < 2048) :
    iblk1 V c 1 t (ix3 b r h) = V c main_v5 (ix3 b ⟨min n (perm g).val * 256 + r.val, hlt⟩ h) := by
  obtain ⟨-, -, -, e0, e1, e2, -⟩ := idx_facts1 t
  have hc0 : (grid1.coords t 0 : Fin 8) = g := Fin.ext ((coords_row t).1.trans hg)
  have hc1 : (grid1.coords t 1).val = n := (coords_row t).2.trans hn
  rw [congrArg perm hc0, hc1] at e1
  show V c main_v5 (((cfg1.win 1).blk t).view.emb (ix3 b r h)) = _
  refine congrArg (V c main_v5) (funext fun a => Fin.ext ?_)
  match a with
  | ⟨0, _⟩ => show win1_1.index t (0 : Fin 3) * 8 + 1 * b.val = b.val; omega
  | ⟨1, _⟩ => show win1_1.index t (1 : Fin 3) * 256 + 1 * r.val = min n (perm g).val * 256 + r.val; rw [e1]; omega
  | ⟨2, _⟩ => show win1_1.index t (2 : Fin 3) * 64 + 1 * h.val = h.val; omega

/-- Point `t`'s value block is rows `min n (perm g) · 256 …` of the array the region finds in the value's buffer. -/
theorem iblk1_2_apply (c : Dev nD) (t : Fin cfg1.N) (g : Fin 8) (n : ℕ) (hg : t.val / 8 = g.val) (hn : t.val % 8 = n)
    (b : Fin 8) (r : Fin 256) (h : Fin 64) (hlt : min n (perm g).val * 256 + r.val < 2048) :
    iblk1 V c 2 t (ix3 b r h) = V c main_v6 (ix3 b ⟨min n (perm g).val * 256 + r.val, hlt⟩ h) := by
  obtain ⟨-, -, -, -, -, -, e0, e1, e2, -⟩ := idx_facts1 t
  have hc0 : (grid1.coords t 0 : Fin 8) = g := Fin.ext ((coords_row t).1.trans hg)
  have hc1 : (grid1.coords t 1).val = n := (coords_row t).2.trans hn
  rw [congrArg perm hc0, hc1] at e1
  show V c main_v6 (((cfg1.win 2).blk t).view.emb (ix3 b r h)) = _
  refine congrArg (V c main_v6) (funext fun a => Fin.ext ?_)
  match a with
  | ⟨0, _⟩ => show win1_2.index t (0 : Fin 3) * 8 + 1 * b.val = b.val; omega
  | ⟨1, _⟩ => show win1_2.index t (1 : Fin 3) * 256 + 1 * r.val = min n (perm g).val * 256 + r.val; rw [e1]; omega
  | ⟨2, _⟩ => show win1_2.index t (2 : Fin 3) * 64 + 1 * h.val = h.val; omega

/-! ## The result window -/

section Result

variable (x : Cert.Attn.SX.Idx → EReal) (Wk Wq Wv : Cert.Attn.SW.Idx → EReal) (c : Dev nD)
  (hQ : ∀ (b : Fin 8) (t : Fin 2048) (h : Fin 64), V c main_v4 (ix3 b t h) = Cert.Attn.proj x Wq b t h)
  (hK : ∀ (b : Fin 8) (t : Fin 2048) (h : Fin 64), V c main_v5 (ix3 b t h) = Cert.Attn.proj x Wk b t h)
  (hW : ∀ (b : Fin 8) (t : Fin 2048) (h : Fin 64), V c main_v6 (ix3 b t h) = Cert.Attn.proj x Wv b t h)

include hQ hK hW in
/-- At the last point `t` of grid row `g`, entry `y` of the result block is the blocked causal attention at the array entry
    `i` that sits `perm g` row blocks down: batch `y 0`, row `perm g · 256 + y 1`, column `y 2`. -/
theorem out1_3_block (t : Fin cfg1.N) (h7 : t.val % 8 = 7) (g : Fin 8) (hg : t.val / 8 = g.val)
    (y : S8x256x64.Idx) (i : Cert.Attn.SO.Idx)
    (hi0 : (i 0).val = (y 0).val) (hi1 : (i 1).val = (perm g).val * 256 + (y 1).val) (hi2 : (i 2).val = (y 2).val) :
    k1_pay4 (F := Ideal) (outsAt1 V c t.val t.isLt).2.2 (outsAt1 V c t.val t.isLt).2.1 y = Cert.Attn.flash x Wk Wq Wv i := by
  obtain ⟨b, r, h, rfl⟩ : ∃ (b : Fin 8) (r : Fin 256) (h : Fin 64), y = ix3 b r h := ⟨y 0, y 1, y 2, eq_ix3 y⟩
  have hq := (perm g).isLt
  have hr := r.isLt
  have hlt : (perm g).val * 256 + r.val < 2048 := by omega
  have hi : i = ix3 b ⟨(perm g).val * 256 + r.val, hlt⟩ h := funext fun a => Fin.ext (by
    match a with
    | ⟨0, _⟩ => exact hi0
    | ⟨1, _⟩ => exact hi1
    | ⟨2, _⟩ => exact hi2)
  rw [hi]
  exact row_final x Wk Wq Wv (V c main_v4) (V c main_v5) (V c main_v6)
    (fun t => iblk1 V c 0 t) (fun t => iblk1 V c 1 t) (fun t => iblk1 V c 2 t) (outsAt1 V c) hQ hK hW
    (fun t g hg b r h hlt => iblk1_0_apply V c t g hg b r h hlt)
    (fun t g n hg hn b r h hlt => iblk1_1_apply V c t g n hg hn b r h hlt)
    (fun t g n hg hn b r h hlt => iblk1_2_apply V c t g n hg hn b r h hlt)
    (fun hn => rfl) (fun n hn => rfl) g t (by omega) b r h hlt

include hQ hK hW in
/-- WHAT A FLUSHING POINT `t` WRITES BACK to the result window is block `t` of the blocked causal attention. -/
theorem flushed1_3_eq (t : Fin cfg1.N) (hf : (cfg1.win 3).flush t = true) :
    (dat1 V c).flushed 3 t = ((cfg1.win 3).blk t).view.read (Elt Ideal) (Cert.Attn.flash x Wk Wq Wv) := by
  have h7 : t.val % 8 = 7 := (flush1_3 t).1 hf
  have hN : cfg1.N = 64 := N_1
  have ht := t.isLt
  have hg8 : t.val / 8 < 8 := by omega
  show (cfg1.win 3).cut (grid1.coords t) ((dat1 V c).after 3 t) = _
  rw [after1_3]
  obtain ⟨-, -, -, -, -, -, -, -, -, e0, e1, e2⟩ := idx_facts1 t
  obtain ⟨g, hg⟩ : ∃ g : Fin 8, t.val / 8 = g.val := ⟨⟨t.val / 8, hg8⟩, rfl⟩
  have hc0 : (grid1.coords t 0 : Fin 8) = g := Fin.ext ((coords_row t).1.trans hg)
  rw [congrArg perm hc0] at e1
  funext y
  refine out1_3_block V x Wk Wq Wv c hQ hK hW t h7 g hg y (((cfg1.win 3).blk t).view.emb y) ?_ ?_ ?_
  · show win1_3.index t (0 : Fin 3) * 8 + 1 * (y 0).val = (y 0).val; omega
  · show win1_3.index t (1 : Fin 3) * 256 + 1 * (y 1).val = (perm g).val * 256 + (y 1).val; omega
  · show win1_3.index t (2 : Fin 3) * 64 + 1 * (y 2).val = (y 2).val; omega

/-- An index of the array is in point `t`'s block iff each coordinate is in the block's range on its axis. -/
theorem mem_blk1_3 (t : Fin cfg1.N) (i : S8x2048x64.Idx) :
    i ∈ ((cfg1.win 3).blk t).view.set
      ↔ ∀ a : Fin 3, win1_3.index t a * S8x256x64.size a ≤ (i a).val ∧ (i a).val < win1_3.index t a * S8x256x64.size a + S8x256x64.size a := by
  show i ∈ ((View.whole main_v7).slice (win1_3.rect t)).set ↔ _
  rw [View.set_slice_whole, Rect.mem_set_unit]
  exact Iff.rfl

/-- Every entry of the array is in the block written back at the last point of the grid row whose query tile holds its
    row: row `j` lies in tile `j / 256`, the query tile of grid row `permInv (j / 256)`. -/
theorem covered1_3 (i : S8x2048x64.Idx) :
    ∃ t : Fin cfg1.N, (cfg1.win 3).flush t = true ∧ i ∈ ((cfg1.win 3).blk t).view.set := by
  have hN : cfg1.N = 64 := N_1
  have hi0 : (i 0).val < 8 := (i 0).isLt
  have hi1 : (i 1).val < 2048 := (i 1).isLt
  have hi2 : (i 2).val < 64 := (i 2).isLt
  have hq8 : (i 1).val / 256 < 8 := by omega
  have hgl := (permInv ⟨(i 1).val / 256, hq8⟩).isLt
  have ht : (permInv ⟨(i 1).val / 256, hq8⟩).val * 8 + 7 < cfg1.N := by omega
  refine ⟨⟨(permInv ⟨(i 1).val / 256, hq8⟩).val * 8 + 7, ht⟩, (flush1_3 _).2 (by show ((permInv ⟨(i 1).val / 256, hq8⟩).val * 8 + 7) % 8 = 7; omega), ?_⟩
  obtain ⟨-, -, -, -, -, -, -, -, -, e0, e1, e2⟩ := idx_facts1 ⟨(permInv ⟨(i 1).val / 256, hq8⟩).val * 8 + 7, ht⟩
  have hc0 : (grid1.coords ⟨(permInv ⟨(i 1).val / 256, hq8⟩).val * 8 + 7, ht⟩ 0 : Fin 8) = permInv ⟨(i 1).val / 256, hq8⟩ :=
    Fin.ext ((coords_row _).1.trans (by show ((permInv ⟨(i 1).val / 256, hq8⟩).val * 8 + 7) / 8 = _; omega))
  rw [congrArg perm hc0, perm_permInv] at e1
  rw [mem_blk1_3]
  intro a
  match a with
  | ⟨0, _⟩ =>
    show win1_3.index ⟨(permInv ⟨(i 1).val / 256, hq8⟩).val * 8 + 7, ht⟩ (0 : Fin 3) * 8 ≤ (i 0).val
      ∧ (i 0).val < win1_3.index ⟨(permInv ⟨(i 1).val / 256, hq8⟩).val * 8 + 7, ht⟩ (0 : Fin 3) * 8 + 8
    rw [e0]; omega
  | ⟨1, _⟩ =>
    show win1_3.index ⟨(permInv ⟨(i 1).val / 256, hq8⟩).val * 8 + 7, ht⟩ (1 : Fin 3) * 256 ≤ (i 1).val
      ∧ (i 1).val < win1_3.index ⟨(permInv ⟨(i 1).val / 256, hq8⟩).val * 8 + 7, ht⟩ (1 : Fin 3) * 256 + 256
    rw [e1]; show (i 1).val / 256 * 256 ≤ (i 1).val ∧ (i 1).val < (i 1).val / 256 * 256 + 256; omega
  | ⟨2, _⟩ =>
    show win1_3.index ⟨(permInv ⟨(i 1).val / 256, hq8⟩).val * 8 + 7, ht⟩ (2 : Fin 3) * 64 ≤ (i 2).val
      ∧ (i 2).val < win1_3.index ⟨(permInv ⟨(i 1).val / 256, hq8⟩).val * 8 + 7, ht⟩ (2 : Fin 3) * 64 + 64
    rw [e2]; omega

include hQ hK hW in
/-- THE ARRAY after the region: the blocked causal attention of the three arrays the region was entered with. -/
theorem final1_3 : (dat1 V c).arrAt 3 cfg1.N = Cert.Attn.flash x Wk Wq Wv :=
  (dat1 V c).arrAt_eq_of_cover 3 (Cert.Attn.flash x Wk Wq Wv)
    (fun t hf => flushed1_3_eq V x Wk Wq Wv c hQ hK hW t hf) covered1_3

end Result

end Cert.KernelIdeal.Hand

end
-- ==== Proof.KEntry.lean ====
/-
  What each region is entered with, and the whole run read as a value.

  The first region is entered with the input flattened to `[16384, 1024]` and the fused weight matrix `[Wq | Wk | Wv]`,
  both computed by the host operations from the launch contents of the four arguments. Its three result arrays are
  therefore the three projections in flattened form, and the host operations between the regions split them back, so
  the second region is entered with the query, key and value projections as `[8, 2048, 64]` arrays. What that region
  leaves in the result array is then the blocked causal attention of the four arguments.
-/
import proofs.«102945_j49727131353090_2_alg».proof.Proof.KRun
import proofs.«102945_j49727131353090_2_alg».proof.Proof.KProj
import proofs.«102945_j49727131353090_2_alg».proof.Proof.KFinal0
import proofs.«102945_j49727131353090_2_alg».proof.Proof.KFinal1

set_option maxRecDepth 16384

noncomputable section

namespace Cert.KernelIdeal.Hand

open Idealize.ShloMosaic Idealize.ShloMosaic.TcCoe Idealize.ShloMosaic.ValueIdx Idealize.SL.Sem
open Idealize.ShloMosaic.Pipeline (Dat)
open Cert.KernelIdeal Cert.KernelIdeal.Gen Cert.Attn

variable (m : (ℓ : Loc nD τ sig) → Buf (Elt Ideal) ℓ) (ρ : Dev nD → PrngReg) (c : Dev nD)

/-! ## The first region's entry -/

/-- The first region finds the input flattened to `[16384, 1024]` … -/
theorem entry0_x :
    V1 m ρ c main_v2
      = shapeCast S16384x1024 (m ((c.tc : Thread nD τ).loc main_arg0)) shapeCasts_S8x2048x1024_S16384x1024 :=
  hostOps0_flat (W0 m ρ c)

/-- … and the fused weight matrix of the three weight arguments. -/
theorem entry0_w :
    V1 m ρ c main_v1
      = fusedW (m ((c.tc : Thread nD τ).loc main_arg2)) (m ((c.tc : Thread nD τ).loc main_arg1))
          (m ((c.tc : Thread nD τ).loc main_arg3)) :=
  hostOps0_fused (W0 m ρ c)

/-! ## The second region's entry -/

/-- The second region finds the query projection … -/
theorem entry1_q (b : Fin 8) (t : Fin 2048) (h : Fin 64) :
    V3 m ρ c main_v4 (ix3 b t h)
      = proj (m ((c.tc : Thread nD τ).loc main_arg0)) (m ((c.tc : Thread nD τ).loc main_arg2)) b t h := by
  have e : V3 m ρ c main_v4
      = shapeCast S8x2048x64 ((dat0 (V1 m ρ) c).arrAt 2 cfg0.N) shapeCasts_S16384x64_S8x2048x64 :=
    (hostOps1_q (W2 m ρ c)).trans
      (congrArg (fun y => shapeCast S8x2048x64 y shapeCasts_S16384x64_S8x2048x64) (W2_arr m ρ c 2))
  rw [e]
  exact arr0_2_proj (V1 m ρ) _ (m ((c.tc : Thread nD τ).loc main_arg1)) _ (m ((c.tc : Thread nD τ).loc main_arg3)) c
    (entry0_x m ρ c) (entry0_w m ρ c) b t h

/-- … the key projection … -/
theorem entry1_k (b : Fin 8) (t : Fin 2048) (h : Fin 64) :
    V3 m ρ c main_v5 (ix3 b t h)
      = proj (m ((c.tc : Thread nD τ).loc main_arg0)) (m ((c.tc : Thread nD τ).loc main_arg1)) b t h := by
  have e : V3 m ρ c main_v5
      = shapeCast S8x2048x64 ((dat0 (V1 m ρ) c).arrAt 3 cfg0.N) shapeCasts_S16384x64_S8x2048x64 :=
    (hostOps1_k (W2 m ρ c)).trans
      (congrArg (fun y => shapeCast S8x2048x64 y shapeCasts_S16384x64_S8x2048x64) (W2_arr m ρ c 3))
  rw [e]
  exact arr0_3_proj (V1 m ρ) _ _ (m ((c.tc : Thread nD τ).loc main_arg2)) (m ((c.tc : Thread nD τ).loc main_arg3)) c
    (entry0_x m ρ c) (entry0_w m ρ c) b t h

/-- … and the value projection. -/
theorem entry1_v (b : Fin 8) (t : Fin 2048) (h : Fin 64) :
    V3 m ρ c main_v6 (ix3 b t h)
      = proj (m ((c.tc : Thread nD τ).loc main_arg0)) (m ((c.tc : Thread nD τ).loc main_arg3)) b t h := by
  have e : V3 m ρ c main_v6
      = shapeCast S8x2048x64 ((dat0 (V1 m ρ) c).arrAt 4 cfg0.N) shapeCasts_S16384x64_S8x2048x64 :=
    (hostOps1_v (W2 m ρ c)).trans
      (congrArg (fun y => shapeCast S8x2048x64 y shapeCasts_S16384x64_S8x2048x64) (W2_arr m ρ c 4))
  rw [e]
  exact arr0_4_proj (V1 m ρ) _ (m ((c.tc : Thread nD τ).loc main_arg1)) (m ((c.tc : Thread nD τ).loc main_arg2)) _ c
    (entry0_x m ρ c) (entry0_w m ρ c) b t h

/-! ## The result -/

/-- What the second region's write-backs leave in the result array is the blocked causal attention of the four
    arguments' launch contents. -/
theorem kernel_value :
    (dat1 (V3 m ρ) c).arrAt 3 cfg1.N
      = flash (m ((c.tc : Thread nD τ).loc main_arg0)) (m ((c.tc : Thread nD τ).loc main_arg1))
          (m ((c.tc : Thread nD τ).loc main_arg2)) (m ((c.tc : Thread nD τ).loc main_arg3)) :=
  final1_3 (V3 m ρ) _ _ _ _ c (entry1_q m ρ c) (entry1_k m ρ c) (entry1_v m ρ c)

/-- From any memory with zero counters, every weakly fair execution of the idealized kernel terminates with its result
    array at the blocked causal attention of the four argument arrays it started from, and those arrays unchanged. -/
theorem kernel_run :
    θ_run (defs (F := Ideal)) (onTc (τ := τ) (main (F := Ideal))) ⟨m, fun _ => 0, ρ⟩ (fun r => ∀ c : Dev nD,
      r.2.mem ((c.tc : Thread nD τ).loc main_v7)
        = flash (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c' => ⟨(h c').1.trans (kernel_value m ρ c'), (h c').2⟩) (run_full m ρ)

end Cert.KernelIdeal.Hand

end
-- ==== Proof.Finite.lean ====
/-
  From the finiteness precondition to real entries.

  The precondition reads `all(|a0| < +∞) ∧ all(|a1| < +∞) ∧ all(|a2| < +∞) ∧ all(|a3| < +∞)`: each `all` is a reduction by
  `and` of one-bit words starting from `1`, and the conjunction is the `and` of the four one-bit results. At the ideal
  reading `|x| = max x (-x)` and the word `0x7F800000` is `+∞`; `max x (-x) < +∞` excludes `x = +∞` and `x = -∞`, so every
  entry of the four arrays is a real number.
-/
import proofs.«102945_j49727131353090_2_alg».proof.Pre_finite_inputs
import proofs.«102945_j49727131353090_2_alg».proof.Proof.Gen.Pre_finite_inputs
import proofs.«102945_j49727131353090_2_alg».proof.Proof.LibRealLaw
import Idealize.ShloMosaic.Lib.ReduceAll
import Idealize.ShloMosaic.Lib.ValueIdx

noncomputable section

namespace Cert.Attn.Finite

open Idealize.ShloMosaic Cert.Attn.RealLaw Cert.Pre_finite_inputs

/-- The shape of a scalar has one index. -/
instance : Subsingleton S_.Idx := ⟨fun a b => funext fun d => d.elim0⟩

/-- The single-precision word `0x7F800000` (sign `0`, exponent field all ones, significand field `0`) is `+∞`. -/
theorem inf_eq : Ideal.ofBits .f32 0x7F800000#32 = (⊤ : EReal) := by
  simp [Ideal.ofBits, Ideal.ieee]

/-- An extended real whose absolute value `max x (-x)` compares below `+∞` is a real number. -/
theorem isReal_of_abs_lt (x : EReal) (h : Ideal.cmp .olt (max x (-x)) (Ideal.ofBits .f32 0x7F800000#32) = 1#1) :
    IsReal x := by
  rw [inf_eq] at h
  induction x using EReal.rec with
  | bot => simp [Ideal.cmp] at h
  | coe r => exact ⟨r, rfl⟩
  | top => simp [Ideal.cmp] at h

/-- One `all(|a| < +∞)` that came out `1`: every entry of `a` is real. -/
theorem all_real {s : Shape} {axes : List (Fin s.rank)} (a : FVec Ideal s .f32)
    (bc : S_.BroadcastsInDim s (![] : Fin 0 → Fin s.rank)) (hr : s.ReducesTo axes S_) (hu : 0 < S_.numel) (init : IVec S_ 1)
    (e : Host.reduce IntOp.andi (cmpf .olt (Host.absf a) (broadcastInDim s ![] bc (constant (F := Ideal) S_ .f32 0x7F800000#32)))
      init hr hu ValueIdx.ix0 = 1#1) (i : s.Idx) : IsReal (a i) :=
  isReal_of_abs_lt (a i) (Host.reduce_andi_all _ init hr hu ValueIdx.ix0 e i)

/-- The precondition gives real entries in all four arrays. -/
theorem real_of_pre [Cert.Pre_finite_inputs.Facts] (a0 : FVec Ideal S8x2048x1024 .f32) (a1 a2 a3 : FVec Ideal S1024x64 .f32)
    (h : Cert.Pre_finite_inputs.fn (F := Ideal) a0 a1 a2 a3 = fun _ => 1#1) :
    (∀ i, IsReal (a0 i)) ∧ (∀ i, IsReal (a1 i)) ∧ (∀ i, IsReal (a2 i)) ∧ (∀ i, IsReal (a3 i)) := by
  have h0 := congrFun h ValueIdx.ix0
  dsimp only [Cert.Pre_finite_inputs.fn, Cert.Pre_finite_inputs.fn_part1, andi] at h0
  obtain ⟨h012, h3⟩ := IntOp.andi_eq_one.1 h0
  obtain ⟨h01, h2⟩ := IntOp.andi_eq_one.1 h012
  obtain ⟨h0', h1⟩ := IntOp.andi_eq_one.1 h01
  exact ⟨all_real a0 _ _ _ _ h0', all_real a1 _ _ _ _ h1, all_real a2 _ _ _ _ h2, all_real a3 _ _ _ _ h3⟩

end Cert.Attn.Finite

end
-- ==== Proof.Claims.lean ====
/-
  The certificate's claims about the idealized kernel and the idealized reference.

  At the ideal reading the kernel leaves the blocked causal attention `flash` of its four arguments in its result array
  and the reference leaves the textbook causal attention `attn` of its own. From memories that agree on the arguments
  the two are `flash` and `attn` of the same arrays, and those are equal where every entry is a real number, which
  the finiteness precondition gives. The kernel's one named constant is `-∞` in the certificate's table.
-/
import proofs.«102945_j49727131353090_2_alg».proof.Defs
import proofs.«102945_j49727131353090_2_alg».proof.Proof.RefValue
import proofs.«102945_j49727131353090_2_alg».proof.Proof.RefFrame
import proofs.«102945_j49727131353090_2_alg».proof.Proof.KEntry
import proofs.«102945_j49727131353090_2_alg».proof.Proof.Online
import proofs.«102945_j49727131353090_2_alg».proof.Proof.Finite
import Idealize.ShloMosaic.PureOps.IdealRules

noncomputable section

namespace Cert.Proof.Claims

open Idealize.ShloMosaic Idealize.ShloMosaic.TcCoe Idealize.SL.Sem

/-- The idealized kernel runs and leaves its four arguments as launched. -/
theorem frame_pi : Cert.frame_KernelIdeal := fun m ρ _ => Cert.KernelIdeal.Hand.frame m ρ

/-- The one named constant: the table gives `"neg_big"` the value `-∞`, and the printed constant is that value. -/
theorem preserves : Cert.preserves_Kernel_KernelIdeal :=
  IdealRules.named_const.statement Cert.KernelIdeal.κ "neg_big" .f32 0xFF333332#32 ⊥ rfl

/-- From memories agreeing on the arguments, under the finiteness precondition, the idealized kernel and the idealized
    reference end with equal results: `flash` of the arguments is `attn` of them where every entry is real. -/
theorem algebraic : Cert.algebraic_KernelIdeal_ReferenceIdeal := by
  intro m ρ m' ρ' hpre hagree
  refine ⟨fun c => Cert.Attn.flash
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.Hand.kernel_run m ρ, ?_⟩
  refine (θ_run Cert.ReferenceIdeal.defs _ _).mono (fun _ h c => ⟨(h c).1.trans ?_, (h c).2⟩)
    (Cert.ReferenceIdeal.RefValue.ref_run m' ρ')
  rw [(hagree c).1, (hagree c).2.1, (hagree c).2.2.1, (hagree c).2.2.2]
  obtain ⟨h0, h1, h2, h3⟩ := Cert.Attn.Finite.real_of_pre _ _ _ _ (hpre c)
  exact (Cert.Attn.flash_eq_attn _ _ _ _ h0 h1 h2 h3).symm

end Cert.Proof.Claims

end
-- ==== Proof.lean ====
/-
  A fused query/key/value projection followed by blocked causal attention (the online softmax recurrence over 256 x 256
  tiles, tiles above the diagonal skipped, the masked scores' fill value read as -∞) against textbook causal attention.

  Both programs, read over the extended reals from the same finite inputs, end with the same result array:
  the kernel's is `Cert.Attn.flash` of the inputs — the projection region leaves the three projections, and along each
  grid row the attention region's running maximum, denominator and numerator are those of the online softmax recurrence
  on that query tile's rows —, the reference's is `Cert.Attn.attn`, and for real inputs the two agree. Each program also
  runs to the end without a fault and leaves its arguments as launched.
-/
import proofs.«102945_j49727131353090_2_alg».proof.Defs
import proofs.«102945_j49727131353090_2_alg».proof.Proof.BRun
import proofs.«102945_j49727131353090_2_alg».proof.Proof.Claims

noncomputable section

namespace Cert.Proof

open Idealize.ShloMosaic Idealize.SL.Sem

/-- The word-level kernel runs to the end and leaves its arguments as launched. -/
theorem frame_p : Cert.frame_Kernel := fun m ρ _ => Cert.Kernel.Hand.frame m ρ

theorem claim : Cert.Claim := ⟨Cert.Kernel.Gen.facts, Cert.KernelIdeal.Gen.facts, Cert.ReferenceIdeal.Gen.facts, Cert.Pre_finite_inputs.Gen.facts,
  frame_p, Cert.Proof.Claims.frame_pi, Cert.ReferenceIdeal.RefValue.frame_ri, Cert.Proof.Claims.preserves, Cert.Proof.Claims.algebraic⟩

end Cert.Proof

end
